-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S8x128x128 : Shape := ⟨3, ![8, 128, 128]⟩
abbrev S19x256 : Shape := ⟨2, ![19, 256]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel
  bcast_S_S19x256 : S_.BroadcastsInDim S19x256 (![] : Fin 0 → Fin S19x256.rank)
  reducesTo_S19x256_S_d0_1 : S19x256.ReducesTo [0, 1] S_

variable [Facts]

def fn {F : FTy → Type} [FloatOps F] (main_arg0 : FVec F S8x256x128x128 .f32) (main_arg1 : IVec S8x128x128 32) (main_arg2 : FVec F S19x256 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S19x256 .f32 := Host.absf main_arg2
  let main_cst_0 : FVec F S_ .f32 := constant S_ .f32 0x7F800000#32
  let main_v5 : FVec F S19x256 .f32 := broadcastInDim S19x256 ![] bcast_S_S19x256 main_cst_0
  let main_v6 : IVec S19x256 1 := cmpf .olt main_v4 main_v5
  let main_c_1 : IVec S_ 1 := constantI S_ 1 1#1
  let main_v7 : IVec S_ 1 := (fun x v => Host.reduce IntOp.andi x v reducesTo_S19x256_S_d0_1 h_S_) main_v6 main_c_1
  let main_v8 : IVec S_ 1 := andi main_v3 main_v7
  main_v8
-- ==== Kernel.lean ====
abbrev S8x256x128x128 : Shape := ⟨4, ![8, 256, 128, 128]⟩
abbrev S8x128x128 : Shape := ⟨3, ![8, 128, 128]⟩
abbrev S19x256 : Shape := ⟨2, ![19, 256]⟩
abbrev S2x19x256 : Shape := ⟨3, ![2, 19, 256]⟩
abbrev S2x19x128 : Shape := ⟨3, ![2, 19, 128]⟩
abbrev S1x256x32x128 : Shape := ⟨4, ![1, 256, 32, 128]⟩
abbrev S1x32x128 : Shape := ⟨3, ![1, 32, 128]⟩
abbrev S1x19x256 : Shape := ⟨3, ![1, 19, 256]⟩
abbrev S1x19x128 : Shape := ⟨3, ![1, 19, 128]⟩
abbrev S19x128 : Shape := ⟨2, ![19, 128]⟩
abbrev S256x32x128 : Shape := ⟨3, ![256, 32, 128]⟩
abbrev S32x128 : Shape := ⟨2, ![32, 128]⟩
abbrev S256x32 : Shape := ⟨2, ![256, 32]⟩
abbrev S256 : Shape := ⟨1, ![256]⟩
abbrev S1x1x256 : Shape := ⟨3, ![1, 1, 256]⟩
abbrev S32 : Shape := ⟨1, ![32]⟩
abbrev S1x32 : Shape := ⟨2, ![1, 32]⟩
abbrev S1 : Shape := ⟨1, ![1]⟩
abbrev S1x1 : Shape := ⟨2, ![1, 1]⟩
abbrev S1x1x128 : Shape := ⟨3, ![1, 1, 128]⟩
abbrev S128 : Shape := ⟨1, ![128]⟩
abbrev S1x19x1 : Shape := ⟨3, ![1, 19, 1]⟩
abbrev S19 : Shape := ⟨1, ![19]⟩
abbrev S19x1 : Shape := ⟨2, ![19, 1]⟩
abbrev S256x19 : Shape := ⟨2, ![256, 19]⟩
abbrev S19x19 : Shape := ⟨2, ![19, 19]⟩
abbrev S_ : Shape := ⟨0, ![]⟩

abbrev nBuf : Space → Nat
  | .hbm => 20
  | .vmem => 11
  | .smem => 0
  | _ => 0

abbrev bufTy : (tb : Table) → Fin (tcTables nBuf tb) → BufTy
  | .hbm, ⟨0, _⟩ => ⟨S8x256x128x128, .f32⟩
  | .hbm, ⟨1, _⟩ => ⟨S8x128x128, .i32⟩
  | .hbm, ⟨2, _⟩ => ⟨S19x256, .f32⟩
  | .hbm, ⟨3, _⟩ => ⟨S2x19x256, .f32⟩
  | .hbm, ⟨4, _⟩ => ⟨S2x19x128, .f32⟩
  | .hbm, ⟨5, _⟩ => ⟨S1x19x256, .f32⟩
  | .hbm, ⟨6, _⟩ => ⟨S19x256, .f32⟩
  | .hbm, ⟨7, _⟩ => ⟨S1x19x256, .f32⟩
  | .hbm, ⟨8, _⟩ => ⟨S19x256, .f32⟩
  | .hbm, ⟨9, _⟩ => ⟨S19x256, .f32⟩
  | .hbm, ⟨10, _⟩ => ⟨S1x19x1, .f32⟩
  | .hbm, ⟨11, _⟩ => ⟨S19, .f32⟩
  | .hbm, ⟨12, _⟩ => ⟨S1x19x1, .f32⟩
  | .hbm, ⟨13, _⟩ => ⟨S19, .f32⟩
  | .hbm, ⟨14, _⟩ => ⟨S19, .f32⟩
  | .hbm, ⟨15, _⟩ => ⟨S19x1, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1x256x32x128, .f32⟩
  | .local _ .vmem, ⟨1, _⟩ => ⟨S1x256x32x128, .f32⟩
  | .local _ .vmem, ⟨2, _⟩ => ⟨S1x32x128, .i32⟩
  | .local _ .vmem, ⟨3, _⟩ => ⟨S1x32x128, .i32⟩
  | .local _ .vmem, ⟨4, _⟩ => ⟨S1x19x256, .f32⟩
  | .local _ .vmem, ⟨5, _⟩ => ⟨S1x19x256, .f32⟩
  | .local _ .vmem, ⟨6, _⟩ => ⟨S1x19x128, .f32⟩
  | .local _ .vmem, ⟨7, _⟩ => ⟨S1x19x128, .f32⟩
  | .local _ .vmem, ⟨8, _⟩ => ⟨S19x256, .f32⟩
  | .local _ .vmem, ⟨9, _⟩ => ⟨S19x1, .f32⟩
  | .local _ .vmem, ⟨10, _⟩ => ⟨S1x1, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x19x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x19x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S19x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S19x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S1x19x256_S1x19x256_0_0_0 : ∀ a, (![0, 0, 0] : Fin 3 → Nat) a + S1x19x256.size a ≤ S1x19x256.size a
  h_S1x19x256 : 0 < S1x19x256.numel
  shapeCasts_S1x19x256_S19x256 : S1x19x256.ShapeCasts S19x256
  shapeCasts_S19x256_S1x19x256 : S19x256.ShapeCasts S1x19x256
  inb_S1x19x128_S1x19x128_0_0_0 : ∀ a, (![0, 0, 0] : Fin 3 → Nat) a + S1x19x128.size a ≤ S1x19x128.size a
  h_S1x19x128 : 0 < S1x19x128.numel
  shapeCasts_S1x19x128_S19x128 : S1x19x128.ShapeCasts S19x128
  shapeCasts_S19x128_S1x19x128 : S19x128.ShapeCasts S1x19x128
  inb_S1x256x32x128_S1x256x32x128_0_0_0_0 : ∀ a, (![0, 0, 0, 0] : Fin 4 → Nat) a + S1x256x32x128.size a ≤ S1x256x32x128.size a
  h_S1x256x32x128 : 0 < S1x256x32x128.numel
  shapeCasts_S1x256x32x128_S256x32x128 : S1x256x32x128.ShapeCasts S256x32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  natLt_1_32 : 1 < 32
  shapeCasts_S32x128_S1x32x128 : S32x128.ShapeCasts S1x32x128
  broadcasts_S1x32x128_S256x32x128 : S1x32x128.Broadcasts S256x32x128
  reduces_S256x32x128_S256x32 : S256x32x128.Reduces [2] S256x32
  reduces_S256x32_S256 : S256x32.Reduces [1] S256
  inb_S1x19x256_S1x1x256_0_0_0 : ∀ a, (![0, 0, 0] : Fin 3 → Nat) a + S1x1x256.size a ≤ S1x19x256.size a
  h_S1x1x256 : 0 < S1x1x256.numel
  shapeCasts_S1x1x256_S256 : S1x1x256.ShapeCasts S256
  shapeCasts_S256_S1x1x256 : S256.ShapeCasts S1x1x256
  reduces_S32x128_S32 : S32x128.Reduces [1] S32
  shapeCasts_S32_S1x32 : S32.ShapeCasts S1x32
  reduces_S1x32_S1 : S1x32.Reduces [1] S1
  shapeCasts_S1_S1x1 : S1.ShapeCasts S1x1
  inpos_S1x1_p0_0 : ∀ a, (![0, 0] : Fin 2 → Nat) a < S1x1.size a
  inb_S1x19x128_S1x1x128_0_0_0 : ∀ a, (![0, 0, 0] : Fin 3 → Nat) a + S1x1x128.size a ≤ S1x19x128.size a
  h_S1x1x128 : 0 < S1x1x128.numel
  shapeCasts_S1x1x128_S128 : S1x1x128.ShapeCasts S128
  shapeCasts_S128_S1x1x128 : S128.ShapeCasts S1x1x128
  inb_S1x19x256_S1x1x256_0_1_0 : ∀ a, (![0, 1, 0] : Fin 3 → Nat) a + S1x1x256.size a ≤ S1x19x256.size a
  inb_S1x19x128_S1x1x128_0_1_0 : ∀ a, (![0, 1, 0] : Fin 3 → Nat) a + S1x1x128.size a ≤ S1x19x128.size a
  inb_S1x19x256_S1x1x256_0_2_0 : ∀ a, (![0, 2, 0] : Fin 3 → Nat) a + S1x1x256.size a ≤ S1x19x256.size a
  inb_S1x19x128_S1x1x128_0_2_0 : ∀ a, (![0, 2, 0] : Fin 3 → Nat) a + S1x1x128.size a ≤ S1x19x128.size a
  inb_S1x19x256_S1x1x256_0_3_0 : ∀ a, (![0, 3, 0] : Fin 3 → Nat) a + S1x1x256.size a ≤ S1x19x256.size a
  inb_S1x19x128_S1x1x128_0_3_0 : ∀ a, (![0, 3, 0] : Fin 3 → Nat) a + S1x1x128.size a ≤ S1x19x128.size a
  inb_S1x19x256_S1x1x256_0_4_0 : ∀ a, (![0, 4, 0] : Fin 3 → Nat) a + S1x1x256.size a ≤ S1x19x256.size a
  inb_S1x19x128_S1x1x128_0_4_0 : ∀ a, (![0, 4, 0] : Fin 3 → Nat) a + S1x1x128.size a ≤ S1x19x128.size a
  inb_S1x19x256_S1x1x256_0_5_0 : ∀ a, (![0, 5, 0] : Fin 3 → Nat) a + S1x1x256.size a ≤ S1x19x256.size a
  inb_S1x19x128_S1x1x128_0_5_0 : ∀ a, (![0, 5, 0] : Fin 3 → Nat) a + S1x1x128.size a ≤ S1x19x128.size a
  inb_S1x19x256_S1x1x256_0_6_0 : ∀ a, (![0, 6, 0] : Fin 3 → Nat) a + S1x1x256.size a ≤ S1x19x256.size a
  inb_S1x19x128_S1x1x128_0_6_0 : ∀ a, (![0, 6, 0] : Fin 3 → Nat) a + S1x1x128.size a ≤ S1x19x128.size a
  inb_S1x19x256_S1x1x256_0_7_0 : ∀ a, (![0, 7, 0] : Fin 3 → Nat) a + S1x1x256.size a ≤ S1x19x256.size a
  inb_S1x19x128_S1x1x128_0_7_0 : ∀ a, (![0, 7, 0] : Fin 3 → Nat) a + S1x1x128.size a ≤ S1x19x128.size a
  inb_S1x19x256_S1x1x256_0_8_0 : ∀ a, (![0, 8, 0] : Fin 3 → Nat) a + S1x1x256.size a ≤ S1x19x256.size a
  inb_S1x19x128_S1x1x128_0_8_0 : ∀ a, (![0, 8, 0] : Fin 3 → Nat) a + S1x1x128.size a ≤ S1x19x128.size a
  inb_S1x19x256_S1x1x256_0_9_0 : ∀ a, (![0, 9, 0] : Fin 3 → Nat) a + S1x1x256.size a ≤ S1x19x256.size a
  inb_S1x19x128_S1x1x128_0_9_0 : ∀ a, (![0, 9, 0] : Fin 3 → Nat) a + S1x1x128.size a ≤ S1x19x128.size a
  inb_S1x19x256_S1x1x256_0_10_0 : ∀ a, (![0, 10, 0] : Fin 3 → Nat) a + S1x1x256.size a ≤ S1x19x256.size a
  inb_S1x19x128_S1x1x128_0_10_0 : ∀ a, (![0, 10, 0] : Fin 3 → Nat) a + S1x1x128.size a ≤ S1x19x128.size a
  inb_S1x19x256_S1x1x256_0_11_0 : ∀ a, (![0, 11, 0] : Fin 3 → Nat) a + S1x1x256.size a ≤ S1x19x256.size a
  inb_S1x19x128_S1x1x128_0_11_0 : ∀ a, (![0, 11, 0] : Fin 3 → Nat) a + S1x1x128.size a ≤ S1x19x128.size a
  inb_S1x19x256_S1x1x256_0_12_0 : ∀ a, (![0, 12, 0] : Fin 3 → Nat) a + S1x1x256.size a ≤ S1x19x256.size a
  inb_S1x19x128_S1x1x128_0_12_0 : ∀ a, (![0, 12, 0] : Fin 3 → Nat) a + S1x1x128.size a ≤ S1x19x128.size a
  inb_S1x19x256_S1x1x256_0_13_0 : ∀ a, (![0, 13, 0] : Fin 3 → Nat) a + S1x1x256.size a ≤ S1x19x256.size a
  inb_S1x19x128_S1x1x128_0_13_0 : ∀ a, (![0, 13, 0] : Fin 3 → Nat) a + S1x1x128.size a ≤ S1x19x128.size a
  inb_S1x19x256_S1x1x256_0_14_0 : ∀ a, (![0, 14, 0] : Fin 3 → Nat) a + S1x1x256.size a ≤ S1x19x256.size a
  inb_S1x19x128_S1x1x128_0_14_0 : ∀ a, (![0, 14, 0] : Fin 3 → Nat) a + S1x1x128.size a ≤ S1x19x128.size a
  inb_S1x19x256_S1x1x256_0_15_0 : ∀ a, (![0, 15, 0] : Fin 3 → Nat) a + S1x1x256.size a ≤ S1x19x256.size a
  inb_S1x19x128_S1x1x128_0_15_0 : ∀ a, (![0, 15, 0] : Fin 3 → Nat) a + S1x1x128.size a ≤ S1x19x128.size a
  inb_S1x19x256_S1x1x256_0_16_0 : ∀ a, (![0, 16, 0] : Fin 3 → Nat) a + S1x1x256.size a ≤ S1x19x256.size a
  inb_S1x19x128_S1x1x128_0_16_0 : ∀ a, (![0, 16, 0] : Fin 3 → Nat) a + S1x1x128.size a ≤ S1x19x128.size a
  inb_S1x19x256_S1x1x256_0_17_0 : ∀ a, (![0, 17, 0] : Fin 3 → Nat) a + S1x1x256.size a ≤ S1x19x256.size a
  inb_S1x19x128_S1x1x128_0_17_0 : ∀ a, (![0, 17, 0] : Fin 3 → Nat) a + S1x1x128.size a ≤ S1x19x128.size a
  inb_S1x19x256_S1x1x256_0_18_0 : ∀ a, (![0, 18, 0] : Fin 3 → Nat) a + S1x1x256.size a ≤ S1x19x256.size a
  inb_S1x19x128_S1x1x128_0_18_0 : ∀ a, (![0, 18, 0] : Fin 3 → Nat) a + S1x1x128.size a ≤ S1x19x128.size a
  slices_S2x19x256_S1x19x256_0_0_0 : S2x19x256.Slices ![0, 0, 0] S1x19x256
  slices_S2x19x256_S1x19x256_1_0_0 : S2x19x256.Slices ![1, 0, 0] S1x19x256
  slices_S2x19x128_S1x19x1_0_0_0 : S2x19x128.Slices ![0, 0, 0] S1x19x1
  shapeCasts_S1x19x1_S19 : S1x19x1.ShapeCasts S19
  slices_S2x19x128_S1x19x1_1_0_0 : S2x19x128.Slices ![1, 0, 0] S1x19x1
  shapeCasts_S19_S19x1 : S19.ShapeCasts S19x1
  inb_S19x256_S19x256_0_0 : ∀ a, (![0, 0] : Fin 2 → Nat) a + S19x256.size a ≤ S19x256.size a
  h_S19x256 : 0 < S19x256.numel
  shapeCasts_S19x256_S19x256 : S19x256.ShapeCasts S19x256
  inb_S19x1_S19x1_0_0 : ∀ a, (![0, 0] : Fin 2 → Nat) a + S19x1.size a ≤ S19x1.size a
  h_S19x1 : 0 < S19x1.numel
  shapeCasts_S19x1_S19x1 : S19x1.ShapeCasts S19x1
  broadcasts_S19x1_S19x256 : S19x1.Broadcasts S19x256
  reduces_S19x256_S19 : S19x256.Reduces [1] S19
  bitsLt_bf16_f32 : FTy.bits .bf16 < FTy.bits .f32
  transposes_S19x256_p1_0_S256x19 : S19x256.Transposes [1, 0] S256x19
  iota_S19x19_d0_w32 : S19x19.Iotas .tc 32 [0]
  iota_S19x19_d1_w32 : S19x19.Iotas .tc 32 [1]
  reduces_S19x19_S19 : S19x19.Reduces [1] S19
  reduces_S19x1_S1 : S19x1.Reduces [0] S1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S19x256_S256x19_S19x19_1_0_0_1_n_n_wf : DotDims.WF S19x256 S256x19 S19x19 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x128.size a ≤ S8x256x128x128.size a
  hwx0_0 : ∀ i : grid0.Coords, EltTy.bits .f32 = 32 ∨ (Rect.block (s := S8x256x128x128) S1x256x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128.size a ≤ S8x128x128.size a
  hwx0_1 : ∀ i : grid0.Coords, EltTy.bits .i32 = 32 ∨ (Rect.block (s := S8x128x128) S1x32x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x256.size a ≤ S2x19x256.size a
  hwx0_2 : ∀ i : grid0.Coords, EltTy.bits .f32 = 32 ∨ (Rect.block (s := S2x19x256) S1x19x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x19x128.size a ≤ S2x19x128.size a
  hwx0_3 : ∀ i : grid0.Coords, EltTy.bits .f32 = 32 ∨ (Rect.block (s := S2x19x128) S1x19x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S19x256.size a ≤ S19x256.size a
  hwx1_0 : ∀ i : grid1.Coords, EltTy.bits .f32 = 32 ∨ (Rect.block (s := S19x256) S19x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S19x1.size a ≤ S19x1.size a
  hwx1_1 : ∀ i : grid1.Coords, EltTy.bits .f32 = 32 ∨ (Rect.block (s := S19x1) S19x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S19x256_S256x19_S19x19_1_0_0_1_n_n : DotDims S19x256 S256x19 S19x19 where
  lhsContracting := [1]
  rhsContracting := [0]
  lhsNonContracting := [0]
  rhsNonContracting := [1]
  lhsBatch := []
  rhsBatch := []
  wf := dot_S19x256_S256x19_S19x19_1_0_0_1_n_n_wf

abbrev win0_0 : Pipeline.Window sig grid0 :=
  Pipeline.Window.ofSpec (Memref.whole main_arg0) S1x256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x19x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x19x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S19x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v11) S19x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x256x128x128 : Shape := ⟨4, ![8, 256, 128, 128]⟩
abbrev S8x128x128 : Shape := ⟨3, ![8, 128, 128]⟩
abbrev S19x256 : Shape := ⟨2, ![19, 256]⟩
abbrev S8x128x128x256 : Shape := ⟨4, ![8, 128, 128, 256]⟩
abbrev S131072x256 : Shape := ⟨2, ![131072, 256]⟩
abbrev S131072 : Shape := ⟨1, ![131072]⟩
abbrev S_ : Shape := ⟨0, ![]⟩
abbrev S131072x1 : Shape := ⟨2, ![131072, 1]⟩
abbrev S19 : Shape := ⟨1, ![19]⟩
abbrev S19x1 : Shape := ⟨2, ![19, 1]⟩
abbrev S256x19 : Shape := ⟨2, ![256, 19]⟩
abbrev S19x19 : Shape := ⟨2, ![19, 19]⟩

abbrev nBuf : Space → Nat
  | .hbm => 59
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S8x128x128, .i32⟩
  | .hbm, ⟨2, _⟩ => ⟨S19x256, .f32⟩
  | .hbm, ⟨3, _⟩ => ⟨S8x128x128x256, .f32⟩
  | .hbm, ⟨4, _⟩ => ⟨S131072x256, .f32⟩
  | .hbm, ⟨5, _⟩ => ⟨S131072, .i32⟩
  | .hbm, ⟨6, _⟩ => ⟨S_, .f32⟩
  | .hbm, ⟨7, _⟩ => ⟨S19x256, .f32⟩
  | .hbm, ⟨8, _⟩ => ⟨S131072x1, .i32⟩
  | .hbm, ⟨9, _⟩ => ⟨S19x256, .f32⟩
  | .hbm, ⟨10, _⟩ => ⟨S_, .f32⟩
  | .hbm, ⟨11, _⟩ => ⟨S131072, .f32⟩
  | .hbm, ⟨12, _⟩ => ⟨S_, .f32⟩
  | .hbm, ⟨13, _⟩ => ⟨S19, .f32⟩
  | .hbm, ⟨14, _⟩ => ⟨S131072x1, .i32⟩
  | .hbm, ⟨15, _⟩ => ⟨S19, .f32⟩
  | .hbm, ⟨16, _⟩ => ⟨S_, .f32⟩
  | .hbm, ⟨17, _⟩ => ⟨S19, .f32⟩
  | .hbm, ⟨18, _⟩ => ⟨S19, .f32⟩
  | .hbm, ⟨19, _⟩ => ⟨S19x1, .f32⟩
  | .hbm, ⟨20, _⟩ => ⟨S19x256, .f32⟩
  | .hbm, ⟨21, _⟩ => ⟨S19x256, .f32⟩
  | .hbm, ⟨22, _⟩ => ⟨S19x256, .f32⟩
  | .hbm, ⟨23, _⟩ => ⟨S_, .f32⟩
  | .hbm, ⟨24, _⟩ => ⟨S19, .f32⟩
  | .hbm, ⟨25, _⟩ => ⟨S19x1, .f32⟩
  | .hbm, ⟨26, _⟩ => ⟨S19x1, .f32⟩
  | .hbm, ⟨27, _⟩ => ⟨S_, .f32⟩
  | .hbm, ⟨28, _⟩ => ⟨S19x1, .f32⟩
  | .hbm, ⟨29, _⟩ => ⟨S19x1, .f32⟩
  | .hbm, ⟨30, _⟩ => ⟨S19x256, .f32⟩
  | .hbm, ⟨31, _⟩ => ⟨S19x256, .f32⟩
  | .hbm, ⟨32, _⟩ => ⟨S256x19, .f32⟩
  | .hbm, ⟨33, _⟩ => ⟨S19x19, .f32⟩
  | .hbm, ⟨34, _⟩ => ⟨S_, .f32⟩
  | .hbm, ⟨35, _⟩ => ⟨S19x19, .f32⟩
  | .hbm, ⟨36, _⟩ => ⟨S19x19, .f32⟩
  | .hbm, ⟨37, _⟩ => ⟨S19x19, .i32⟩
  | .hbm, ⟨38, _⟩ => ⟨S19x19, .i32⟩
  | .hbm, ⟨39, _⟩ => ⟨S_, .i32⟩
  | .hbm, ⟨40, _⟩ => ⟨S19x19, .i32⟩
  | .hbm, ⟨41, _⟩ => ⟨S19x19, .i32⟩
  | .hbm, ⟨42, _⟩ => ⟨S19x19, .i1⟩
  | .hbm, ⟨43, _⟩ => ⟨S_, .f32⟩
  | .hbm, ⟨44, _⟩ => ⟨S_, .f32⟩
  | .hbm, ⟨45, _⟩ => ⟨S19x19, .f32⟩
  | .hbm, ⟨46, _⟩ => ⟨S19x19, .f32⟩
  | .hbm, ⟨47, _⟩ => ⟨S_, .f32⟩
  | .hbm, ⟨48, _⟩ => ⟨S19x19, .f32⟩
  | .hbm, ⟨49, _⟩ => ⟨S19x19, .f32⟩
  | .hbm, ⟨50, _⟩ => ⟨S_, .f32⟩
  | .hbm, ⟨51, _⟩ => ⟨S19x19, .f32⟩
  | .hbm, ⟨52, _⟩ => ⟨S19x19, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩

abbrev nD : Nat := 1
abbrev τ : Topo := Topo.v7x

variable {F : FTy → Type} [FloatOps F]

class Facts₀ : Prop where
  transposes_S8x256x128x128_S8x128x128x256_0_2_3_1 : S8x256x128x128.Transposes [0, 2, 3, 1] S8x128x128x256
  shapeCasts_S8x128x128x256_S131072x256 : S8x128x128x256.ShapeCasts S131072x256
  shapeCasts_S8x128x128_S131072 : S8x128x128.ShapeCasts S131072
  bcast_S_S19x256 : S_.BroadcastsInDim S19x256 (![] : Fin 0 → Fin S19x256.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S19 : S_.BroadcastsInDim S19 (![] : Fin 0 → Fin S19.rank)
  bcast_S19_S19x1_0 : S19.BroadcastsInDim S19x1 (![0] : Fin 1 → Fin S19x1.rank)
  bcast_S19x1_S19x256_0_1 : S19x1.BroadcastsInDim S19x256 (![0, 1] : Fin 2 → Fin S19x256.rank)
  reducesTo_S19x256_S19_d1 : S19x256.ReducesTo [1] S19
  h_S_ : 0 < S_.numel
  bcast_S_S19x1 : S_.BroadcastsInDim S19x1 (![] : Fin 0 → Fin S19x1.rank)
  transposes_S19x256_S256x19_1_0 : S19x256.Transposes [1, 0] S256x19
  bcast_S_S19x19 : S_.BroadcastsInDim S19x19 (![] : Fin 0 → Fin S19x19.rank)
  reducesTo_S19x19_S_d0_1 : S19x19.ReducesTo [0, 1] S_
  scatter_S19x256_S131072x1_S131072x256_1_0_0_1_wf : ScatterDims.WF S19x256 S131072x1 S131072x256 [1] [0] [0] 1
  scatter_S19_S131072x1_S131072_n_0_0_1_wf : ScatterDims.WF S19 S131072x1 S131072 [] [0] [0] 1
  dot_S19x256_S256x19_S19x19_1_0_0_1_n_n_wf : DotDims.WF S19x256 S256x19 S19x19 [1] [0] [0] [1] [] []

variable [Facts₀]

def scatter_S19x256_S131072x1_S131072x256_1_0_0_1 : ScatterDims S19x256 S131072x1 S131072x256 where
  updateWindowDims := [1]
  insertedWindowDims := [0]
  scatterDimsToOperandDims := [0]
  indexVectorDim := 1
  wf := scatter_S19x256_S131072x1_S131072x256_1_0_0_1_wf
def scatter_S19_S131072x1_S131072_n_0_0_1 : ScatterDims S19 S131072x1 S131072 where
  updateWindowDims := []
  insertedWindowDims := [0]
  scatterDimsToOperandDims := [0]
  indexVectorDim := 1
  wf := scatter_S19_S131072x1_S131072_n_0_0_1_wf
def dot_S19x256_S256x19_S19x19_1_0_0_1_n_n : DotDims S19x256 S256x19 S19x19 where
  lhsContracting := [1]
  rhsContracting := [0]
  lhsNonContracting := [0]
  rhsNonContracting := [1]
  lhsBatch := []
  rhsBatch := []
  wf := dot_S19x256_S256x19_S19x19_1_0_0_1_n_n_wf

class Facts : Prop extends Facts₀ where

variable [Facts]
-- ==== Proof.Spec.lean ====
/-
  The mathematics both programs compute, stated once over plain finite index types.

  A pixel (b, h, w) of image b carries a class label; a feature map has 256 channels per pixel.
  * `segS X L k c` is the sum over all pixels of class k of channel c; `segC L k` the number of
    pixels of class k. A pixel enters a sum through the indicator `ind`: the product with 1 or 0.
  * The kernel sweeps each half of the batch (`co`) in 16 tiles of 32 rows × 128 lanes
    (`blkX`, `blkL`): `tileS`, `tileC` are one tile's sums, `halfS`, `halfC` a half's.
  * From per-class sums S and counts C: class means, their L2-normalisation with the norm clamped
    below, the 19 × 19 matrix of cosine distances with its diagonal forced to 2, the hinge
    `max (1/2 - D) 0`, and its mean — taken at once over 361 entries (`loss`) or as a mean of
    row means (`lossK`).
-/
import Idealize.ShloMosaic.PureOps.Ideal
import Idealize.ShloMosaic.Lib.ValueIdx

noncomputable section

namespace Cert.Spec

open Idealize.ShloMosaic

/-- A feature map by (image, channel, row, lane). -/
abbrev Feat := Fin 8 → Fin 256 → Fin 128 → Fin 128 → EReal
/-- A label map by (image, row, lane). -/
abbrev Lab := Fin 8 → Fin 128 → Fin 128 → BitVec 32

/-- 1 when the label word is class `k`, else 0. -/
def ind (l : BitVec 32) (k : Fin 19) : EReal := if l = BitVec.ofNat 32 k.val then 1 else 0

/-- Channel `c` summed over the pixels of class `k`. -/
def segS (X : Feat) (L : Lab) (k : Fin 19) (c : Fin 256) : EReal :=
  ∑ b : Fin 8, ∑ h : Fin 128, ∑ w : Fin 128, X b c h w * ind (L b h w) k
/-- The number of pixels of class `k`. -/
def segC (L : Lab) (k : Fin 19) : EReal :=
  ∑ b : Fin 8, ∑ h : Fin 128, ∑ w : Fin 128, ind (L b h w) k

/-- One tile's masked channel sum: rows first, lanes inside. -/
def tileS (x : Fin 256 → Fin 32 → Fin 128 → EReal) (l : Fin 32 → Fin 128 → BitVec 32) (k : Fin 19) (c : Fin 256) : EReal :=
  ∑ h : Fin 32, ∑ w : Fin 128, x c h w * ind (l h w) k
/-- One tile's pixel count of class `k`. -/
def tileC (l : Fin 32 → Fin 128 → BitVec 32) (k : Fin 19) : EReal :=
  ∑ h : Fin 32, ∑ w : Fin 128, ind (l h w) k

/-- Tile `j` of half `co`: image `4 co + j / 4`, rows `32 (j % 4) …`. -/
def blkX (X : Feat) (co : Fin 2) (j : Fin 16) : Fin 256 → Fin 32 → Fin 128 → EReal :=
  fun c h w => X ⟨co.val * 4 + j.val / 4, by omega⟩ c ⟨(j.val % 4) * 32 + h.val, by omega⟩ w
def blkL (L : Lab) (co : Fin 2) (j : Fin 16) : Fin 32 → Fin 128 → BitVec 32 :=
  fun h w => L ⟨co.val * 4 + j.val / 4, by omega⟩ ⟨(j.val % 4) * 32 + h.val, by omega⟩ w

/-- A half's sums: its 16 tiles. -/
def halfS (X : Feat) (L : Lab) (co : Fin 2) (k : Fin 19) (c : Fin 256) : EReal :=
  ∑ j : Fin 16, tileS (blkX X co j) (blkL L co j) k c
def halfC (L : Lab) (co : Fin 2) (k : Fin 19) : EReal :=
  ∑ j : Fin 16, tileC (blkL L co j) k

/-! The float literals of the two programs, as the extended reals their words denote. -/
def c1 : EReal := Ideal.ofBits .f32 0x3F800000#32
def c2 : EReal := Ideal.ofBits .f32 0x40000000#32
def chalf : EReal := Ideal.ofBits .f32 0x3F000000#32
def ceps : EReal := Ideal.ofBits .f32 0x2B8CBCCC#32
def c19 : EReal := Ideal.ofBits .f32 0x41980000#32
def c361 : EReal := Ideal.ofBits .f32 0x43B48000#32

section Tail
variable (S : Fin 19 → Fin 256 → EReal) (C : Fin 19 → EReal)

/-- The class mean, the count clamped below by 1. -/
def mean (k : Fin 19) (c : Fin 256) : EReal := Ideal.div (S k c) (max (C k) c1)
/-- The mean vector's length, clamped below. -/
def nrm (k : Fin 19) : EReal := max (Ideal.sqrt (∑ c : Fin 256, mean S C k c * mean S C k c)) ceps
/-- The normalised mean. -/
def mn (k : Fin 19) (c : Fin 256) : EReal := Ideal.div (mean S C k c) (nrm S C k)
/-- The hinge of the cosine distance, the diagonal's distance forced to 2. -/
def lossMat (i j : Fin 19) : EReal :=
  max (chalf - (if i = j then c2 else c1 - ∑ c : Fin 256, mn S C i c * mn S C j c)) 0
/-- The mean over all 361 entries, times the unit factor. -/
def loss : EReal := c1 * Ideal.div (∑ i : Fin 19, ∑ j : Fin 19, lossMat S C i j) c361
/-- The mean of the 19 row means. -/
def lossK0 : EReal := Ideal.div (∑ i : Fin 19, Ideal.div (∑ j : Fin 19, lossMat S C i j) c19) c19
def lossK : EReal := c1 * lossK0 S C
end Tail

/-- An array of shape [8, 256, 128, 128] by coordinates. -/
def featOf (x : (⟨4, ![8, 256, 128, 128]⟩ : Shape).Idx → EReal) : Feat := fun b c h w => x (ValueIdx.ix4 b c h w)
/-- An array of shape [8, 128, 128] by coordinates. -/
def labOf (x : (⟨3, ![8, 128, 128]⟩ : Shape).Idx → BitVec 32) : Lab := fun b h w => x (ValueIdx.ix3 b h w)

end Cert.Spec

end
-- ==== Proof.SpecAlg.lean ====
import proofs.«170524_j53137335386661_1_alg».proof.Proof.Spec

noncomputable section

namespace Cert.Spec
open Idealize.ShloMosaic

namespace Alg

/-! ### Re-grouping the tile sweep

A pixel row `(b, y)` with `b < 8`, `y < 128` is met exactly once by the sweep: in half `b / 4`, tile
`4 (b % 4) + y / 32`, tile row `y % 32`. -/

/-- (half, tile, row in tile) ↔ (image, row). -/
def tileEquiv : Fin 2 × Fin 16 × Fin 32 ≃ Fin 8 × Fin 128 where
  toFun t := (⟨t.1.val * 4 + t.2.1.val / 4, by omega⟩, ⟨(t.2.1.val % 4) * 32 + t.2.2.val, by omega⟩)
  invFun q := (⟨q.1.val / 4, by omega⟩, ⟨(q.1.val % 4) * 4 + q.2.val / 32, by omega⟩, ⟨q.2.val % 32, by omega⟩)
  left_inv t := by
    obtain ⟨co, j, h⟩ := t
    refine Prod.ext (Fin.ext ?_) (Prod.ext (Fin.ext ?_) (Fin.ext ?_)) <;> dsimp only <;> omega
  right_inv q := by
    obtain ⟨b, y⟩ := q
    refine Prod.ext (Fin.ext ?_) (Fin.ext ?_) <;> dsimp only <;> omega

/-- The sweep over halves, tiles and tile rows is the sum over all pixel rows, in any additive commutative monoid. -/
theorem sum_tiles {M : Type*} [AddCommMonoid M] (f : Fin 8 → Fin 128 → M) :
    (∑ co : Fin 2, ∑ j : Fin 16, ∑ h : Fin 32,
        f ⟨co.val * 4 + j.val / 4, by omega⟩ ⟨(j.val % 4) * 32 + h.val, by omega⟩)
      = ∑ b : Fin 8, ∑ y : Fin 128, f b y := by
  rw [← Fintype.sum_prod_type' (f := fun b y => f b y)]
  rw [← Fintype.sum_equiv tileEquiv (fun t => f (tileEquiv t).1 (tileEquiv t).2) (fun q => f q.1 q.2) (fun _ => rfl)]
  rw [Fintype.sum_prod_type]
  refine Finset.sum_congr rfl fun co _ => ?_
  rw [Fintype.sum_prod_type]
  rfl

/-! ### Products over sums of non-negative extended reals -/

/-- A sum of non-negative terms times a factor is the sum of the products. -/
theorem sum_mul_of_nonneg {ι : Type*} (s : Finset ι) (r : ι → EReal) (hr : ∀ i ∈ s, 0 ≤ r i) (a : EReal) :
    (∑ i ∈ s, r i) * a = ∑ i ∈ s, r i * a := by
  classical
  induction s using Finset.induction_on with
  | empty => simp
  | insert i s hi ih =>
    rw [Finset.sum_insert hi, Finset.sum_insert hi,
      EReal.right_distrib_of_nonneg (hr i (Finset.mem_insert_self i s))
        (Finset.sum_nonneg fun j hj => hr j (Finset.mem_insert_of_mem hj)),
      ih fun j hj => hr j (Finset.mem_insert_of_mem hj)]

/-- The word `0x41980000` is the real 19. -/
theorem c19_eq : c19 = ((19 : ℝ) : EReal) := by
  unfold c19
  simp [Ideal.ofBits, Ideal.ieee, -EReal.coe_mul]; norm_num

/-- The word `0x43B48000` is the real 361. -/
theorem c361_eq : c361 = ((361 : ℝ) : EReal) := by
  unfold c361
  simp [Ideal.ofBits, Ideal.ieee, -EReal.coe_mul]; norm_num

end Alg

theorem halfS_add (X : Feat) (L : Lab) (k : Fin 19) (c : Fin 256) : halfS X L 0 k c + halfS X L 1 k c = segS X L k c := by
  have h := Alg.sum_tiles (fun b y => ∑ w : Fin 128, X b c y w * ind (L b y w) k)
  rw [Fin.sum_univ_two] at h
  exact h

theorem halfC_add (L : Lab) (k : Fin 19) : halfC L 0 k + halfC L 1 k = segC L k := by
  have h := Alg.sum_tiles (fun b y => ∑ w : Fin 128, ind (L b y w) k)
  rw [Fin.sum_univ_two] at h
  exact h

theorem lossK_eq (S : Fin 19 → Fin 256 → EReal) (C : Fin 19 → EReal) : lossK S C = loss S C := by
  have hrow : ∀ i : Fin 19, 0 ≤ ∑ j : Fin 19, lossMat S C i j :=
    fun i => Finset.sum_nonneg fun j _ => le_max_right _ _
  have h19 : (19 : ℝ) ≠ 0 := by norm_num
  have h361 : (361 : ℝ) ≠ 0 := by norm_num
  have ha : ((1 / 19 : ℝ) : EReal) * ((1 / 19 : ℝ) : EReal) = ((1 / 361 : ℝ) : EReal) := by
    rw [← EReal.coe_mul]; norm_num
  unfold lossK lossK0 loss
  rw [Alg.c19_eq, Alg.c361_eq, Ideal.div_coe h19, Ideal.div_coe h361]
  simp only [Ideal.div_coe h19]
  rw [← Alg.sum_mul_of_nonneg Finset.univ _ (fun i _ => hrow i), mul_assoc, ha]

end Cert.Spec
end
-- ==== Proof.TileSUpd.lean ====
/-
  One class's row of the masked channel sums, as the kernel body computes it: the 0/1 mask of the
  pixels whose label word is the class word, the features times the mask summed over the lanes and
  then over the rows, added to the row's previous contents. Read at a channel, this is the previous
  value plus the double sum over the tile's pixels of the feature times the indicator.
-/
import proofs.«170524_j53137335386661_1_alg».proof.Proof.Gen.KernelIdeal
import Idealize.ShloMosaic.PureOps.Ideal.Laws
import Idealize.ShloMosaic.Lib.ValueIdx
import Idealize.ShloMosaic.Lib.Pipeline.Value
import Idealize.ShloMosaic.Lib.KernelVsHost

noncomputable section

namespace Cert.KernelIdeal.TileS
open Idealize.ShloMosaic Idealize.ShloMosaic.ValueIdx Cert.KernelIdeal Cert.KernelIdeal.Gen

section Generic
variable {F : FTy → Type} [FloatOps F]

/-- The 0/1 mask of the pixels whose label word is `kw`. -/
def mask (kw : BitVec 32) (v8 : IVec S32x128 32) : FVec F S32x128 .f32 :=
  sitofp .f32 (extui 32 (cmpi .eq v8 (broadcast S32x128 kw)) natLt_1_32)

/-- The features times a mask, summed over lanes, then over rows: one value per channel. -/
def msum (v6 : FVec F S256x32x128 .f32) (m : FVec F S32x128 .f32) : FVec F S256 .f32 :=
  multiReduction .add [1] S256
    (multiReduction .add [2] S256x32
      (mulf v6 (broadcastTo S256x32x128 (shapeCast S1x32x128 m shapeCasts_S32x128_S1x32x128) broadcasts_S1x32x128_S256x32x128))
      0x00000000#32 reduces_S256x32x128_S256x32 (.inl rfl) rfl)
    0x00000000#32 reduces_S256x32_S256 (.inl rfl) rfl

/-- A row's new contents: its old contents plus the masked sums. -/
def rowAdd (prev : Vec F S1x1x256 .f32) (t : FVec F S256 .f32) : FVec F S1x1x256 .f32 :=
  shapeCast S1x1x256 (addf (shapeCast S256 prev shapeCasts_S1x1x256_S256) t) shapeCasts_S256_S1x1x256

/-- One class's new row. -/
def rowUpd (kw : BitVec 32) (v6 : FVec F S256x32x128 .f32) (v8 : IVec S32x128 32) (prev : Vec F S1x1x256 .f32) :
    FVec F S1x1x256 .f32 :=
  rowAdd prev (msum v6 (mask kw v8))

end Generic

/-- The mask at a pixel: 1 where the label word is `kw`, else 0. -/
theorem mask_apply (kw : BitVec 32) (v8 : IVec S32x128 32) (h : Fin 32) (w : Fin 128) :
    mask (F := Ideal) kw v8 (ix2 h w) = if v8 (ix2 h w) = kw then 1 else 0 := by
  show ((((IntOp.cmpi .eq (v8 (ix2 h w)) kw).setWidth 32).toInt : ℝ) : EReal) = _
  rw [toInt_setWidth_bit]
  unfold IntOp.cmpi
  by_cases e : v8 (ix2 h w) = kw
  · simp [e]
  · simp [e]

/-- The masked sums at a channel: the double sum over the tile's pixels. -/
theorem msum_apply (v6 : FVec Ideal S256x32x128 .f32) (m : FVec Ideal S32x128 .f32) (ch : Fin 256) :
    msum v6 m (ix1 ch) = ∑ h : Fin 32, ∑ w : Fin 128, v6 (ix3 ch h w) * m (ix2 h w) := by
  unfold msum
  refine (Ideal.multiReduction_add_single _ 0x00000000#32 reduces_S256x32_S256 (.inl rfl) rfl (ix1 ch)).trans ?_
  refine Finset.sum_congr rfl fun h _ => ?_
  refine (Ideal.multiReduction_add_single _ 0x00000000#32 reduces_S256x32x128_S256x32 (.inl rfl) rfl _).trans ?_
  refine Finset.sum_congr rfl fun w _ => ?_
  have e : reduces_S256x32x128_S256x32.lift (reduces_S256x32_S256.lift (ix1 ch) h) w = ix3 ch h w :=
    funext fun a => Fin.ext (by match a with | ⟨0, _⟩ => rfl | ⟨1, _⟩ => rfl | ⟨2, _⟩ => rfl)
  rw [e]
  show v6 (ix3 ch h w) * _ = _
  refine congrArg (v6 (ix3 ch h w) * ·) ?_
  refine (broadcastTo_apply _ broadcasts_S1x32x128_S256x32x128 (ix3 ch h w) (ix3 (0 : Fin 1) h w) (fun a => by
    match a with | ⟨0, _⟩ => rfl | ⟨1, _⟩ => rfl | ⟨2, _⟩ => rfl)).trans ?_
  refine shapeCast_apply m shapeCasts_S32x128_S1x32x128 (ix3 (0 : Fin 1) h w) (ix2 h w) ?_
  rw [Shape.rowMajor_val_two, Shape.rowMajor_val_three]
  show h.val * 128 + w.val = (0 * 32 + h.val) * 128 + w.val
  omega

/-- A row's new contents at a channel. -/
theorem rowAdd_apply (prev : Vec Ideal S1x1x256 .f32) (t : FVec Ideal S256 .f32) (ch : Fin 256) :
    rowAdd prev t (ix3 (0 : Fin 1) (0 : Fin 1) ch) = prev (ix3 (0 : Fin 1) (0 : Fin 1) ch) + t (ix1 ch) := by
  unfold rowAdd
  have hk : (S256.rowMajor (ix1 ch)).val = (S1x1x256.rowMajor (ix3 (0 : Fin 1) (0 : Fin 1) ch)).val := by
    rw [Shape.rowMajor_val_one, Shape.rowMajor_val_three]
    show ch.val = (0 * 1 + 0) * 256 + ch.val
    omega
  refine (shapeCast_apply _ shapeCasts_S256_S1x1x256 (ix3 (0 : Fin 1) (0 : Fin 1) ch) (ix1 ch) hk).trans ?_
  show shapeCast S256 prev shapeCasts_S1x1x256_S256 (ix1 ch) + t (ix1 ch) = _
  refine congrArg (· + t (ix1 ch)) ?_
  exact shapeCast_apply prev shapeCasts_S1x1x256_S256 (ix1 ch) (ix3 (0 : Fin 1) (0 : Fin 1) ch) hk.symm

/-- One class's new row at a channel: the old value plus the feature summed over the pixels of the class. -/
theorem rowUpd_apply (kw : BitVec 32) (v6 : FVec Ideal S256x32x128 .f32) (v8 : IVec S32x128 32) (prev : Vec Ideal S1x1x256 .f32)
    (ch : Fin 256) :
    rowUpd kw v6 v8 prev (ix3 (0 : Fin 1) (0 : Fin 1) ch)
      = prev (ix3 (0 : Fin 1) (0 : Fin 1) ch)
        + ∑ h : Fin 32, ∑ w : Fin 128, v6 (ix3 ch h w) * (if v8 (ix2 h w) = kw then 1 else 0) := by
  unfold rowUpd
  rw [rowAdd_apply, msum_apply]
  refine congrArg (prev (ix3 (0 : Fin 1) (0 : Fin 1) ch) + ·) ?_
  refine Finset.sum_congr rfl fun h _ => Finset.sum_congr rfl fun w _ => ?_
  rw [mask_apply]

end Cert.KernelIdeal.TileS
end
-- ==== Proof.TileSRows.lean ====
/-
  Reading a buffer written row by row. The 19 class rows of a [1, 19, 256] block are stored one row
  at a time, each store a unit-stride rectangle of one row; whatever was stored before them, the
  block at (0, k, c) then holds the row-k store's payload at c.
-/
import proofs.«170524_j53137335386661_1_alg».proof.Proof.Gen.KernelIdeal
import Idealize.ShloMosaic.Lib.ValueIdx
import Idealize.ShloMosaic.Lib.Pipeline.FrameBody

noncomputable section

namespace Cert.KernelIdeal.TileS
open Idealize.ShloMosaic Idealize.ShloMosaic.ValueIdx Cert.KernelIdeal Cert.KernelIdeal.Gen

section Canon
variable {Val : EltTy → Type} [∀ e, Nonempty (Val e)] {e : EltTy}

/-- The store of row `r` was the last one: at row `r` the block holds its payload. -/
theorem row_hit (r : ℕ) (inb : ∀ a, (![0, r, 0] : Fin 3 → ℕ) a + (![1, 1, 256] : Fin 3 → ℕ) a ≤ S1x19x256.size a)
    (w : (Rect.unit (s := S1x19x256) ![0, r, 0] ![1, 1, 256] inb).shape.Idx → Val e) (L : List (View.Piece Val S1x19x256 e))
    (k : Fin 19) (ch : Fin 256) (hk : k.val = r) :
    View.canon ((⟨Rect.unit ![0, r, 0] ![1, 1, 256] inb, w⟩ : View.Piece Val S1x19x256 e) :: L) (ix3 (0 : Fin 1) k ch)
      = w (ix3 (0 : Fin 1) (0 : Fin 1) ch) := by
  have hy : (Rect.unit (s := S1x19x256) ![0, r, 0] ![1, 1, 256] inb).emb (ix3 (0 : Fin 1) (0 : Fin 1) ch)
      = ix3 (0 : Fin 1) k ch := funext fun a => Fin.ext (by
    match a with
    | ⟨0, _⟩ => rfl
    | ⟨1, _⟩ => show r + 1 * 0 = k.val; omega
    | ⟨2, _⟩ => show 0 + 1 * ch.val = ch.val; omega)
  rw [← hy]; exact View.canon_cons_emb _ w L _

/-- The last store was of another row `r`: off that row the block holds what the earlier stores left. -/
theorem row_miss (r : ℕ) (inb : ∀ a, (![0, r, 0] : Fin 3 → ℕ) a + (![1, 1, 256] : Fin 3 → ℕ) a ≤ S1x19x256.size a)
    (w : (Rect.unit (s := S1x19x256) ![0, r, 0] ![1, 1, 256] inb).shape.Idx → Val e) (L : List (View.Piece Val S1x19x256 e))
    (k : Fin 19) (ch : Fin 256) (hk : k.val ≠ r) :
    View.canon ((⟨Rect.unit ![0, r, 0] ![1, 1, 256] inb, w⟩ : View.Piece Val S1x19x256 e) :: L) (ix3 (0 : Fin 1) k ch)
      = View.canon L (ix3 (0 : Fin 1) k ch) := by
  refine View.canon_cons_of_not_mem _ L ?_
  intro hm
  have h1 := ((Rect.mem_set_unit (inb := inb)).mp hm) (1 : Fin 3)
  have h2 : r ≤ k.val := h1.1
  have h3 : k.val < r + 1 := h1.2
  omega

end Canon

/-- One step down the row stores: row `j`'s store answers at row `j`, and is passed off it. -/
macro "row_at" j:num h:term "," k:term "," ch:term : tactic => `(tactic|
  (by_cases e : Fin.val $k = $j
   · exact (row_hit $j _ _ _ $k $ch e).trans ($h e)
   refine (row_miss $j _ _ _ $k $ch (by omega)).trans ?_))

/-- The block after the 19 row stores (last first), over any earlier stores `L`: at (0, k, c) it is the
    row-k payload at c — given here as: whatever `T` each row's payload at `c` equals when `k` is that row. -/
theorem canon_rows (p0 p1 p2 p3 p4 p5 p6 p7 p8 p9 p10 p11 p12 p13 p14 p15 p16 p17 p18 : FVec Ideal S1x1x256 .f32)
    (L : List (View.Piece (Elt Ideal) S1x19x256 .f32)) (k : Fin 19) (ch : Fin 256) (T : EReal)
    (h0 : k.val = 0 → p0 (ix3 (0 : Fin 1) (0 : Fin 1) ch) = T)
    (h1 : k.val = 1 → p1 (ix3 (0 : Fin 1) (0 : Fin 1) ch) = T)
    (h2 : k.val = 2 → p2 (ix3 (0 : Fin 1) (0 : Fin 1) ch) = T)
    (h3 : k.val = 3 → p3 (ix3 (0 : Fin 1) (0 : Fin 1) ch) = T)
    (h4 : k.val = 4 → p4 (ix3 (0 : Fin 1) (0 : Fin 1) ch) = T)
    (h5 : k.val = 5 → p5 (ix3 (0 : Fin 1) (0 : Fin 1) ch) = T)
    (h6 : k.val = 6 → p6 (ix3 (0 : Fin 1) (0 : Fin 1) ch) = T)
    (h7 : k.val = 7 → p7 (ix3 (0 : Fin 1) (0 : Fin 1) ch) = T)
    (h8 : k.val = 8 → p8 (ix3 (0 : Fin 1) (0 : Fin 1) ch) = T)
    (h9 : k.val = 9 → p9 (ix3 (0 : Fin 1) (0 : Fin 1) ch) = T)
    (h10 : k.val = 10 → p10 (ix3 (0 : Fin 1) (0 : Fin 1) ch) = T)
    (h11 : k.val = 11 → p11 (ix3 (0 : Fin 1) (0 : Fin 1) ch) = T)
    (h12 : k.val = 12 → p12 (ix3 (0 : Fin 1) (0 : Fin 1) ch) = T)
    (h13 : k.val = 13 → p13 (ix3 (0 : Fin 1) (0 : Fin 1) ch) = T)
    (h14 : k.val = 14 → p14 (ix3 (0 : Fin 1) (0 : Fin 1) ch) = T)
    (h15 : k.val = 15 → p15 (ix3 (0 : Fin 1) (0 : Fin 1) ch) = T)
    (h16 : k.val = 16 → p16 (ix3 (0 : Fin 1) (0 : Fin 1) ch) = T)
    (h17 : k.val = 17 → p17 (ix3 (0 : Fin 1) (0 : Fin 1) ch) = T)
    (h18 : k.val = 18 → p18 (ix3 (0 : Fin 1) (0 : Fin 1) ch) = T) :
    View.canon (Val := Elt Ideal)
      ((⟨Rect.unit ![0, 18, 0] ![1, 1, 256] inb_S1x19x256_S1x1x256_0_18_0, p18⟩ : View.Piece (Elt Ideal) S1x19x256 .f32) ::
        ⟨Rect.unit ![0, 17, 0] ![1, 1, 256] inb_S1x19x256_S1x1x256_0_17_0, p17⟩ ::
        ⟨Rect.unit ![0, 16, 0] ![1, 1, 256] inb_S1x19x256_S1x1x256_0_16_0, p16⟩ ::
        ⟨Rect.unit ![0, 15, 0] ![1, 1, 256] inb_S1x19x256_S1x1x256_0_15_0, p15⟩ ::
        ⟨Rect.unit ![0, 14, 0] ![1, 1, 256] inb_S1x19x256_S1x1x256_0_14_0, p14⟩ ::
        ⟨Rect.unit ![0, 13, 0] ![1, 1, 256] inb_S1x19x256_S1x1x256_0_13_0, p13⟩ ::
        ⟨Rect.unit ![0, 12, 0] ![1, 1, 256] inb_S1x19x256_S1x1x256_0_12_0, p12⟩ ::
        ⟨Rect.unit ![0, 11, 0] ![1, 1, 256] inb_S1x19x256_S1x1x256_0_11_0, p11⟩ ::
        ⟨Rect.unit ![0, 10, 0] ![1, 1, 256] inb_S1x19x256_S1x1x256_0_10_0, p10⟩ ::
        ⟨Rect.unit ![0, 9, 0] ![1, 1, 256] inb_S1x19x256_S1x1x256_0_9_0, p9⟩ ::
        ⟨Rect.unit ![0, 8, 0] ![1, 1, 256] inb_S1x19x256_S1x1x256_0_8_0, p8⟩ ::
        ⟨Rect.unit ![0, 7, 0] ![1, 1, 256] inb_S1x19x256_S1x1x256_0_7_0, p7⟩ ::
        ⟨Rect.unit ![0, 6, 0] ![1, 1, 256] inb_S1x19x256_S1x1x256_0_6_0, p6⟩ ::
        ⟨Rect.unit ![0, 5, 0] ![1, 1, 256] inb_S1x19x256_S1x1x256_0_5_0, p5⟩ ::
        ⟨Rect.unit ![0, 4, 0] ![1, 1, 256] inb_S1x19x256_S1x1x256_0_4_0, p4⟩ ::
        ⟨Rect.unit ![0, 3, 0] ![1, 1, 256] inb_S1x19x256_S1x1x256_0_3_0, p3⟩ ::
        ⟨Rect.unit ![0, 2, 0] ![1, 1, 256] inb_S1x19x256_S1x1x256_0_2_0, p2⟩ ::
        ⟨Rect.unit ![0, 1, 0] ![1, 1, 256] inb_S1x19x256_S1x1x256_0_1_0, p1⟩ ::
        ⟨Rect.unit ![0, 0, 0] ![1, 1, 256] inb_S1x19x256_S1x1x256_0_0_0, p0⟩ :: L)
      (ix3 (0 : Fin 1) k ch) = T := by
  row_at 18 h18, k, ch
  row_at 17 h17, k, ch
  row_at 16 h16, k, ch
  row_at 15 h15, k, ch
  row_at 14 h14, k, ch
  row_at 13 h13, k, ch
  row_at 12 h12, k, ch
  row_at 11 h11, k, ch
  row_at 10 h10, k, ch
  row_at 9 h9, k, ch
  row_at 8 h8, k, ch
  row_at 7 h7, k, ch
  row_at 6 h6, k, ch
  row_at 5 h5, k, ch
  row_at 4 h4, k, ch
  row_at 3 h3, k, ch
  row_at 2 h2, k, ch
  row_at 1 h1, k, ch
  row_at 0 h0, k, ch
  exact absurd k.isLt (by omega)

end Cert.KernelIdeal.TileS
end
-- ==== Proof.TileSZero.lean ====
/-
  The point that starts a half's accumulation first stores a block of zeros, then for each class
  loads that class's row, adds the tile's masked sums and stores the row back. The row a class loads
  has not been stored by an earlier class, so it reads the zeros: every class's previous contents
  are 0 at such a point.
-/
import proofs.«170524_j53137335386661_1_alg».proof.Proof.Gen.KernelIdeal.Frame
import proofs.«170524_j53137335386661_1_alg».proof.Proof.TileSRows
import Idealize.ShloMosaic.PureOps.Ideal.Laws
import Idealize.ShloMosaic.Lib.ValueIdx
import Idealize.ShloMosaic.Lib.Pipeline.Value

noncomputable section

namespace Cert.KernelIdeal.TileS
open Idealize.ShloMosaic Idealize.ShloMosaic.TcCoe Idealize.SL.Sem Idealize.ShloMosaic.ValueIdx Cert.KernelIdeal Cert.KernelIdeal.Gen

/-- The block of zeros the point stores first. -/
theorem zeroBlock (y : S1x19x256.Idx) : k0_pay2 (F := Ideal) y = (0 : EReal) := by
  show Ideal.ofBits .f32 0x00000000#32 = 0
  exact Ideal.ofBits_zero_f32

/-- A load of row `r` after the stores `L` reads 0 wherever those stores left 0 in row `r`. -/
theorem load_zero (arg5 : Memref sig .tc .vmem S1x19x256 .f32) (L : List (View.Piece (Elt Ideal) S1x19x256 .f32)) (r : ℕ)
    (inb : ∀ a, (![0, r, 0] : Fin 3 → ℕ) a + (![1, 1, 256] : Fin 3 → ℕ) a ≤ S1x19x256.size a) (j : Fin 19) (hj : j.val = r)
    (hL : ∀ ch : Fin 256, View.canon L (ix3 (0 : Fin 1) j ch) = (0 : EReal)) (ch : Fin 256) :
    arg5.view.readCov L (Rect.unit (s := S1x19x256) ![0, r, 0] ![1, 1, 256] inb).toLoadRect (ix3 (0 : Fin 1) (0 : Fin 1) ch) = (0 : EReal) := by
  rw [View.readCov_eq_canon']
  show View.canon L ((Rect.unit (s := S1x19x256) ![0, r, 0] ![1, 1, 256] inb).idx (ix3 (0 : Fin 1) (0 : Fin 1) ch)) = 0
  have e : (Rect.unit (s := S1x19x256) ![0, r, 0] ![1, 1, 256] inb).idx (ix3 (0 : Fin 1) (0 : Fin 1) ch) = ix3 (0 : Fin 1) j ch :=
    funext fun a => Fin.ext (by
      match a with
      | ⟨0, _⟩ => rfl
      | ⟨1, _⟩ => show r + 1 * 0 = j.val; omega
      | ⟨2, _⟩ => show 0 + 1 * ch.val = ch.val; omega)
  rw [e]; exact hL ch

section CaseA
variable (c : Dev nD) (arg3 : Memref sig .tc .vmem S1x256x32x128 .f32) (harg3 : arg3.IsWhole)
  (arg4 : Memref sig .tc .vmem S1x32x128 .i32) (harg4 : arg4.IsWhole) (arg5 : Memref sig .tc .vmem S1x19x256 .f32)
  (x0 : Vec Ideal S1x256x32x128 .f32) (x1 : Vec Ideal S1x32x128 .i32)

/-- The features block as the body reads it. -/
theorem featA : kernelRun0_A.sl.r c arg3 harg3 x0 = k0_pay4 x0 := by
  unfold kernelRun0_A.sl.r
  rw [View.readAt_eq_ld, harg3.read_unread,
    View.ld_unit_zero (S := S1x256x32x128) (funext fun a => by match a with | ⟨0, _⟩ => rfl | ⟨1, _⟩ => rfl | ⟨2, _⟩ => rfl | ⟨3, _⟩ => rfl)]

/-- The labels block as the body reads it. -/
theorem labA : kernelRun0_A.sl.r_1 c arg4 harg4 x1 = k0_pay5 x1 := by
  unfold kernelRun0_A.sl.r_1
  rw [View.readAt_eq_ld, harg4.read_unread,
    View.ld_unit_zero (S := S1x32x128) (funext fun a => by match a with | ⟨0, _⟩ => rfl | ⟨1, _⟩ => rfl | ⟨2, _⟩ => rfl)]

/-! After the zero store and the row stores of classes 0 … m − 2, the rows from m − 1 on still hold 0. -/

theorem Z1 (k : Fin 19) (ch : Fin 256) :
    View.canon (kernelRun0_A.sl.H2_1 (F := Ideal)) (ix3 (0 : Fin 1) k ch) = (0 : EReal) := by
  unfold kernelRun0_A.sl.H2_1
  rw [View.canon_unit_zero (funext fun a => by match a with | ⟨0, _⟩ => rfl | ⟨1, _⟩ => rfl | ⟨2, _⟩ => rfl)]
  exact zeroBlock _
theorem Z2 (k : Fin 19) (ch : Fin 256) (hk : 1 ≤ k.val) :
    View.canon (kernelRun0_A.sl.H2_2 c arg3 harg3 arg4 harg4 arg5 x0 x1) (ix3 (0 : Fin 1) k ch) = (0 : EReal) := by
  unfold kernelRun0_A.sl.H2_2; exact (row_miss 0 _ _ _ k ch (by omega)).trans (Z1 k ch)
theorem Z3 (k : Fin 19) (ch : Fin 256) (hk : 2 ≤ k.val) :
    View.canon (kernelRun0_A.sl.H2_3 c arg3 harg3 arg4 harg4 arg5 x0 x1) (ix3 (0 : Fin 1) k ch) = (0 : EReal) := by
  unfold kernelRun0_A.sl.H2_3; exact (row_miss 1 _ _ _ k ch (by omega)).trans (Z2 c arg3 harg3 arg4 harg4 arg5 x0 x1 k ch (by omega))
theorem Z4 (k : Fin 19) (ch : Fin 256) (hk : 3 ≤ k.val) :
    View.canon (kernelRun0_A.sl.H2_4 c arg3 harg3 arg4 harg4 arg5 x0 x1) (ix3 (0 : Fin 1) k ch) = (0 : EReal) := by
  unfold kernelRun0_A.sl.H2_4; exact (row_miss 2 _ _ _ k ch (by omega)).trans (Z3 c arg3 harg3 arg4 harg4 arg5 x0 x1 k ch (by omega))
theorem Z5 (k : Fin 19) (ch : Fin 256) (hk : 4 ≤ k.val) :
    View.canon (kernelRun0_A.sl.H2_5 c arg3 harg3 arg4 harg4 arg5 x0 x1) (ix3 (0 : Fin 1) k ch) = (0 : EReal) := by
  unfold kernelRun0_A.sl.H2_5; exact (row_miss 3 _ _ _ k ch (by omega)).trans (Z4 c arg3 harg3 arg4 harg4 arg5 x0 x1 k ch (by omega))
theorem Z6 (k : Fin 19) (ch : Fin 256) (hk : 5 ≤ k.val) :
    View.canon (kernelRun0_A.sl.H2_6 c arg3 harg3 arg4 harg4 arg5 x0 x1) (ix3 (0 : Fin 1) k ch) = (0 : EReal) := by
  unfold kernelRun0_A.sl.H2_6; exact (row_miss 4 _ _ _ k ch (by omega)).trans (Z5 c arg3 harg3 arg4 harg4 arg5 x0 x1 k ch (by omega))
theorem Z7 (k : Fin 19) (ch : Fin 256) (hk : 6 ≤ k.val) :
    View.canon (kernelRun0_A.sl.H2_7 c arg3 harg3 arg4 harg4 arg5 x0 x1) (ix3 (0 : Fin 1) k ch) = (0 : EReal) := by
  unfold kernelRun0_A.sl.H2_7; exact (row_miss 5 _ _ _ k ch (by omega)).trans (Z6 c arg3 harg3 arg4 harg4 arg5 x0 x1 k ch (by omega))
theorem Z8 (k : Fin 19) (ch : Fin 256) (hk : 7 ≤ k.val) :
    View.canon (kernelRun0_A.sl.H2_8 c arg3 harg3 arg4 harg4 arg5 x0 x1) (ix3 (0 : Fin 1) k ch) = (0 : EReal) := by
  unfold kernelRun0_A.sl.H2_8; exact (row_miss 6 _ _ _ k ch (by omega)).trans (Z7 c arg3 harg3 arg4 harg4 arg5 x0 x1 k ch (by omega))
theorem Z9 (k : Fin 19) (ch : Fin 256) (hk : 8 ≤ k.val) :
    View.canon (kernelRun0_A.sl.H2_9 c arg3 harg3 arg4 harg4 arg5 x0 x1) (ix3 (0 : Fin 1) k ch) = (0 : EReal) := by
  unfold kernelRun0_A.sl.H2_9; exact (row_miss 7 _ _ _ k ch (by omega)).trans (Z8 c arg3 harg3 arg4 harg4 arg5 x0 x1 k ch (by omega))
theorem Z10 (k : Fin 19) (ch : Fin 256) (hk : 9 ≤ k.val) :
    View.canon (kernelRun0_A.sl.H2_10 c arg3 harg3 arg4 harg4 arg5 x0 x1) (ix3 (0 : Fin 1) k ch) = (0 : EReal) := by
  unfold kernelRun0_A.sl.H2_10; exact (row_miss 8 _ _ _ k ch (by omega)).trans (Z9 c arg3 harg3 arg4 harg4 arg5 x0 x1 k ch (by omega))
theorem Z11 (k : Fin 19) (ch : Fin 256) (hk : 10 ≤ k.val) :
    View.canon (kernelRun0_A.sl.H2_11 c arg3 harg3 arg4 harg4 arg5 x0 x1) (ix3 (0 : Fin 1) k ch) = (0 : EReal) := by
  unfold kernelRun0_A.sl.H2_11; exact (row_miss 9 _ _ _ k ch (by omega)).trans (Z10 c arg3 harg3 arg4 harg4 arg5 x0 x1 k ch (by omega))
theorem Z12 (k : Fin 19) (ch : Fin 256) (hk : 11 ≤ k.val) :
    View.canon (kernelRun0_A.sl.H2_12 c arg3 harg3 arg4 harg4 arg5 x0 x1) (ix3 (0 : Fin 1) k ch) = (0 : EReal) := by
  unfold kernelRun0_A.sl.H2_12; exact (row_miss 10 _ _ _ k ch (by omega)).trans (Z11 c arg3 harg3 arg4 harg4 arg5 x0 x1 k ch (by omega))
theorem Z13 (k : Fin 19) (ch : Fin 256) (hk : 12 ≤ k.val) :
    View.canon (kernelRun0_A.sl.H2_13 c arg3 harg3 arg4 harg4 arg5 x0 x1) (ix3 (0 : Fin 1) k ch) = (0 : EReal) := by
  unfold kernelRun0_A.sl.H2_13; exact (row_miss 11 _ _ _ k ch (by omega)).trans (Z12 c arg3 harg3 arg4 harg4 arg5 x0 x1 k ch (by omega))
theorem Z14 (k : Fin 19) (ch : Fin 256) (hk : 13 ≤ k.val) :
    View.canon (kernelRun0_A.sl.H2_14 c arg3 harg3 arg4 harg4 arg5 x0 x1) (ix3 (0 : Fin 1) k ch) = (0 : EReal) := by
  unfold kernelRun0_A.sl.H2_14; exact (row_miss 12 _ _ _ k ch (by omega)).trans (Z13 c arg3 harg3 arg4 harg4 arg5 x0 x1 k ch (by omega))
theorem Z15 (k : Fin 19) (ch : Fin 256) (hk : 14 ≤ k.val) :
    View.canon (kernelRun0_A.sl.H2_15 c arg3 harg3 arg4 harg4 arg5 x0 x1) (ix3 (0 : Fin 1) k ch) = (0 : EReal) := by
  unfold kernelRun0_A.sl.H2_15; exact (row_miss 13 _ _ _ k ch (by omega)).trans (Z14 c arg3 harg3 arg4 harg4 arg5 x0 x1 k ch (by omega))
theorem Z16 (k : Fin 19) (ch : Fin 256) (hk : 15 ≤ k.val) :
    View.canon (kernelRun0_A.sl.H2_16 c arg3 harg3 arg4 harg4 arg5 x0 x1) (ix3 (0 : Fin 1) k ch) = (0 : EReal) := by
  unfold kernelRun0_A.sl.H2_16; exact (row_miss 14 _ _ _ k ch (by omega)).trans (Z15 c arg3 harg3 arg4 harg4 arg5 x0 x1 k ch (by omega))
theorem Z17 (k : Fin 19) (ch : Fin 256) (hk : 16 ≤ k.val) :
    View.canon (kernelRun0_A.sl.H2_17 c arg3 harg3 arg4 harg4 arg5 x0 x1) (ix3 (0 : Fin 1) k ch) = (0 : EReal) := by
  unfold kernelRun0_A.sl.H2_17; exact (row_miss 15 _ _ _ k ch (by omega)).trans (Z16 c arg3 harg3 arg4 harg4 arg5 x0 x1 k ch (by omega))
theorem Z18 (k : Fin 19) (ch : Fin 256) (hk : 17 ≤ k.val) :
    View.canon (kernelRun0_A.sl.H2_18 c arg3 harg3 arg4 harg4 arg5 x0 x1) (ix3 (0 : Fin 1) k ch) = (0 : EReal) := by
  unfold kernelRun0_A.sl.H2_18; exact (row_miss 16 _ _ _ k ch (by omega)).trans (Z17 c arg3 harg3 arg4 harg4 arg5 x0 x1 k ch (by omega))
theorem Z19 (k : Fin 19) (ch : Fin 256) (hk : 18 ≤ k.val) :
    View.canon (kernelRun0_A.sl.H2_19 c arg3 harg3 arg4 harg4 arg5 x0 x1) (ix3 (0 : Fin 1) k ch) = (0 : EReal) := by
  unfold kernelRun0_A.sl.H2_19; exact (row_miss 17 _ _ _ k ch (by omega)).trans (Z18 c arg3 harg3 arg4 harg4 arg5 x0 x1 k ch (by omega))

/-! Each class's load of its own row reads 0. -/

theorem V0 (ch : Fin 256) : kernelRun0_A.sl.v18 (F := Ideal) c arg5 (ix3 (0 : Fin 1) (0 : Fin 1) ch) = (0 : EReal) := by
  unfold kernelRun0_A.sl.v18; exact load_zero arg5 _ 0 _ ⟨0, by decide⟩ rfl (fun ch => Z1 _ ch) ch
theorem V1 (ch : Fin 256) : kernelRun0_A.sl.v45 c arg3 harg3 arg4 harg4 arg5 x0 x1 (ix3 (0 : Fin 1) (0 : Fin 1) ch) = (0 : EReal) := by
  unfold kernelRun0_A.sl.v45; exact load_zero arg5 _ 1 _ ⟨1, by decide⟩ rfl (fun ch => Z2 c arg3 harg3 arg4 harg4 arg5 x0 x1 _ ch (by decide)) ch
theorem V2 (ch : Fin 256) : kernelRun0_A.sl.v72 c arg3 harg3 arg4 harg4 arg5 x0 x1 (ix3 (0 : Fin 1) (0 : Fin 1) ch) = (0 : EReal) := by
  unfold kernelRun0_A.sl.v72; exact load_zero arg5 _ 2 _ ⟨2, by decide⟩ rfl (fun ch => Z3 c arg3 harg3 arg4 harg4 arg5 x0 x1 _ ch (by decide)) ch
theorem V3 (ch : Fin 256) : kernelRun0_A.sl.v99 c arg3 harg3 arg4 harg4 arg5 x0 x1 (ix3 (0 : Fin 1) (0 : Fin 1) ch) = (0 : EReal) := by
  unfold kernelRun0_A.sl.v99; exact load_zero arg5 _ 3 _ ⟨3, by decide⟩ rfl (fun ch => Z4 c arg3 harg3 arg4 harg4 arg5 x0 x1 _ ch (by decide)) ch
theorem V4 (ch : Fin 256) : kernelRun0_A.sl.v126 c arg3 harg3 arg4 harg4 arg5 x0 x1 (ix3 (0 : Fin 1) (0 : Fin 1) ch) = (0 : EReal) := by
  unfold kernelRun0_A.sl.v126; exact load_zero arg5 _ 4 _ ⟨4, by decide⟩ rfl (fun ch => Z5 c arg3 harg3 arg4 harg4 arg5 x0 x1 _ ch (by decide)) ch
theorem V5 (ch : Fin 256) : kernelRun0_A.sl.v153 c arg3 harg3 arg4 harg4 arg5 x0 x1 (ix3 (0 : Fin 1) (0 : Fin 1) ch) = (0 : EReal) := by
  unfold kernelRun0_A.sl.v153; exact load_zero arg5 _ 5 _ ⟨5, by decide⟩ rfl (fun ch => Z6 c arg3 harg3 arg4 harg4 arg5 x0 x1 _ ch (by decide)) ch
theorem V6 (ch : Fin 256) : kernelRun0_A.sl.v180 c arg3 harg3 arg4 harg4 arg5 x0 x1 (ix3 (0 : Fin 1) (0 : Fin 1) ch) = (0 : EReal) := by
  unfold kernelRun0_A.sl.v180; exact load_zero arg5 _ 6 _ ⟨6, by decide⟩ rfl (fun ch => Z7 c arg3 harg3 arg4 harg4 arg5 x0 x1 _ ch (by decide)) ch
theorem V7 (ch : Fin 256) : kernelRun0_A.sl.v207 c arg3 harg3 arg4 harg4 arg5 x0 x1 (ix3 (0 : Fin 1) (0 : Fin 1) ch) = (0 : EReal) := by
  unfold kernelRun0_A.sl.v207; exact load_zero arg5 _ 7 _ ⟨7, by decide⟩ rfl (fun ch => Z8 c arg3 harg3 arg4 harg4 arg5 x0 x1 _ ch (by decide)) ch
theorem V8 (ch : Fin 256) : kernelRun0_A.sl.v234 c arg3 harg3 arg4 harg4 arg5 x0 x1 (ix3 (0 : Fin 1) (0 : Fin 1) ch) = (0 : EReal) := by
  unfold kernelRun0_A.sl.v234; exact load_zero arg5 _ 8 _ ⟨8, by decide⟩ rfl (fun ch => Z9 c arg3 harg3 arg4 harg4 arg5 x0 x1 _ ch (by decide)) ch
theorem V9 (ch : Fin 256) : kernelRun0_A.sl.v261 c arg3 harg3 arg4 harg4 arg5 x0 x1 (ix3 (0 : Fin 1) (0 : Fin 1) ch) = (0 : EReal) := by
  unfold kernelRun0_A.sl.v261; exact load_zero arg5 _ 9 _ ⟨9, by decide⟩ rfl (fun ch => Z10 c arg3 harg3 arg4 harg4 arg5 x0 x1 _ ch (by decide)) ch
theorem V10 (ch : Fin 256) : kernelRun0_A.sl.v288 c arg3 harg3 arg4 harg4 arg5 x0 x1 (ix3 (0 : Fin 1) (0 : Fin 1) ch) = (0 : EReal) := by
  unfold kernelRun0_A.sl.v288; exact load_zero arg5 _ 10 _ ⟨10, by decide⟩ rfl (fun ch => Z11 c arg3 harg3 arg4 harg4 arg5 x0 x1 _ ch (by decide)) ch
theorem V11 (ch : Fin 256) : kernelRun0_A.sl.v315 c arg3 harg3 arg4 harg4 arg5 x0 x1 (ix3 (0 : Fin 1) (0 : Fin 1) ch) = (0 : EReal) := by
  unfold kernelRun0_A.sl.v315; exact load_zero arg5 _ 11 _ ⟨11, by decide⟩ rfl (fun ch => Z12 c arg3 harg3 arg4 harg4 arg5 x0 x1 _ ch (by decide)) ch
theorem V12 (ch : Fin 256) : kernelRun0_A.sl.v342 c arg3 harg3 arg4 harg4 arg5 x0 x1 (ix3 (0 : Fin 1) (0 : Fin 1) ch) = (0 : EReal) := by
  unfold kernelRun0_A.sl.v342; exact load_zero arg5 _ 12 _ ⟨12, by decide⟩ rfl (fun ch => Z13 c arg3 harg3 arg4 harg4 arg5 x0 x1 _ ch (by decide)) ch
theorem V13 (ch : Fin 256) : kernelRun0_A.sl.v369 c arg3 harg3 arg4 harg4 arg5 x0 x1 (ix3 (0 : Fin 1) (0 : Fin 1) ch) = (0 : EReal) := by
  unfold kernelRun0_A.sl.v369; exact load_zero arg5 _ 13 _ ⟨13, by decide⟩ rfl (fun ch => Z14 c arg3 harg3 arg4 harg4 arg5 x0 x1 _ ch (by decide)) ch
theorem V14 (ch : Fin 256) : kernelRun0_A.sl.v396 c arg3 harg3 arg4 harg4 arg5 x0 x1 (ix3 (0 : Fin 1) (0 : Fin 1) ch) = (0 : EReal) := by
  unfold kernelRun0_A.sl.v396; exact load_zero arg5 _ 14 _ ⟨14, by decide⟩ rfl (fun ch => Z15 c arg3 harg3 arg4 harg4 arg5 x0 x1 _ ch (by decide)) ch
theorem V15 (ch : Fin 256) : kernelRun0_A.sl.v423 c arg3 harg3 arg4 harg4 arg5 x0 x1 (ix3 (0 : Fin 1) (0 : Fin 1) ch) = (0 : EReal) := by
  unfold kernelRun0_A.sl.v423; exact load_zero arg5 _ 15 _ ⟨15, by decide⟩ rfl (fun ch => Z16 c arg3 harg3 arg4 harg4 arg5 x0 x1 _ ch (by decide)) ch
theorem V16 (ch : Fin 256) : kernelRun0_A.sl.v450 c arg3 harg3 arg4 harg4 arg5 x0 x1 (ix3 (0 : Fin 1) (0 : Fin 1) ch) = (0 : EReal) := by
  unfold kernelRun0_A.sl.v450; exact load_zero arg5 _ 16 _ ⟨16, by decide⟩ rfl (fun ch => Z17 c arg3 harg3 arg4 harg4 arg5 x0 x1 _ ch (by decide)) ch
theorem V17 (ch : Fin 256) : kernelRun0_A.sl.v477 c arg3 harg3 arg4 harg4 arg5 x0 x1 (ix3 (0 : Fin 1) (0 : Fin 1) ch) = (0 : EReal) := by
  unfold kernelRun0_A.sl.v477; exact load_zero arg5 _ 17 _ ⟨17, by decide⟩ rfl (fun ch => Z18 c arg3 harg3 arg4 harg4 arg5 x0 x1 _ ch (by decide)) ch
theorem V18 (ch : Fin 256) : kernelRun0_A.sl.v504 c arg3 harg3 arg4 harg4 arg5 x0 x1 (ix3 (0 : Fin 1) (0 : Fin 1) ch) = (0 : EReal) := by
  unfold kernelRun0_A.sl.v504; exact load_zero arg5 _ 18 _ ⟨18, by decide⟩ rfl (fun ch => Z19 c arg3 harg3 arg4 harg4 arg5 x0 x1 _ ch (by decide)) ch

end CaseA

end Cert.KernelIdeal.TileS
end
-- ==== Proof.TileS.lean ====
/-
  Window 2 of the first region at one grid point: what the body leaves in the staging block of the
  per-class masked channel sums. The body is 19 unrolled copies of one step, one per class word k:
  the 0/1 mask of the pixels labelled k, the features times the mask summed over lanes then rows,
  added to row k as it stood and stored back as row k. So after the point, the block at (0, k, c) is
  row k's previous value at c plus the tile's masked sum; at a point that starts a half, the block
  is zeroed first and the previous value is 0.
-/
import proofs.«170524_j53137335386661_1_alg».proof.Proof.Gen.KernelIdeal.Frame
import proofs.«170524_j53137335386661_1_alg».proof.Proof.Spec
import proofs.«170524_j53137335386661_1_alg».proof.Proof.TileSUpd
import proofs.«170524_j53137335386661_1_alg».proof.Proof.TileSRows
import proofs.«170524_j53137335386661_1_alg».proof.Proof.TileSZero
import Idealize.ShloMosaic.Lib.ValueIdx

noncomputable section

namespace Cert.KernelIdeal.TileS
open Idealize.ShloMosaic Idealize.ShloMosaic.TcCoe Idealize.ShloMosaic.Tactic Idealize.SL.Sem Idealize.ShloMosaic.ValueIdx Cert.KernelIdeal Cert.KernelIdeal.Gen

/-! Each class's stored value is the one per-class step at that class's word: the printed body cuts
    the 19 copies at different places, but every copy is the same composition. -/
section Pay
variable {F : FTy → Type} [FloatOps F]
variable (v5 : Vec F S1x256x32x128 .f32) (v7 : Vec F S1x32x128 .i32) (v6 : FVec F S256x32x128 .f32) (v8 : IVec S32x128 32) (p : Vec F S1x1x256 .f32)

theorem pay7_eq : k0_pay7 v5 v7 p = rowUpd 0#32 (k0_pay4 v5) (k0_pay5 v7) p := rfl
theorem pay12_eq : k0_pay12 v6 v8 p = rowUpd 1#32 v6 v8 p := rfl
theorem pay15_eq : k0_pay15 v6 (k0_pay14 v8) p = rowUpd 2#32 v6 v8 p := rfl
theorem pay19_eq : k0_pay19 (k0_pay18 v6 v8 p) = rowUpd 3#32 v6 v8 p := rfl
theorem pay22_eq : k0_pay22 v6 v8 p = rowUpd 4#32 v6 v8 p := rfl
theorem pay26_eq : k0_pay26 v6 v8 p = rowUpd 5#32 v6 v8 p := rfl
theorem pay29_eq (kw : BitVec 32) : k0_pay29 v6 v8 kw p = rowUpd kw v6 v8 p := rfl
theorem pay33_eq : k0_pay33 (k0_pay32 v6 v8) p = rowUpd 7#32 v6 v8 p := rfl
theorem pay36_eq : k0_pay36 v6 v8 p = rowUpd 8#32 v6 v8 p := rfl
theorem pay40_eq : k0_pay40 v6 v8 p = rowUpd 9#32 v6 v8 p := rfl
theorem pay44_eq : k0_pay44 v6 v8 p = rowUpd 10#32 v6 v8 p := rfl
theorem pay48_eq : k0_pay48 (k0_pay47 v6 v8) p = rowUpd 11#32 v6 v8 p := rfl
theorem pay51_eq : k0_pay51 v6 v8 p = rowUpd 12#32 v6 v8 p := rfl
theorem pay54_eq : k0_pay54 v6 v8 p = rowUpd 13#32 v6 v8 p := rfl
theorem pay58_eq : k0_pay58 v6 v8 p = rowUpd 14#32 v6 v8 p := rfl
theorem pay62_eq : k0_pay62 v6 (k0_pay61 v8) p = rowUpd 15#32 v6 v8 p := rfl
theorem pay66_eq : k0_pay66 (k0_pay65 v6 v8 p) = rowUpd 16#32 v6 v8 p := rfl
theorem pay69_eq : k0_pay69 v6 v8 p = rowUpd 17#32 v6 v8 p := rfl
theorem pay73_eq : k0_pay73 v6 v8 p = rowUpd 18#32 v6 v8 p := rfl
end Pay

/-- One class's new row over the tile's blocks, at a channel: the old value plus the tile's masked sum. -/
theorem row_val (kw : BitVec 32) (j : Fin 19) (hkw : kw = BitVec.ofNat 32 j.val)
    (x0 : Vec Ideal S1x256x32x128 .f32) (x1 : Vec Ideal S1x32x128 .i32) (prev : Vec Ideal S1x1x256 .f32) (ch : Fin 256) :
    rowUpd kw (k0_pay4 x0) (k0_pay5 x1) prev (ix3 (0 : Fin 1) (0 : Fin 1) ch)
      = prev (ix3 (0 : Fin 1) (0 : Fin 1) ch)
        + Cert.Spec.tileS (fun c' h w => x0 (ix4 (0 : Fin 1) c' h w)) (fun h w => x1 (ix3 (0 : Fin 1) h w)) j ch := by
  rw [rowUpd_apply]
  refine congrArg (prev (ix3 (0 : Fin 1) (0 : Fin 1) ch) + ·) ?_
  unfold Cert.Spec.tileS Cert.Spec.ind
  refine Finset.sum_congr rfl fun h _ => Finset.sum_congr rfl fun w _ => ?_
  have e0 : k0_pay4 x0 (ix3 ch h w) = x0 (ix4 (0 : Fin 1) ch h w) := by
    unfold k0_pay4
    refine shapeCast_apply x0 shapeCasts_S1x256x32x128_S256x32x128 (ix3 ch h w) (ix4 (0 : Fin 1) ch h w) ?_
    rw [Shape.rowMajor_val_three, Shape.rowMajor_val_four]
    show ((0 * 256 + ch.val) * 32 + h.val) * 128 + w.val = (ch.val * 32 + h.val) * 128 + w.val
    omega
  have e1 : k0_pay5 (F := Ideal) x1 (ix2 h w) = x1 (ix3 (0 : Fin 1) h w) := by
    unfold k0_pay5
    refine shapeCast_apply x1 shapeCasts_S1x32x128_S32x128 (ix2 h w) (ix3 (0 : Fin 1) h w) ?_
    rw [Shape.rowMajor_val_two, Shape.rowMajor_val_three]
    show (0 * 32 + h.val) * 128 + w.val = h.val * 128 + w.val
    omega
  rw [e0, e1, hkw]

/-- A row of the block read through its one-row rectangle. -/
theorem ld_row (xo2 : Vec Ideal S1x19x256 .f32) (r : ℕ)
    (inb : ∀ a, (![0, r, 0] : Fin 3 → ℕ) a + (![1, 1, 256] : Fin 3 → ℕ) a ≤ S1x19x256.size a) (j : Fin 19) (hj : j.val = r) (ch : Fin 256) :
    View.ld xo2 (Rect.unit (s := S1x19x256) ![0, r, 0] ![1, 1, 256] inb) (ix3 (0 : Fin 1) (0 : Fin 1) ch) = xo2 (ix3 (0 : Fin 1) j ch) := by
  show xo2 ((Rect.unit (s := S1x19x256) ![0, r, 0] ![1, 1, 256] inb).idx (ix3 (0 : Fin 1) (0 : Fin 1) ch)) = _
  refine congrArg xo2 (funext fun a => Fin.ext ?_)
  match a with
  | ⟨0, _⟩ => rfl
  | ⟨1, _⟩ => show r + 1 * 0 = j.val; omega
  | ⟨2, _⟩ => show 0 + 1 * ch.val = ch.val; omega

/-- A class's new row when the point accumulates: the block's previous row plus the tile's masked sum. -/
theorem rowB (kw : BitVec 32) (j : Fin 19) (hkw : kw = BitVec.ofNat 32 j.val)
    (x0 : Vec Ideal S1x256x32x128 .f32) (x1 : Vec Ideal S1x32x128 .i32) (xo2 : Vec Ideal S1x19x256 .f32) (r : ℕ)
    (inb : ∀ a, (![0, r, 0] : Fin 3 → ℕ) a + (![1, 1, 256] : Fin 3 → ℕ) a ≤ S1x19x256.size a) (hj : j.val = r) (ch : Fin 256) :
    rowUpd kw (k0_pay4 x0) (k0_pay5 x1) (View.ld xo2 (Rect.unit (s := S1x19x256) ![0, r, 0] ![1, 1, 256] inb)) (ix3 (0 : Fin 1) (0 : Fin 1) ch)
      = xo2 (ix3 (0 : Fin 1) j ch)
        + Cert.Spec.tileS (fun c' h w => x0 (ix4 (0 : Fin 1) c' h w)) (fun h w => x1 (ix3 (0 : Fin 1) h w)) j ch :=
  (row_val kw j hkw x0 x1 _ ch).trans (congrArg (· + _) (ld_row xo2 r inb j hj ch))

/-- A class's new row when the point starts a half: the row it loads holds 0, so it is the tile's masked sum. -/
theorem rowA (kw : BitVec 32) (j : Fin 19) (hkw : kw = BitVec.ofNat 32 j.val)
    (x0 : Vec Ideal S1x256x32x128 .f32) (x1 : Vec Ideal S1x32x128 .i32)
    (v6 : FVec Ideal S256x32x128 .f32) (hv6 : v6 = k0_pay4 x0) (v8 : IVec S32x128 32) (hv8 : v8 = k0_pay5 x1)
    (prev : Vec Ideal S1x1x256 .f32) (hprev : ∀ ch : Fin 256, prev (ix3 (0 : Fin 1) (0 : Fin 1) ch) = (0 : EReal)) (ch : Fin 256) :
    rowUpd kw v6 v8 prev (ix3 (0 : Fin 1) (0 : Fin 1) ch)
      = Cert.Spec.tileS (fun c' h w => x0 (ix4 (0 : Fin 1) c' h w)) (fun h w => x1 (ix3 (0 : Fin 1) h w)) j ch := by
  subst hv6 hv8
  rw [row_val kw j hkw, hprev ch, zero_add]

theorem outA2 (c : Dev nD) (i : grid0.Coords) (arg3 : Memref sig .tc .vmem S1x256x32x128 .f32) (harg3 : arg3.IsWhole) (arg4 : Memref sig .tc .vmem S1x32x128 .i32) (harg4 : arg4.IsWhole) (arg5 : Memref sig .tc .vmem S1x19x256 .f32) (harg5 : arg5.IsWhole) (arg6 : Memref sig .tc .vmem S1x19x128 .f32) (harg6 : arg6.IsWhole) (hc0 : cond0_0 i)
    (x0 : Vec Ideal S1x256x32x128 .f32) (x1 : Vec Ideal S1x32x128 .i32) (k : Fin 19) (ch : Fin 256) :
    out0_A_2 (F := Ideal) c i arg3 harg3 arg4 harg4 arg5 harg5 arg6 harg6 hc0 x0 x1 (ix3 (0 : Fin 1) k ch)
      = Cert.Spec.tileS (fun c' h w => x0 (ix4 (0 : Fin 1) c' h w)) (fun h w => x1 (ix3 (0 : Fin 1) h w)) k ch := by
  unfold out0_A_2
  rw [View.read_writes_eq_canon _ _ _ (cover0_A_2 c i arg3 harg3 arg4 harg4 arg5 harg5 arg6 harg6 hc0 x0 x1)]
  unfold kernelRun0_A
  dsimp only
  unfold kernelRun0_A.sl.H2_19 kernelRun0_A.sl.H2_18 kernelRun0_A.sl.H2_17 kernelRun0_A.sl.H2_16 kernelRun0_A.sl.H2_15
    kernelRun0_A.sl.H2_14 kernelRun0_A.sl.H2_13 kernelRun0_A.sl.H2_12 kernelRun0_A.sl.H2_11 kernelRun0_A.sl.H2_10
    kernelRun0_A.sl.H2_9 kernelRun0_A.sl.H2_8 kernelRun0_A.sl.H2_7 kernelRun0_A.sl.H2_6 kernelRun0_A.sl.H2_5
    kernelRun0_A.sl.H2_4 kernelRun0_A.sl.H2_3 kernelRun0_A.sl.H2_2
  refine canon_rows _ _ _ _ _ _ _ _ _ _ _ _ _ _ _ _ _ _ _ kernelRun0_A.sl.H2_1 k ch _ ?_ ?_ ?_ ?_ ?_ ?_ ?_ ?_ ?_ ?_ ?_ ?_ ?_ ?_ ?_ ?_ ?_ ?_ ?_
  · intro e; exact (congrFun (pay7_eq _ _ _) _).trans (rowA 0#32 k (by rw [e]) x0 x1 _ (featA c arg3 harg3 x0) _ (labA c arg4 harg4 x1) _ (V0 c arg5) ch)
  · intro e; exact (congrFun (pay12_eq _ _ _) _).trans (rowA 1#32 k (by rw [e]) x0 x1 _ (featA c arg3 harg3 x0) _ (labA c arg4 harg4 x1) _ (V1 c arg3 harg3 arg4 harg4 arg5 x0 x1) ch)
  · intro e; exact (congrFun (pay15_eq _ _ _) _).trans (rowA 2#32 k (by rw [e]) x0 x1 _ (featA c arg3 harg3 x0) _ (labA c arg4 harg4 x1) _ (V2 c arg3 harg3 arg4 harg4 arg5 x0 x1) ch)
  · intro e; exact (congrFun (pay19_eq _ _ _) _).trans (rowA 3#32 k (by rw [e]) x0 x1 _ (featA c arg3 harg3 x0) _ (labA c arg4 harg4 x1) _ (V3 c arg3 harg3 arg4 harg4 arg5 x0 x1) ch)
  · intro e; exact (congrFun (pay22_eq _ _ _) _).trans (rowA 4#32 k (by rw [e]) x0 x1 _ (featA c arg3 harg3 x0) _ (labA c arg4 harg4 x1) _ (V4 c arg3 harg3 arg4 harg4 arg5 x0 x1) ch)
  · intro e; exact (congrFun (pay26_eq _ _ _) _).trans (rowA 5#32 k (by rw [e]) x0 x1 _ (featA c arg3 harg3 x0) _ (labA c arg4 harg4 x1) _ (V5 c arg3 harg3 arg4 harg4 arg5 x0 x1) ch)
  · intro e; exact (congrFun (pay29_eq _ _ _ _) _).trans (rowA 6#32 k (by rw [e]) x0 x1 _ (featA c arg3 harg3 x0) _ (labA c arg4 harg4 x1) _ (V6 c arg3 harg3 arg4 harg4 arg5 x0 x1) ch)
  · intro e; exact (congrFun (pay33_eq _ _ _) _).trans (rowA 7#32 k (by rw [e]) x0 x1 _ (featA c arg3 harg3 x0) _ (labA c arg4 harg4 x1) _ (V7 c arg3 harg3 arg4 harg4 arg5 x0 x1) ch)
  · intro e; exact (congrFun (pay36_eq _ _ _) _).trans (rowA 8#32 k (by rw [e]) x0 x1 _ (featA c arg3 harg3 x0) _ (labA c arg4 harg4 x1) _ (V8 c arg3 harg3 arg4 harg4 arg5 x0 x1) ch)
  · intro e; exact (congrFun (pay40_eq _ _ _) _).trans (rowA 9#32 k (by rw [e]) x0 x1 _ (featA c arg3 harg3 x0) _ (labA c arg4 harg4 x1) _ (V9 c arg3 harg3 arg4 harg4 arg5 x0 x1) ch)
  · intro e; exact (congrFun (pay44_eq _ _ _) _).trans (rowA 10#32 k (by rw [e]) x0 x1 _ (featA c arg3 harg3 x0) _ (labA c arg4 harg4 x1) _ (V10 c arg3 harg3 arg4 harg4 arg5 x0 x1) ch)
  · intro e; exact (congrFun (pay48_eq _ _ _) _).trans (rowA 11#32 k (by rw [e]) x0 x1 _ (featA c arg3 harg3 x0) _ (labA c arg4 harg4 x1) _ (V11 c arg3 harg3 arg4 harg4 arg5 x0 x1) ch)
  · intro e; exact (congrFun (pay51_eq _ _ _) _).trans (rowA 12#32 k (by rw [e]) x0 x1 _ (featA c arg3 harg3 x0) _ (labA c arg4 harg4 x1) _ (V12 c arg3 harg3 arg4 harg4 arg5 x0 x1) ch)
  · intro e; exact (congrFun (pay54_eq _ _ _) _).trans (rowA 13#32 k (by rw [e]) x0 x1 _ (featA c arg3 harg3 x0) _ (labA c arg4 harg4 x1) _ (V13 c arg3 harg3 arg4 harg4 arg5 x0 x1) ch)
  · intro e; exact (congrFun (pay58_eq _ _ _) _).trans (rowA 14#32 k (by rw [e]) x0 x1 _ (featA c arg3 harg3 x0) _ (labA c arg4 harg4 x1) _ (V14 c arg3 harg3 arg4 harg4 arg5 x0 x1) ch)
  · intro e; exact (congrFun (pay62_eq _ _ _) _).trans (rowA 15#32 k (by rw [e]) x0 x1 _ (featA c arg3 harg3 x0) _ (labA c arg4 harg4 x1) _ (V15 c arg3 harg3 arg4 harg4 arg5 x0 x1) ch)
  · intro e; exact (congrFun (pay66_eq _ _ _) _).trans (rowA 16#32 k (by rw [e]) x0 x1 _ (featA c arg3 harg3 x0) _ (labA c arg4 harg4 x1) _ (V16 c arg3 harg3 arg4 harg4 arg5 x0 x1) ch)
  · intro e; exact (congrFun (pay69_eq _ _ _) _).trans (rowA 17#32 k (by rw [e]) x0 x1 _ (featA c arg3 harg3 x0) _ (labA c arg4 harg4 x1) _ (V17 c arg3 harg3 arg4 harg4 arg5 x0 x1) ch)
  · intro e; exact (congrFun (pay73_eq _ _ _) _).trans (rowA 18#32 k (by rw [e]) x0 x1 _ (featA c arg3 harg3 x0) _ (labA c arg4 harg4 x1) _ (V18 c arg3 harg3 arg4 harg4 arg5 x0 x1) ch)

theorem outB2 (c : Dev nD) (i : grid0.Coords) (arg3 : Memref sig .tc .vmem S1x256x32x128 .f32) (harg3 : arg3.IsWhole) (arg4 : Memref sig .tc .vmem S1x32x128 .i32) (harg4 : arg4.IsWhole) (arg5 : Memref sig .tc .vmem S1x19x256 .f32) (harg5 : arg5.IsWhole) (arg6 : Memref sig .tc .vmem S1x19x128 .f32) (harg6 : arg6.IsWhole) (hc0 : ¬cond0_0 i)
    (x0 : Vec Ideal S1x256x32x128 .f32) (x1 : Vec Ideal S1x32x128 .i32) (xo2 : Vec Ideal S1x19x256 .f32) (xo3 : Vec Ideal S1x19x128 .f32) (k : Fin 19) (ch : Fin 256) :
    out0_B_2 (F := Ideal) c i arg3 harg3 arg4 harg4 arg5 harg5 arg6 harg6 hc0 x0 x1 xo2 xo3 (ix3 (0 : Fin 1) k ch)
      = xo2 (ix3 (0 : Fin 1) k ch) + Cert.Spec.tileS (fun c' h w => x0 (ix4 (0 : Fin 1) c' h w)) (fun h w => x1 (ix3 (0 : Fin 1) h w)) k ch := by
  unfold out0_B_2
  rw [View.read_writes_eq_canon _ _ _ (cover0_B_2 c i arg3 harg3 arg4 harg4 arg5 harg5 arg6 harg6 hc0 x0 x1 xo2 xo3)]
  unfold kernelRun0_B
  dsimp only
  sl_unfold_run_names
  simp only [View.readAt_eq_ld, harg3.read_unread, harg4.read_unread, harg5.read_unread]
  have hz4 : (![0, 0, 0, 0] : Fin 4 → ℕ) = fun _ => 0 := by
    funext a; match a with | ⟨0, _⟩ => rfl | ⟨1, _⟩ => rfl | ⟨2, _⟩ => rfl | ⟨3, _⟩ => rfl
  have hz3 : (![0, 0, 0] : Fin 3 → ℕ) = fun _ => 0 := by
    funext a; match a with | ⟨0, _⟩ => rfl | ⟨1, _⟩ => rfl | ⟨2, _⟩ => rfl
  simp only [View.ld_unit_zero (S := S1x256x32x128) hz4, View.ld_unit_zero (S := S1x32x128) hz3]
  refine canon_rows _ _ _ _ _ _ _ _ _ _ _ _ _ _ _ _ _ _ _ [] k ch _ ?_ ?_ ?_ ?_ ?_ ?_ ?_ ?_ ?_ ?_ ?_ ?_ ?_ ?_ ?_ ?_ ?_ ?_ ?_
  · intro e; exact (congrFun (pay7_eq _ _ _) _).trans (rowB 0#32 k (by rw [e]) x0 x1 xo2 0 _ e ch)
  · intro e; exact (congrFun (pay12_eq _ _ _) _).trans (rowB 1#32 k (by rw [e]) x0 x1 xo2 1 _ e ch)
  · intro e; exact (congrFun (pay15_eq _ _ _) _).trans (rowB 2#32 k (by rw [e]) x0 x1 xo2 2 _ e ch)
  · intro e; exact (congrFun (pay19_eq _ _ _) _).trans (rowB 3#32 k (by rw [e]) x0 x1 xo2 3 _ e ch)
  · intro e; exact (congrFun (pay22_eq _ _ _) _).trans (rowB 4#32 k (by rw [e]) x0 x1 xo2 4 _ e ch)
  · intro e; exact (congrFun (pay26_eq _ _ _) _).trans (rowB 5#32 k (by rw [e]) x0 x1 xo2 5 _ e ch)
  · intro e; exact (congrFun (pay29_eq _ _ _ _) _).trans (rowB 6#32 k (by rw [e]) x0 x1 xo2 6 _ e ch)
  · intro e; exact (congrFun (pay33_eq _ _ _) _).trans (rowB 7#32 k (by rw [e]) x0 x1 xo2 7 _ e ch)
  · intro e; exact (congrFun (pay36_eq _ _ _) _).trans (rowB 8#32 k (by rw [e]) x0 x1 xo2 8 _ e ch)
  · intro e; exact (congrFun (pay40_eq _ _ _) _).trans (rowB 9#32 k (by rw [e]) x0 x1 xo2 9 _ e ch)
  · intro e; exact (congrFun (pay44_eq _ _ _) _).trans (rowB 10#32 k (by rw [e]) x0 x1 xo2 10 _ e ch)
  · intro e; exact (congrFun (pay48_eq _ _ _) _).trans (rowB 11#32 k (by rw [e]) x0 x1 xo2 11 _ e ch)
  · intro e; exact (congrFun (pay51_eq _ _ _) _).trans (rowB 12#32 k (by rw [e]) x0 x1 xo2 12 _ e ch)
  · intro e; exact (congrFun (pay54_eq _ _ _) _).trans (rowB 13#32 k (by rw [e]) x0 x1 xo2 13 _ e ch)
  · intro e; exact (congrFun (pay58_eq _ _ _) _).trans (rowB 14#32 k (by rw [e]) x0 x1 xo2 14 _ e ch)
  · intro e; exact (congrFun (pay62_eq _ _ _) _).trans (rowB 15#32 k (by rw [e]) x0 x1 xo2 15 _ e ch)
  · intro e; exact (congrFun (pay66_eq _ _ _) _).trans (rowB 16#32 k (by rw [e]) x0 x1 xo2 16 _ e ch)
  · intro e; exact (congrFun (pay69_eq _ _ _) _).trans (rowB 17#32 k (by rw [e]) x0 x1 xo2 17 _ e ch)
  · intro e; exact (congrFun (pay73_eq _ _ _) _).trans (rowB 18#32 k (by rw [e]) x0 x1 xo2 18 _ e ch)

end Cert.KernelIdeal.TileS
end
-- ==== Proof.TileCPay.lean ====
import proofs.«170524_j53137335386661_1_alg».proof.Proof.Gen.KernelIdeal.Frame
import proofs.«170524_j53137335386661_1_alg».proof.Proof.Spec
import Idealize.ShloMosaic.Lib.ValueIdx
import Idealize.ShloMosaic.Lib.ValueLayout
import Idealize.ShloMosaic.PureOps.Ideal.Laws

/-!
  One class's update of its row of pixel counts, as ONE function of the class word.

  For a class word `kw` and a tile of labels `v8 : [32, 128]` the body builds the mask
  `[label = kw]` as 1.0 / 0.0, sums it over the lanes, then over the rows, and adds the resulting
  scalar to every lane of the row it loaded. Every class repeats that, so every class's stored value
  is `cntUpd kw v8 prev`; read at lane `l` it is `prev l` plus the number of pixels of the tile
  whose label is `kw`.
-/

noncomputable section

namespace Cert.KernelIdeal.TileC
open Idealize.ShloMosaic Idealize.ShloMosaic.ValueIdx Cert.KernelIdeal Cert.KernelIdeal.Gen

/-- The mask of class word `kw`: 1.0 where the label is `kw`, else 0.0. -/
def maskOf (kw : BitVec 32) (v8 : IVec S32x128 32) : FVec Ideal S32x128 .f32 :=
  sitofp .f32 (extui 32 (cmpi .eq v8 (broadcast S32x128 kw)) natLt_1_32)

/-- The lane sums of a mask, as a row vector. -/
def rowsOf (m : FVec Ideal S32x128 .f32) : FVec Ideal S1x32 .f32 :=
  shapeCast S1x32 (multiReduction .add [1] S32 m 0x00000000#32 reduces_S32x128_S32 (.inl rfl) rfl) shapeCasts_S32_S1x32

/-- The sum of the row vector, extracted as a scalar. -/
def totOf (r : FVec Ideal S1x32 .f32) : Ideal .f32 :=
  extractAt ![0, 0] (shapeCast S1x1 (multiReduction .add [1] S1 r 0x00000000#32 reduces_S1x32_S1 (.inl rfl) rfl) shapeCasts_S1_S1x1) inpos_S1x1_p0_0

/-- A row of counts with a scalar added to every lane, before the final reshape. -/
def addOf (cnt : Ideal .f32) (prev : Vec Ideal S1x1x128 .f32) : FVec Ideal S128 .f32 :=
  addf (shapeCast S128 prev shapeCasts_S1x1x128_S128) (broadcast S128 cnt)

/-- … and reshaped back to the row's block shape. -/
def updOf (cnt : Ideal .f32) (prev : Vec Ideal S1x1x128 .f32) : FVec Ideal S1x1x128 .f32 :=
  shapeCast S1x1x128 (addOf cnt prev) shapeCasts_S128_S1x1x128

/-- One class's whole update. -/
def cntUpd (kw : BitVec 32) (v8 : IVec S32x128 32) (prev : Vec Ideal S1x1x128 .f32) : FVec Ideal S1x1x128 .f32 :=
  updOf (totOf (rowsOf (maskOf kw v8))) prev

/-! ## Read at an index -/

/-- A comparison bit, widened and read as a signed integer, is the indicator of equality. -/
theorem bit_indicator (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h
    simp [IntOp.cmpi]
  · have hb : (a == b) = false := by simpa using h
    simp [IntOp.cmpi, hb, h]

theorem maskOf_apply (kw : BitVec 32) (v8 : IVec S32x128 32) (h : Fin 32) (w : Fin 128) :
    maskOf kw v8 (ix2 h w) = if v8 (ix2 h w) = kw then 1 else 0 :=
  bit_indicator (v8 (ix2 h w)) kw

theorem rowsOf_apply (m : FVec Ideal S32x128 .f32) (u : Fin 1) (h : Fin 32) :
    rowsOf m (ix2 u h) = ∑ w : Fin 128, m (ix2 h w) := by
  unfold rowsOf
  rw [shapeCast_a_1a_apply]
  refine (Ideal.multiReduction_add_single m 0x00000000#32 reduces_S32x128_S32 (.inl rfl) rfl (ix1 h)).trans ?_
  refine Finset.sum_congr rfl fun w _ => congrArg m ?_
  funext a
  match a with
  | ⟨0, _⟩ => rfl
  | ⟨1, _⟩ => rfl

theorem totOf_eq (r : FVec Ideal S1x32 .f32) : totOf r = ∑ h : Fin 32, r (ix2 (0 : Fin 1) h) := by
  unfold totOf extractAt
  refine (shapeCast_apply _ _ _ (ix1 (0 : Fin 1)) ?_).trans ?_
  · rw [Shape.rowMajor_val_one, Shape.rowMajor_val_two]; rfl
  refine (Ideal.multiReduction_add_single r 0x00000000#32 reduces_S1x32_S1 (.inl rfl) rfl (ix1 0)).trans ?_
  refine Finset.sum_congr rfl fun h _ => congrArg r ?_
  funext a
  match a with
  | ⟨0, _⟩ => rfl
  | ⟨1, _⟩ => rfl

theorem updOf_apply (cnt : Ideal .f32) (prev : Vec Ideal S1x1x128 .f32) (l : Fin 128) :
    updOf cnt prev (ix3 (0 : Fin 1) (0 : Fin 1) l) = prev (ix3 (0 : Fin 1) (0 : Fin 1) l) + cnt := by
  unfold updOf addOf
  refine (shapeCast_apply _ _ _ (ix1 l) ?_).trans ?_
  · rw [Shape.rowMajor_val_one, Shape.rowMajor_val_three]
    show l.val = (0 * 1 + 0) * 128 + l.val
    omega
  rw [addf_apply, broadcast_apply]
  refine congrArg (· + cnt) ?_
  refine shapeCast_apply _ _ _ (ix3 (0 : Fin 1) (0 : Fin 1) l) ?_
  rw [Shape.rowMajor_val_one, Shape.rowMajor_val_three]
  show (0 * 1 + 0) * 128 + l.val = l.val
  omega

/-- One class's update read at lane `l`: the row's old value plus the number of pixels of the tile labelled `kw`. -/
theorem cntUpd_apply (kw : BitVec 32) (v8 : IVec S32x128 32) (prev : Vec Ideal S1x1x128 .f32) (l : Fin 128) :
    cntUpd kw v8 prev (ix3 (0 : Fin 1) (0 : Fin 1) l)
      = prev (ix3 (0 : Fin 1) (0 : Fin 1) l) + ∑ h : Fin 32, ∑ w : Fin 128, (if v8 (ix2 h w) = kw then (1 : EReal) else 0) := by
  unfold cntUpd
  rw [updOf_apply, totOf_eq]
  refine congrArg (_ + ·) ?_
  refine Finset.sum_congr rfl fun h _ => ?_
  rw [rowsOf_apply]
  exact Finset.sum_congr rfl fun w _ => maskOf_apply kw v8 h w

end Cert.KernelIdeal.TileC
end
-- ==== Proof.TileCRow.lean ====
import proofs.«170524_j53137335386661_1_alg».proof.Proof.TileCPay

/-!
  From the stores of one grid point to the counts' block.

  Every class `k` stores `cntUpd k …` of the row it loaded on row `k` of the block, through the rectangle
  `[0, k, 0] + [1, 1, 128]`. Where the point accumulates, each load reads the block as the point found it, and the
  nineteen stores agree with one function of the block index (`cntBlock`). Where the point first zeroes the block,
  the load of row `k` reads through the earlier stores: it finds the zero the first store left, since the classes
  before `k` wrote other rows (`stepA`, by induction along the list of stores: `chainA`).
-/

noncomputable section

namespace Cert.KernelIdeal.TileC
open Idealize.ShloMosaic Idealize.ShloMosaic.TcCoe Idealize.ShloMosaic.Tactic Idealize.SL.Sem Idealize.ShloMosaic.ValueIdx Cert.KernelIdeal Cert.KernelIdeal.Gen

/-- The block of counts after one grid point, as one function of the block index: what was there plus the
    tile's number of pixels of the row's class. -/
def cntBlock (x1 : Vec Ideal S1x32x128 .i32) (prev : S1x19x128.Idx → EReal) : S1x19x128.Idx → EReal :=
  fun y => prev y + Cert.Spec.tileC (fun h w => x1 (ix3 (0 : Fin 1) h w)) (y 1)

/-- Row `kn`'s rectangle places lane `l` of its one row at `(0, kn, l)`. -/
theorem emb_row (kn : Nat) (hk : kn < 19)
    (inb : ∀ a, (![0, kn, 0] : Fin 3 → Nat) a + (![1, 1, 128] : Fin 3 → Nat) a ≤ S1x19x128.size a) (l : Fin 128) :
    (Rect.unit (s := S1x19x128) (![0, kn, 0] : Fin 3 → Nat) (![1, 1, 128] : Fin 3 → Nat) inb).emb (ix3 (0 : Fin 1) (0 : Fin 1) l)
      = ix3 (0 : Fin 1) (⟨kn, hk⟩ : Fin 19) l := by
  funext a
  refine Fin.ext ?_
  match a with
  | ⟨0, _⟩ => rfl
  | ⟨1, _⟩ => show kn + 1 * 0 = kn; omega
  | ⟨2, _⟩ => show 0 + 1 * l.val = l.val; omega

/-- The load of row `kn` of the counts' buffer reads that row of its contents. -/
theorem load_row (arg6 : Memref sig .tc .vmem S1x19x128 .f32) (harg6 : arg6.IsWhole) (xo3 : Vec Ideal S1x19x128 .f32)
    (kn : Nat) (hk : kn < 19)
    (inb : ∀ a, (![0, kn, 0] : Fin 3 → Nat) a + (![1, 1, 128] : Fin 3 → Nat) a ≤ S1x19x128.size a) (l : Fin 128) :
    View.readAt (Elt Ideal) arg6.view (Rect.unit (s := S1x19x128) (![0, kn, 0] : Fin 3 → Nat) (![1, 1, 128] : Fin 3 → Nat) inb).toLoadRect (harg6.unread xo3)
        (ix3 (0 : Fin 1) (0 : Fin 1) l)
      = xo3 (ix3 (0 : Fin 1) (⟨kn, hk⟩ : Fin 19) l) := by
  rw [View.readAt_eq_ld, harg6.read_unread]
  exact congrArg xo3 (emb_row kn hk inb l)

/-- The labels' block, loaded whole and with its unit axis dropped, reads the block. -/
theorem load_labels (arg4 : Memref sig .tc .vmem S1x32x128 .i32) (harg4 : arg4.IsWhole) (x1 : Vec Ideal S1x32x128 .i32)
    (inb0 : ∀ a, (![0, 0, 0] : Fin 3 → Nat) a + S1x32x128.size a ≤ S1x32x128.size a) (h : Fin 32) (w : Fin 128) :
    k0_pay5 (F := Ideal) (View.readAt (Elt Ideal) arg4.view (Rect.unit (s := S1x32x128) (![0, 0, 0] : Fin 3 → Nat) S1x32x128.size inb0).toLoadRect (harg4.unread x1))
        (ix2 h w)
      = x1 (ix3 (0 : Fin 1) h w) := by
  unfold k0_pay5
  have hz : (![0, 0, 0] : Fin 3 → Nat) = fun _ => 0 := by
    funext a
    match a with
    | ⟨0, _⟩ => rfl
    | ⟨1, _⟩ => rfl
    | ⟨2, _⟩ => rfl
  rw [View.readAt_eq_ld, harg4.read_unread, View.ld_unit_zero (S := S1x32x128) hz]
  exact shapeCast_1ab_ab_apply x1 _ h w

/-- One class's stored row agrees with `cntBlock` on its rectangle. -/
theorem piece_B (kn : Nat) (hk : kn < 19)
    (inb inb' : ∀ a, (![0, kn, 0] : Fin 3 → Nat) a + (![1, 1, 128] : Fin 3 → Nat) a ≤ S1x19x128.size a)
    (inb0 : ∀ a, (![0, 0, 0] : Fin 3 → Nat) a + S1x32x128.size a ≤ S1x32x128.size a)
    (arg4 : Memref sig .tc .vmem S1x32x128 .i32) (harg4 : arg4.IsWhole)
    (arg6 : Memref sig .tc .vmem S1x19x128 .f32) (harg6 : arg6.IsWhole)
    (x1 : Vec Ideal S1x32x128 .i32) (xo3 : Vec Ideal S1x19x128 .f32) (x : S1x1x128.Idx) :
    cntUpd (BitVec.ofNat 32 kn)
        (k0_pay5 (F := Ideal) (View.readAt (Elt Ideal) arg4.view (Rect.unit (s := S1x32x128) (![0, 0, 0] : Fin 3 → Nat) S1x32x128.size inb0).toLoadRect (harg4.unread x1)))
        (View.readAt (Elt Ideal) arg6.view (Rect.unit (s := S1x19x128) (![0, kn, 0] : Fin 3 → Nat) (![1, 1, 128] : Fin 3 → Nat) inb').toLoadRect (harg6.unread xo3)) x
      = cntBlock x1 xo3 ((Rect.unit (s := S1x19x128) (![0, kn, 0] : Fin 3 → Nat) (![1, 1, 128] : Fin 3 → Nat) inb).emb x) := by
  obtain ⟨u, v, l, rfl⟩ : ∃ (u : Fin 1) (v : Fin 1) (l : Fin 128), x = ix3 u v l := ⟨x 0, x 1, x 2, eq_ix3 x⟩
  obtain rfl : u = 0 := Subsingleton.elim _ _
  obtain rfl : v = 0 := Subsingleton.elim _ _
  rw [cntUpd_apply, emb_row kn hk inb l, load_row arg6 harg6 xo3 kn hk inb' l]
  show _ = xo3 (ix3 (0 : Fin 1) (⟨kn, hk⟩ : Fin 19) l) + Cert.Spec.tileC (fun h w => x1 (ix3 (0 : Fin 1) h w)) (⟨kn, hk⟩ : Fin 19)
  refine congrArg (_ + ·) ?_
  unfold Cert.Spec.tileC
  refine Finset.sum_congr rfl fun h _ => Finset.sum_congr rfl fun w _ => ?_
  rw [load_labels arg4 harg4 x1 inb0 h w]
  rfl

/-! ## The point that zeroes the block first -/

/-- The tile's count of class `k`. -/
abbrev tileCnt (x1 : Vec Ideal S1x32x128 .i32) (k : Fin 19) : EReal :=
  Cert.Spec.tileC (fun h w => x1 (ix3 (0 : Fin 1) h w)) k

/-- One more class stored on a block whose rows below `kn` hold their counts and whose other rows are zero:
    the rows below `kn + 1` hold their counts, the others are zero. -/
theorem stepA (L : List (View.Piece (Elt Ideal) S1x19x128 .f32)) (kn : Nat) (hk : kn < 19)
    (inb inb' : ∀ a, (![0, kn, 0] : Fin 3 → Nat) a + (![1, 1, 128] : Fin 3 → Nat) a ≤ S1x19x128.size a)
    (inb0 : ∀ a, (![0, 0, 0] : Fin 3 → Nat) a + S1x32x128.size a ≤ S1x32x128.size a)
    (arg4 : Memref sig .tc .vmem S1x32x128 .i32) (harg4 : arg4.IsWhole)
    (arg6 : Memref sig .tc .vmem S1x19x128 .f32) (x1 : Vec Ideal S1x32x128 .i32)
    (hcov : ∀ y : S1x19x128.Idx, ∃ p ∈ L, y ∈ p.1.set)
    (hL : ∀ (k : Fin 19) (l : Fin 128), View.canon L (ix3 (0 : Fin 1) k l) = if k.val < kn then tileCnt x1 k else 0)
    (pay : S1x1x128.Idx → EReal)
    (hpay : pay = cntUpd (BitVec.ofNat 32 kn) (k0_pay5 (F := Ideal) (View.readAt (Elt Ideal) arg4.view (Rect.unit (s := S1x32x128) (![0, 0, 0] : Fin 3 → Nat) S1x32x128.size inb0).toLoadRect (harg4.unread x1)))
        (arg6.view.readCov L (Rect.unit (s := S1x19x128) (![0, kn, 0] : Fin 3 → Nat) (![1, 1, 128] : Fin 3 → Nat) inb').toLoadRect))
    (k : Fin 19) (l : Fin 128) :
    View.canon ((⟨(Rect.unit (s := S1x19x128) (![0, kn, 0] : Fin 3 → Nat) (![1, 1, 128] : Fin 3 → Nat) inb), pay⟩ : View.Piece (Elt Ideal) S1x19x128 .f32) :: L) (ix3 (0 : Fin 1) k l)
      = if k.val < kn + 1 then tileCnt x1 k else 0 := by
  by_cases hkk : k.val = kn
  · obtain rfl : k = ⟨kn, hk⟩ := Fin.ext hkk
    rw [← emb_row kn hk inb l, View.canon_cons_emb]
    subst hpay
    rw [cntUpd_apply, View.readCov_eq_canon_ld _ _ _ hcov]
    show View.canon L ((Rect.unit (s := S1x19x128) (![0, kn, 0] : Fin 3 → Nat) (![1, 1, 128] : Fin 3 → Nat) inb').emb (ix3 (0 : Fin 1) (0 : Fin 1) l)) + _ = _
    rw [emb_row kn hk inb' l, hL, if_neg (lt_irrefl _), if_pos (Nat.lt_succ_self _), zero_add]
    unfold tileCnt Cert.Spec.tileC
    refine Finset.sum_congr rfl fun h _ => Finset.sum_congr rfl fun w _ => ?_
    rw [load_labels arg4 harg4 x1 inb0 h w]
    rfl
  · have hm : ix3 (0 : Fin 1) k l ∉ (⟨(Rect.unit (s := S1x19x128) (![0, kn, 0] : Fin 3 → Nat) (![1, 1, 128] : Fin 3 → Nat) inb), pay⟩ : View.Piece (Elt Ideal) S1x19x128 .f32).1.set := by
      show ix3 (0 : Fin 1) k l ∉ (Rect.unit (s := S1x19x128) (![0, kn, 0] : Fin 3 → Nat) (![1, 1, 128] : Fin 3 → Nat) inb).set
      rw [Rect.mem_set_unit]
      intro h
      have h1 := h 1
      have e1 : ((ix3 (0 : Fin 1) k l (1 : Fin 3) : Fin 19) : Nat) = k.val := rfl
      have e2 : (![0, kn, 0] : Fin 3 → Nat) 1 = kn := rfl
      have e3 : (![1, 1, 128] : Fin 3 → Nat) 1 = 1 := rfl
      rw [e2, e3] at h1
      omega
    rw [View.canon_cons_of_not_mem (⟨(Rect.unit (s := S1x19x128) (![0, kn, 0] : Fin 3 → Nat) (![1, 1, 128] : Fin 3 → Nat) inb), pay⟩ : View.Piece (Elt Ideal) S1x19x128 .f32) L hm, hL]
    by_cases hlt : k.val < kn
    · rw [if_pos hlt, if_pos (Nat.lt_succ_of_lt hlt)]
    · rw [if_neg hlt, if_neg (by omega)]

/-- Adding a piece keeps a covered block covered. -/
theorem cov_cons (p : View.Piece (Elt Ideal) S1x19x128 .f32) (L : List (View.Piece (Elt Ideal) S1x19x128 .f32))
    (hcov : ∀ y : S1x19x128.Idx, ∃ q ∈ L, y ∈ q.1.set) : ∀ y : S1x19x128.Idx, ∃ q ∈ p :: L, y ∈ q.1.set :=
  fun y => by obtain ⟨q, hq, hy⟩ := hcov y; exact ⟨q, List.mem_cons_of_mem _ hq, hy⟩

theorem zeros3 : (![0, 0, 0] : Fin 3 → Nat) = fun _ => 0 := by
  funext a
  match a with
  | ⟨0, _⟩ => rfl
  | ⟨1, _⟩ => rfl
  | ⟨2, _⟩ => rfl

/-- The block right after the zeroing store: covered, and zero everywhere. -/
theorem baseA (x1 : Vec Ideal S1x32x128 .i32) : (∀ y : S1x19x128.Idx, ∃ q ∈ kernelRun0_A.sl.H3_1 (F := Ideal), y ∈ q.1.set)
    ∧ ∀ (k : Fin 19) (l : Fin 128), View.canon (kernelRun0_A.sl.H3_1 (F := Ideal)) (ix3 (0 : Fin 1) k l)
        = if k.val < 0 then tileCnt x1 k else 0 := by
  unfold kernelRun0_A.sl.H3_1
  refine ⟨fun y => ⟨_, List.mem_singleton_self _, View.mem_set_unit_zero zeros3 inb_S1x19x128_S1x19x128_0_0_0 y⟩, fun k l => ?_⟩
  rw [View.canon_unit_zero zeros3, if_neg (Nat.not_lt_zero _)]
  exact Ideal.ofBits_zero_f32

/-- A list of stores that covers the block and leaves the counts of the classes below `j`, zero elsewhere. -/
def InvA (x1 : Vec Ideal S1x32x128 .i32) (L : List (View.Piece (Elt Ideal) S1x19x128 .f32)) (j : Nat) : Prop :=
  (∀ y : S1x19x128.Idx, ∃ q ∈ L, y ∈ q.1.set)
    ∧ ∀ (k : Fin 19) (l : Fin 128), View.canon L (ix3 (0 : Fin 1) k l) = if k.val < j then tileCnt x1 k else 0

theorem InvA.step {x1 : Vec Ideal S1x32x128 .i32} {L : List (View.Piece (Elt Ideal) S1x19x128 .f32)} (kn : Nat) (hk : kn < 19)
    (h : InvA x1 L kn)
    (inb inb' : ∀ a, (![0, kn, 0] : Fin 3 → Nat) a + (![1, 1, 128] : Fin 3 → Nat) a ≤ S1x19x128.size a)
    (inb0 : ∀ a, (![0, 0, 0] : Fin 3 → Nat) a + S1x32x128.size a ≤ S1x32x128.size a)
    (arg4 : Memref sig .tc .vmem S1x32x128 .i32) (harg4 : arg4.IsWhole)
    (arg6 : Memref sig .tc .vmem S1x19x128 .f32)
    (pay : S1x1x128.Idx → EReal)
    (hpay : pay = cntUpd (BitVec.ofNat 32 kn) (k0_pay5 (F := Ideal) (View.readAt (Elt Ideal) arg4.view (Rect.unit (s := S1x32x128) (![0, 0, 0] : Fin 3 → Nat) S1x32x128.size inb0).toLoadRect (harg4.unread x1)))
        (arg6.view.readCov L (Rect.unit (s := S1x19x128) (![0, kn, 0] : Fin 3 → Nat) (![1, 1, 128] : Fin 3 → Nat) inb').toLoadRect)) :
    InvA x1 ((⟨(Rect.unit (s := S1x19x128) (![0, kn, 0] : Fin 3 → Nat) (![1, 1, 128] : Fin 3 → Nat) inb), pay⟩ : View.Piece (Elt Ideal) S1x19x128 .f32) :: L) (kn + 1) :=
  ⟨cov_cons _ _ h.1, stepA L kn hk inb inb' inb0 arg4 harg4 arg6 x1 h.1 h.2 pay hpay⟩

/-- The stores of the first eighteen classes, after the zeroing store. -/
theorem chainA (c : Dev nD) (arg4 : Memref sig .tc .vmem S1x32x128 .i32) (harg4 : arg4.IsWhole)
    (arg6 : Memref sig .tc .vmem S1x19x128 .f32) (x1 : Vec Ideal S1x32x128 .i32) :
    InvA x1 (kernelRun0_A.sl.H3_19 (F := Ideal) c arg4 harg4 arg6 x1) 18 := by
  have h1 : InvA x1 (kernelRun0_A.sl.H3_1 (F := Ideal)) 0 := baseA x1
  have h2 : InvA x1 (kernelRun0_A.sl.H3_2 (F := Ideal) c arg4 harg4 arg6 x1) 1 := by
    unfold kernelRun0_A.sl.H3_2
    exact InvA.step 0 (by decide) h1 inb_S1x19x128_S1x1x128_0_0_0 inb_S1x19x128_S1x1x128_0_0_0 inb_S1x32x128_S1x32x128_0_0_0 arg4 harg4 arg6 _ rfl
  have h3 : InvA x1 (kernelRun0_A.sl.H3_3 (F := Ideal) c arg4 harg4 arg6 x1) 2 := by
    unfold kernelRun0_A.sl.H3_3
    exact InvA.step 1 (by decide) h2 inb_S1x19x128_S1x1x128_0_1_0 inb_S1x19x128_S1x1x128_0_1_0 inb_S1x32x128_S1x32x128_0_0_0 arg4 harg4 arg6 _ rfl
  have h4 : InvA x1 (kernelRun0_A.sl.H3_4 (F := Ideal) c arg4 harg4 arg6 x1) 3 := by
    unfold kernelRun0_A.sl.H3_4
    exact InvA.step 2 (by decide) h3 inb_S1x19x128_S1x1x128_0_2_0 inb_S1x19x128_S1x1x128_0_2_0 inb_S1x32x128_S1x32x128_0_0_0 arg4 harg4 arg6 _ rfl
  have h5 : InvA x1 (kernelRun0_A.sl.H3_5 (F := Ideal) c arg4 harg4 arg6 x1) 4 := by
    unfold kernelRun0_A.sl.H3_5
    exact InvA.step 3 (by decide) h4 inb_S1x19x128_S1x1x128_0_3_0 inb_S1x19x128_S1x1x128_0_3_0 inb_S1x32x128_S1x32x128_0_0_0 arg4 harg4 arg6 _ rfl
  have h6 : InvA x1 (kernelRun0_A.sl.H3_6 (F := Ideal) c arg4 harg4 arg6 x1) 5 := by
    unfold kernelRun0_A.sl.H3_6
    exact InvA.step 4 (by decide) h5 inb_S1x19x128_S1x1x128_0_4_0 inb_S1x19x128_S1x1x128_0_4_0 inb_S1x32x128_S1x32x128_0_0_0 arg4 harg4 arg6 _ rfl
  have h7 : InvA x1 (kernelRun0_A.sl.H3_7 (F := Ideal) c arg4 harg4 arg6 x1) 6 := by
    unfold kernelRun0_A.sl.H3_7
    exact InvA.step 5 (by decide) h6 inb_S1x19x128_S1x1x128_0_5_0 inb_S1x19x128_S1x1x128_0_5_0 inb_S1x32x128_S1x32x128_0_0_0 arg4 harg4 arg6 _ rfl
  have h8 : InvA x1 (kernelRun0_A.sl.H3_8 (F := Ideal) c arg4 harg4 arg6 x1) 7 := by
    unfold kernelRun0_A.sl.H3_8
    exact InvA.step 6 (by decide) h7 inb_S1x19x128_S1x1x128_0_6_0 inb_S1x19x128_S1x1x128_0_6_0 inb_S1x32x128_S1x32x128_0_0_0 arg4 harg4 arg6 _ rfl
  have h9 : InvA x1 (kernelRun0_A.sl.H3_9 (F := Ideal) c arg4 harg4 arg6 x1) 8 := by
    unfold kernelRun0_A.sl.H3_9
    exact InvA.step 7 (by decide) h8 inb_S1x19x128_S1x1x128_0_7_0 inb_S1x19x128_S1x1x128_0_7_0 inb_S1x32x128_S1x32x128_0_0_0 arg4 harg4 arg6 _ rfl
  have h10 : InvA x1 (kernelRun0_A.sl.H3_10 (F := Ideal) c arg4 harg4 arg6 x1) 9 := by
    unfold kernelRun0_A.sl.H3_10
    exact InvA.step 8 (by decide) h9 inb_S1x19x128_S1x1x128_0_8_0 inb_S1x19x128_S1x1x128_0_8_0 inb_S1x32x128_S1x32x128_0_0_0 arg4 harg4 arg6 _ rfl
  have h11 : InvA x1 (kernelRun0_A.sl.H3_11 (F := Ideal) c arg4 harg4 arg6 x1) 10 := by
    unfold kernelRun0_A.sl.H3_11
    exact InvA.step 9 (by decide) h10 inb_S1x19x128_S1x1x128_0_9_0 inb_S1x19x128_S1x1x128_0_9_0 inb_S1x32x128_S1x32x128_0_0_0 arg4 harg4 arg6 _ rfl
  have h12 : InvA x1 (kernelRun0_A.sl.H3_12 (F := Ideal) c arg4 harg4 arg6 x1) 11 := by
    unfold kernelRun0_A.sl.H3_12
    exact InvA.step 10 (by decide) h11 inb_S1x19x128_S1x1x128_0_10_0 inb_S1x19x128_S1x1x128_0_10_0 inb_S1x32x128_S1x32x128_0_0_0 arg4 harg4 arg6 _ rfl
  have h13 : InvA x1 (kernelRun0_A.sl.H3_13 (F := Ideal) c arg4 harg4 arg6 x1) 12 := by
    unfold kernelRun0_A.sl.H3_13
    exact InvA.step 11 (by decide) h12 inb_S1x19x128_S1x1x128_0_11_0 inb_S1x19x128_S1x1x128_0_11_0 inb_S1x32x128_S1x32x128_0_0_0 arg4 harg4 arg6 _ rfl
  have h14 : InvA x1 (kernelRun0_A.sl.H3_14 (F := Ideal) c arg4 harg4 arg6 x1) 13 := by
    unfold kernelRun0_A.sl.H3_14
    exact InvA.step 12 (by decide) h13 inb_S1x19x128_S1x1x128_0_12_0 inb_S1x19x128_S1x1x128_0_12_0 inb_S1x32x128_S1x32x128_0_0_0 arg4 harg4 arg6 _ rfl
  have h15 : InvA x1 (kernelRun0_A.sl.H3_15 (F := Ideal) c arg4 harg4 arg6 x1) 14 := by
    unfold kernelRun0_A.sl.H3_15
    exact InvA.step 13 (by decide) h14 inb_S1x19x128_S1x1x128_0_13_0 inb_S1x19x128_S1x1x128_0_13_0 inb_S1x32x128_S1x32x128_0_0_0 arg4 harg4 arg6 _ rfl
  have h16 : InvA x1 (kernelRun0_A.sl.H3_16 (F := Ideal) c arg4 harg4 arg6 x1) 15 := by
    unfold kernelRun0_A.sl.H3_16
    exact InvA.step 14 (by decide) h15 inb_S1x19x128_S1x1x128_0_14_0 inb_S1x19x128_S1x1x128_0_14_0 inb_S1x32x128_S1x32x128_0_0_0 arg4 harg4 arg6 _ rfl
  have h17 : InvA x1 (kernelRun0_A.sl.H3_17 (F := Ideal) c arg4 harg4 arg6 x1) 16 := by
    unfold kernelRun0_A.sl.H3_17
    exact InvA.step 15 (by decide) h16 inb_S1x19x128_S1x1x128_0_15_0 inb_S1x19x128_S1x1x128_0_15_0 inb_S1x32x128_S1x32x128_0_0_0 arg4 harg4 arg6 _ rfl
  have h18 : InvA x1 (kernelRun0_A.sl.H3_18 (F := Ideal) c arg4 harg4 arg6 x1) 17 := by
    unfold kernelRun0_A.sl.H3_18
    exact InvA.step 16 (by decide) h17 inb_S1x19x128_S1x1x128_0_16_0 inb_S1x19x128_S1x1x128_0_16_0 inb_S1x32x128_S1x32x128_0_0_0 arg4 harg4 arg6 _ rfl
  have h19 : InvA x1 (kernelRun0_A.sl.H3_19 (F := Ideal) c arg4 harg4 arg6 x1) 18 := by
    unfold kernelRun0_A.sl.H3_19
    exact InvA.step 17 (by decide) h18 inb_S1x19x128_S1x1x128_0_17_0 inb_S1x19x128_S1x1x128_0_17_0 inb_S1x32x128_S1x32x128_0_0_0 arg4 harg4 arg6 _ rfl
  exact h19

end Cert.KernelIdeal.TileC
end
-- ==== Proof.TileC.lean ====
import proofs.«170524_j53137335386661_1_alg».proof.Proof.Gen.KernelIdeal.Frame
import proofs.«170524_j53137335386661_1_alg».proof.Proof.TileCRow
import proofs.«170524_j53137335386661_1_alg».proof.Proof.Spec
import Idealize.ShloMosaic.Lib.ValueIdx

noncomputable section

namespace Cert.KernelIdeal.TileC
open Idealize.ShloMosaic Idealize.ShloMosaic.TcCoe Idealize.ShloMosaic.Tactic Idealize.SL.Sem Idealize.ShloMosaic.ValueIdx Cert.KernelIdeal Cert.KernelIdeal.Gen

theorem outA3 (c : Dev nD) (i : grid0.Coords) (arg3 : Memref sig .tc .vmem S1x256x32x128 .f32) (harg3 : arg3.IsWhole) (arg4 : Memref sig .tc .vmem S1x32x128 .i32) (harg4 : arg4.IsWhole) (arg5 : Memref sig .tc .vmem S1x19x256 .f32) (harg5 : arg5.IsWhole) (arg6 : Memref sig .tc .vmem S1x19x128 .f32) (harg6 : arg6.IsWhole) (hc0 : cond0_0 i)
    (x0 : Vec Ideal S1x256x32x128 .f32) (x1 : Vec Ideal S1x32x128 .i32) (k : Fin 19) (l : Fin 128) :
    out0_A_3 (F := Ideal) c i arg3 harg3 arg4 harg4 arg5 harg5 arg6 harg6 hc0 x0 x1 (ix3 (0 : Fin 1) k l)
      = Cert.Spec.tileC (fun h w => x1 (ix3 (0 : Fin 1) h w)) k := by
  unfold out0_A_3
  rw [View.read_writes_eq_canon _ _ _ (cover0_A_3 c i arg3 harg3 arg4 harg4 arg5 harg5 arg6 harg6 hc0 x0 x1)]
  unfold kernelRun0_A
  dsimp only
  have h19 := chainA c arg4 harg4 arg6 x1
  exact (stepA _ 18 (by decide) inb_S1x19x128_S1x1x128_0_18_0 inb_S1x19x128_S1x1x128_0_18_0 inb_S1x32x128_S1x32x128_0_0_0 arg4 harg4 arg6 x1 h19.1 h19.2 _ rfl k l).trans (if_pos k.isLt)

theorem outB3 (c : Dev nD) (i : grid0.Coords) (arg3 : Memref sig .tc .vmem S1x256x32x128 .f32) (harg3 : arg3.IsWhole) (arg4 : Memref sig .tc .vmem S1x32x128 .i32) (harg4 : arg4.IsWhole) (arg5 : Memref sig .tc .vmem S1x19x256 .f32) (harg5 : arg5.IsWhole) (arg6 : Memref sig .tc .vmem S1x19x128 .f32) (harg6 : arg6.IsWhole) (hc0 : ¬cond0_0 i)
    (x0 : Vec Ideal S1x256x32x128 .f32) (x1 : Vec Ideal S1x32x128 .i32) (xo2 : Vec Ideal S1x19x256 .f32) (xo3 : Vec Ideal S1x19x128 .f32) (k : Fin 19) (l : Fin 128) :
    out0_B_3 (F := Ideal) c i arg3 harg3 arg4 harg4 arg5 harg5 arg6 harg6 hc0 x0 x1 xo2 xo3 (ix3 (0 : Fin 1) k l)
      = xo3 (ix3 (0 : Fin 1) k l) + Cert.Spec.tileC (fun h w => x1 (ix3 (0 : Fin 1) h w)) k := by
  have hcov := cover0_B_3 (F := Ideal) c i arg3 harg3 arg4 harg4 arg5 harg5 arg6 harg6 hc0 x0 x1 xo2 xo3 (ix3 (0 : Fin 1) k l)
  unfold out0_B_3
  rw [View.read_writes_eq_canon _ _ _ (cover0_B_3 c i arg3 harg3 arg4 harg4 arg5 harg5 arg6 harg6 hc0 x0 x1 xo2 xo3)]
  refine (View.canon_apply_of_pieces (cntBlock x1 xo3) _ ?_ _ hcov).trans rfl
  unfold kernelRun0_B
  dsimp only
  sl_unfold_run_names
  intro p hp x
  simp only [List.mem_cons, List.not_mem_nil, or_false] at hp
  rcases hp with rfl | rfl | rfl | rfl | rfl | rfl | rfl | rfl | rfl | rfl | rfl | rfl | rfl | rfl | rfl | rfl | rfl | rfl | rfl
  · exact piece_B 18 (by decide) inb_S1x19x128_S1x1x128_0_18_0 inb_S1x19x128_S1x1x128_0_18_0 inb_S1x32x128_S1x32x128_0_0_0 arg4 harg4 arg6 harg6 x1 xo3 x
  · exact piece_B 17 (by decide) inb_S1x19x128_S1x1x128_0_17_0 inb_S1x19x128_S1x1x128_0_17_0 inb_S1x32x128_S1x32x128_0_0_0 arg4 harg4 arg6 harg6 x1 xo3 x
  · exact piece_B 16 (by decide) inb_S1x19x128_S1x1x128_0_16_0 inb_S1x19x128_S1x1x128_0_16_0 inb_S1x32x128_S1x32x128_0_0_0 arg4 harg4 arg6 harg6 x1 xo3 x
  · exact piece_B 15 (by decide) inb_S1x19x128_S1x1x128_0_15_0 inb_S1x19x128_S1x1x128_0_15_0 inb_S1x32x128_S1x32x128_0_0_0 arg4 harg4 arg6 harg6 x1 xo3 x
  · exact piece_B 14 (by decide) inb_S1x19x128_S1x1x128_0_14_0 inb_S1x19x128_S1x1x128_0_14_0 inb_S1x32x128_S1x32x128_0_0_0 arg4 harg4 arg6 harg6 x1 xo3 x
  · exact piece_B 13 (by decide) inb_S1x19x128_S1x1x128_0_13_0 inb_S1x19x128_S1x1x128_0_13_0 inb_S1x32x128_S1x32x128_0_0_0 arg4 harg4 arg6 harg6 x1 xo3 x
  · exact piece_B 12 (by decide) inb_S1x19x128_S1x1x128_0_12_0 inb_S1x19x128_S1x1x128_0_12_0 inb_S1x32x128_S1x32x128_0_0_0 arg4 harg4 arg6 harg6 x1 xo3 x
  · exact piece_B 11 (by decide) inb_S1x19x128_S1x1x128_0_11_0 inb_S1x19x128_S1x1x128_0_11_0 inb_S1x32x128_S1x32x128_0_0_0 arg4 harg4 arg6 harg6 x1 xo3 x
  · exact piece_B 10 (by decide) inb_S1x19x128_S1x1x128_0_10_0 inb_S1x19x128_S1x1x128_0_10_0 inb_S1x32x128_S1x32x128_0_0_0 arg4 harg4 arg6 harg6 x1 xo3 x
  · exact piece_B 9 (by decide) inb_S1x19x128_S1x1x128_0_9_0 inb_S1x19x128_S1x1x128_0_9_0 inb_S1x32x128_S1x32x128_0_0_0 arg4 harg4 arg6 harg6 x1 xo3 x
  · exact piece_B 8 (by decide) inb_S1x19x128_S1x1x128_0_8_0 inb_S1x19x128_S1x1x128_0_8_0 inb_S1x32x128_S1x32x128_0_0_0 arg4 harg4 arg6 harg6 x1 xo3 x
  · exact piece_B 7 (by decide) inb_S1x19x128_S1x1x128_0_7_0 inb_S1x19x128_S1x1x128_0_7_0 inb_S1x32x128_S1x32x128_0_0_0 arg4 harg4 arg6 harg6 x1 xo3 x
  · exact piece_B 6 (by decide) inb_S1x19x128_S1x1x128_0_6_0 inb_S1x19x128_S1x1x128_0_6_0 inb_S1x32x128_S1x32x128_0_0_0 arg4 harg4 arg6 harg6 x1 xo3 x
  · exact piece_B 5 (by decide) inb_S1x19x128_S1x1x128_0_5_0 inb_S1x19x128_S1x1x128_0_5_0 inb_S1x32x128_S1x32x128_0_0_0 arg4 harg4 arg6 harg6 x1 xo3 x
  · exact piece_B 4 (by decide) inb_S1x19x128_S1x1x128_0_4_0 inb_S1x19x128_S1x1x128_0_4_0 inb_S1x32x128_S1x32x128_0_0_0 arg4 harg4 arg6 harg6 x1 xo3 x
  · exact piece_B 3 (by decide) inb_S1x19x128_S1x1x128_0_3_0 inb_S1x19x128_S1x1x128_0_3_0 inb_S1x32x128_S1x32x128_0_0_0 arg4 harg4 arg6 harg6 x1 xo3 x
  · exact piece_B 2 (by decide) inb_S1x19x128_S1x1x128_0_2_0 inb_S1x19x128_S1x1x128_0_2_0 inb_S1x32x128_S1x32x128_0_0_0 arg4 harg4 arg6 harg6 x1 xo3 x
  · exact piece_B 1 (by decide) inb_S1x19x128_S1x1x128_0_1_0 inb_S1x19x128_S1x1x128_0_1_0 inb_S1x32x128_S1x32x128_0_0_0 arg4 harg4 arg6 harg6 x1 xo3 x
  · exact piece_B 0 (by decide) inb_S1x19x128_S1x1x128_0_0_0 inb_S1x19x128_S1x1x128_0_0_0 inb_S1x32x128_S1x32x128_0_0_0 arg4 harg4 arg6 harg6 x1 xo3 x

end Cert.KernelIdeal.TileC
end
-- ==== Proof.Accum.lean ====
/-
  Region 0 as a whole: from what the body leaves at one grid point to the two arrays the region writes.

  The grid (2, 4, 4) is swept in point order; point `t` is tile `t % 16` of half `t / 16`, and reads the feature
  block `Spec.blkX X (t / 16) (t % 16)` and the label block `Spec.blkL L (t / 16) (t % 16)` (the printed index maps,
  decided over the 32 points). The first point of a half stores that tile's masked sums and counts, every later point
  adds its tile's to what the point before left; so after point `n` the two buffers hold the sum of the tiles
  `n - n % 16 … n` (induction on `n`), and at the last point of a half — the only points that write back — the
  sixteen tiles of the half: `Spec.halfS`, `Spec.halfC`. The two written blocks cover the two arrays.
-/
import proofs.«170524_j53137335386661_1_alg».proof.Proof.Gen.KernelIdeal.Frame
import proofs.«170524_j53137335386661_1_alg».proof.Proof.Spec
import proofs.«170524_j53137335386661_1_alg».proof.Proof.TileS
import proofs.«170524_j53137335386661_1_alg».proof.Proof.TileC
import Idealize.ShloMosaic.Lib.Pipeline.Value

noncomputable section

namespace Cert.KernelIdeal.Accum
open Idealize.ShloMosaic Idealize.ShloMosaic.TcCoe Idealize.SL.Sem Idealize.ShloMosaic.ValueIdx Cert.KernelIdeal Cert.KernelIdeal.Gen

section

variable (V : (c : Dev nD) → (b : Ref sig .tc) → Buf (Elt Ideal) ((c : Thread nD τ).loc b)) (c : Dev nD)

/-- The printed index maps, decided over the grid. -/
theorem idx_facts : ∀ t : Fin cfg0.N,
    win0_0.index t (0 : Fin 4) = t.val / 16 * 4 + t.val % 16 / 4 ∧ win0_0.index t (1 : Fin 4) = 0
    ∧ win0_0.index t (2 : Fin 4) = t.val % 16 % 4 ∧ win0_0.index t (3 : Fin 4) = 0
    ∧ win0_1.index t (0 : Fin 3) = t.val / 16 * 4 + t.val % 16 / 4 ∧ win0_1.index t (1 : Fin 3) = t.val % 16 % 4
    ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

theorem blk0 (t : Fin cfg0.N) (c' : Fin 256) (h : Fin 32) (w : Fin 128)
    (h0 : t.val / 16 * 4 + t.val % 16 / 4 < 8) (h2 : t.val % 16 % 4 * 32 + h.val < 128) :
    (iblk0 (F := Ideal) V c 0 t : Vec Ideal S1x256x32x128 .f32) (ix4 (0 : Fin 1) c' h w)
      = V c main_arg0 (ix4 ⟨t.val / 16 * 4 + t.val % 16 / 4, h0⟩ c' ⟨t.val % 16 % 4 * 32 + h.val, h2⟩ w) := by
  show V c main_arg0 (((cfg0.win 0).blk t).view.emb (ix4 (0 : Fin 1) c' h w)) = V c main_arg0 _
  obtain ⟨e0, e1, e2, e3, -⟩ := idx_facts t
  congr 1
  funext a; apply Fin.ext
  match a with
  | ⟨0, _⟩ => show win0_0.index t (0 : Fin 4) * 1 + 1 * (0 : Fin 1).val = t.val / 16 * 4 + t.val % 16 / 4; rw [e0]; simp
  | ⟨1, _⟩ => show win0_0.index t (1 : Fin 4) * 256 + 1 * c'.val = c'.val; rw [e1]; omega
  | ⟨2, _⟩ => show win0_0.index t (2 : Fin 4) * 32 + 1 * h.val = t.val % 16 % 4 * 32 + h.val; rw [e2]; omega
  | ⟨3, _⟩ => show win0_0.index t (3 : Fin 4) * 128 + 1 * w.val = w.val; rw [e3]; omega

theorem blk1 (t : Fin cfg0.N) (h : Fin 32) (w : Fin 128)
    (h0 : t.val / 16 * 4 + t.val % 16 / 4 < 8) (h2 : t.val % 16 % 4 * 32 + h.val < 128) :
    (iblk0 (F := Ideal) V c 1 t : Vec Ideal S1x32x128 .i32) (ix3 (0 : Fin 1) h w)
      = V c main_arg1 (ix3 ⟨t.val / 16 * 4 + t.val % 16 / 4, h0⟩ ⟨t.val % 16 % 4 * 32 + h.val, h2⟩ w) := by
  show V c main_arg1 (((cfg0.win 1).blk t).view.emb (ix3 (0 : Fin 1) h w)) = V c main_arg1 _
  obtain ⟨-, -, -, -, e0, e1, e2, -⟩ := idx_facts t
  congr 1
  funext a; apply Fin.ext
  match a with
  | ⟨0, _⟩ => show win0_1.index t (0 : Fin 3) * 1 + 1 * (0 : Fin 1).val = t.val / 16 * 4 + t.val % 16 / 4; rw [e0]; simp
  | ⟨1, _⟩ => show win0_1.index t (1 : Fin 3) * 32 + 1 * h.val = t.val % 16 % 4 * 32 + h.val; rw [e1]; omega
  | ⟨2, _⟩ => show win0_1.index t (2 : Fin 3) * 128 + 1 * w.val = w.val; rw [e2]; omega

/-- Tile number `p` of the sweep (half `p / 16`, tile `p % 16` of it): its masked channel sums. -/
def tS (X : Cert.Spec.Feat) (L : Cert.Spec.Lab) (p : ℕ) (k : Fin 19) (ch : Fin 256) : EReal :=
  if h : p < 32 then
    Cert.Spec.tileS (Cert.Spec.blkX X ⟨p / 16, by omega⟩ ⟨p % 16, by omega⟩) (Cert.Spec.blkL L ⟨p / 16, by omega⟩ ⟨p % 16, by omega⟩) k ch
  else 0
/-- Tile number `p` of the sweep: its pixel counts. -/
def tC (L : Cert.Spec.Lab) (p : ℕ) (k : Fin 19) : EReal :=
  if h : p < 32 then Cert.Spec.tileC (Cert.Spec.blkL L ⟨p / 16, by omega⟩ ⟨p % 16, by omega⟩) k else 0

theorem lt32 (t : Fin cfg0.N) : t.val < 32 := by have := t.isLt; have e : cfg0.N = 32 := N_0; omega

theorem tileS_at (t : Fin cfg0.N) (k : Fin 19) (ch : Fin 256) :
    Cert.Spec.tileS (fun c' h w => (iblk0 (F := Ideal) V c 0 t : Vec Ideal S1x256x32x128 .f32) (ix4 (0 : Fin 1) c' h w))
        (fun h w => (iblk0 (F := Ideal) V c 1 t : Vec Ideal S1x32x128 .i32) (ix3 (0 : Fin 1) h w)) k ch
      = tS (Cert.Spec.featOf (V c main_arg0)) (Cert.Spec.labOf (V c main_arg1)) t.val k ch := by
  have ht := lt32 t
  unfold tS
  rw [dif_pos ht]
  congr 1
  · funext c' h w
    exact blk0 V c t c' h w (by omega) (by have := h.isLt; omega)
  · funext h w
    exact blk1 V c t h w (by omega) (by have := h.isLt; omega)

theorem tileC_at (t : Fin cfg0.N) (k : Fin 19) :
    Cert.Spec.tileC (fun h w => (iblk0 (F := Ideal) V c 1 t : Vec Ideal S1x32x128 .i32) (ix3 (0 : Fin 1) h w)) k
      = tC (Cert.Spec.labOf (V c main_arg1)) t.val k := by
  have ht := lt32 t
  unfold tC
  rw [dif_pos ht]
  congr 1
  funext h w
  exact blk1 V c t h w (by omega) (by have := h.isLt; omega)

/-! ## The accumulation, point by point -/

theorem stepA2 (t : Fin cfg0.N) (h0 : t.val % 16 = 0) (k : Fin 19) (ch : Fin 256) :
    (outsAt0 (F := Ideal) V c t.val t.isLt).1 (ix3 (0 : Fin 1) k ch)
      = tS (Cert.Spec.featOf (V c main_arg0)) (Cert.Spec.labOf (V c main_arg1)) t.val k ch := by
  rw [outsAt0_A V c t h0]
  dsimp only
  have h := Cert.KernelIdeal.TileS.outA2 c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t) k ch
  rw [h]
  exact tileS_at V c t k ch

theorem stepB2 (t : Fin cfg0.N) (h0 : ¬t.val % 16 = 0) (k : Fin 19) (ch : Fin 256) :
    (outsAt0 (F := Ideal) V c t.val t.isLt).1 (ix3 (0 : Fin 1) k ch)
      = (outsAt0 (F := Ideal) V c (t.val - 1) (Nat.lt_of_le_of_lt (Nat.sub_le _ _) t.isLt)).1 (ix3 (0 : Fin 1) k ch)
        + tS (Cert.Spec.featOf (V c main_arg0)) (Cert.Spec.labOf (V c main_arg1)) t.val k ch := by
  rw [outsAt0_B V c t h0]
  dsimp only
  have h := Cert.KernelIdeal.TileS.outB2 c (grid0.coords t) (ms0_0 t) (hs0_0 t) (ms0_1 t) (hs0_1 t) (ms0_2 t) (hs0_2 t) (ms0_3 t) (hs0_3 t)
    (fun h => h0 ((hcond0_0 t).mp h)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2 k ch
  rw [h]
  exact congrArg (_ + ·) (tileS_at V c t k ch)

theorem stepA3 (t : Fin cfg0.N) (h0 : t.val % 16 = 0) (k : Fin 19) (l : Fin 128) :
    (outsAt0 (F := Ideal) V c t.val t.isLt).2 (ix3 (0 : Fin 1) k l)
      = tC (Cert.Spec.labOf (V c main_arg1)) t.val k := by
  rw [outsAt0_A V c t h0]
  dsimp only
  have h := Cert.KernelIdeal.TileC.outA3 c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t) k l
  rw [h]
  exact tileC_at V c t k

theorem stepB3 (t : Fin cfg0.N) (h0 : ¬t.val % 16 = 0) (k : Fin 19) (l : Fin 128) :
    (outsAt0 (F := Ideal) V c t.val t.isLt).2 (ix3 (0 : Fin 1) k l)
      = (outsAt0 (F := Ideal) V c (t.val - 1) (Nat.lt_of_le_of_lt (Nat.sub_le _ _) t.isLt)).2 (ix3 (0 : Fin 1) k l)
        + tC (Cert.Spec.labOf (V c main_arg1)) t.val k := by
  rw [outsAt0_B V c t h0]
  dsimp only
  have h := Cert.KernelIdeal.TileC.outB3 c (grid0.coords t) (ms0_0 t) (hs0_0 t) (ms0_1 t) (hs0_1 t) (ms0_2 t) (hs0_2 t) (ms0_3 t) (hs0_3 t)
    (fun h => h0 ((hcond0_0 t).mp h)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2 k l
  rw [h]
  exact congrArg (_ + ·) (tileC_at V c t k)

/-- After point `n` the sums' buffer holds the tiles of `n`'s half up to `n`, added in order. -/
theorem inv2 : ∀ (n : ℕ) (hn : n < cfg0.N) (k : Fin 19) (ch : Fin 256),
    (outsAt0 (F := Ideal) V c n hn).1 (ix3 (0 : Fin 1) k ch)
      = ∑ s ∈ Finset.range (n % 16 + 1), tS (Cert.Spec.featOf (V c main_arg0)) (Cert.Spec.labOf (V c main_arg1)) (n - n % 16 + s) k ch
  | 0, hn, k, ch => by
    refine (stepA2 V c ⟨0, hn⟩ rfl k ch).trans ?_
    simp
  | n + 1, hn, k, ch => by
    by_cases h0 : (n + 1) % 16 = 0
    · refine (stepA2 V c ⟨n + 1, hn⟩ h0 k ch).trans ?_
      show tS _ _ (n + 1) k ch = _
      rw [h0]; simp
    · refine (stepB2 V c ⟨n + 1, hn⟩ h0 k ch).trans ?_
      show (outsAt0 (F := Ideal) V c n _).1 (ix3 (0 : Fin 1) k ch) + tS _ _ (n + 1) k ch = _
      rw [inv2 n _ k ch]
      have e1 : (n + 1) % 16 = n % 16 + 1 := by omega
      have e2 : n + 1 - (n % 16 + 1) = n - n % 16 := by omega
      have e3 : n - n % 16 + (n % 16 + 1) = n + 1 := by omega
      rw [e1, e2, Finset.sum_range_succ _ (n % 16 + 1), e3]

/-- After point `n` the counts' buffer holds the counts of the tiles of `n`'s half up to `n`, added in order. -/
theorem inv3 : ∀ (n : ℕ) (hn : n < cfg0.N) (k : Fin 19) (l : Fin 128),
    (outsAt0 (F := Ideal) V c n hn).2 (ix3 (0 : Fin 1) k l)
      = ∑ s ∈ Finset.range (n % 16 + 1), tC (Cert.Spec.labOf (V c main_arg1)) (n - n % 16 + s) k
  | 0, hn, k, l => by
    refine (stepA3 V c ⟨0, hn⟩ rfl k l).trans ?_
    simp
  | n + 1, hn, k, l => by
    by_cases h0 : (n + 1) % 16 = 0
    · refine (stepA3 V c ⟨n + 1, hn⟩ h0 k l).trans ?_
      show tC _ (n + 1) k = _
      rw [h0]; simp
    · refine (stepB3 V c ⟨n + 1, hn⟩ h0 k l).trans ?_
      show (outsAt0 (F := Ideal) V c n _).2 (ix3 (0 : Fin 1) k l) + tC _ (n + 1) k = _
      rw [inv3 n _ k l]
      have e1 : (n + 1) % 16 = n % 16 + 1 := by omega
      have e2 : n + 1 - (n % 16 + 1) = n - n % 16 := by omega
      have e3 : n - n % 16 + (n % 16 + 1) = n + 1 := by omega
      rw [e1, e2, Finset.sum_range_succ _ (n % 16 + 1), e3]

/-! ## A half's sixteen tiles -/

theorem tS_half (X : Cert.Spec.Feat) (L : Cert.Spec.Lab) (co : Fin 2) (j : Fin 16) (k : Fin 19) (ch : Fin 256) :
    tS X L (16 * co.val + j.val) k ch = Cert.Spec.tileS (Cert.Spec.blkX X co j) (Cert.Spec.blkL L co j) k ch := by
  have hp : 16 * co.val + j.val < 32 := by omega
  have e1 : (16 * co.val + j.val) / 16 = co.val := by omega
  have e2 : (16 * co.val + j.val) % 16 = j.val := by omega
  unfold tS
  rw [dif_pos hp]
  simp only [e1, e2, Fin.eta]

theorem tC_half (L : Cert.Spec.Lab) (co : Fin 2) (j : Fin 16) (k : Fin 19) :
    tC L (16 * co.val + j.val) k = Cert.Spec.tileC (Cert.Spec.blkL L co j) k := by
  have hp : 16 * co.val + j.val < 32 := by omega
  have e1 : (16 * co.val + j.val) / 16 = co.val := by omega
  have e2 : (16 * co.val + j.val) % 16 = j.val := by omega
  unfold tC
  rw [dif_pos hp]
  simp only [e1, e2, Fin.eta]

/-- At the last point of a half the running sum is the half's sum. -/
theorem sumS_last (X : Cert.Spec.Feat) (L : Cert.Spec.Lab) (n : ℕ) (hn : n < 32) (h15 : n % 16 = 15) (co : Fin 2) (hco : co.val = n / 16)
    (k k' : Fin 19) (hk : k'.val = k.val) (ch ch' : Fin 256) (hch : ch'.val = ch.val) :
    ∑ s ∈ Finset.range (n % 16 + 1), tS X L (n - n % 16 + s) k ch = Cert.Spec.halfS X L co k' ch' := by
  obtain rfl : k' = k := Fin.ext hk
  obtain rfl : ch' = ch := Fin.ext hch
  have e : n - 15 = 16 * co.val := by omega
  rw [h15, e]
  unfold Cert.Spec.halfS
  rw [Finset.sum_range]
  exact Finset.sum_congr rfl fun j _ => tS_half X L co j k' ch'

theorem sumC_last (L : Cert.Spec.Lab) (n : ℕ) (hn : n < 32) (h15 : n % 16 = 15) (co : Fin 2) (hco : co.val = n / 16)
    (k k' : Fin 19) (hk : k'.val = k.val) :
    ∑ s ∈ Finset.range (n % 16 + 1), tC L (n - n % 16 + s) k = Cert.Spec.halfC L co k' := by
  obtain rfl : k' = k := Fin.ext hk
  have e : n - 15 = 16 * co.val := by omega
  rw [h15, e]
  unfold Cert.Spec.halfC
  rw [Finset.sum_range]
  exact Finset.sum_congr rfl fun j _ => tC_half L co j k'

/-! ## The two output arrays -/

/-- What the sums' array ends holding. -/
abbrev G2 : S2x19x256.Idx → EReal := fun i =>
  Cert.Spec.halfS (Cert.Spec.featOf (V c main_arg0)) (Cert.Spec.labOf (V c main_arg1)) ⟨(i 0).val, (i 0).isLt⟩ ⟨(i 1).val, (i 1).isLt⟩ ⟨(i 2).val, (i 2).isLt⟩
/-- What the counts' array ends holding. -/
abbrev G3 : S2x19x128.Idx → EReal := fun i =>
  Cert.Spec.halfC (Cert.Spec.labOf (V c main_arg1)) ⟨(i 0).val, (i 0).isLt⟩ ⟨(i 1).val, (i 1).isLt⟩

theorem flushed2_eq (t : Fin cfg0.N) (hf : (cfg0.win 2).flush t = true) :
    (dat0 (F := Ideal) V c).flushed 2 t = ((cfg0.win 2).blk t).view.read (Elt Ideal) (G2 V c) := by
  have h15 : t.val % 16 = 15 := (flush0_2 t).mp hf
  have ht := lt32 t
  obtain ⟨-, -, -, -, -, -, -, e0, e1, e2, -⟩ := idx_facts t
  show (cfg0.win 2).cut (grid0.coords t) ((dat0 (F := Ideal) V c).after 2 t) = _
  rw [after0_2]
  refine funext fun (y : S1x19x256.Idx) => ?_
  show (outsAt0 (F := Ideal) V c t.val t.isLt).1 y = G2 V c (((cfg0.win 2).blk t).view.emb y)
  have hy0 : (y 0).val = 0 := by have := (y 0).isLt; simpa using this
  have i0 : ((((cfg0.win 2).blk t).view.emb y) 0).val = t.val / 16 := by
    show win0_2.index t (0 : Fin 3) * 1 + 1 * (y 0).val = _; rw [e0, hy0]; omega
  have i1 : ((((cfg0.win 2).blk t).view.emb y) 1).val = (y 1).val := by
    show win0_2.index t (1 : Fin 3) * 19 + 1 * (y 1).val = _; rw [e1]; omega
  have i2 : ((((cfg0.win 2).blk t).view.emb y) 2).val = (y 2).val := by
    show win0_2.index t (2 : Fin 3) * 256 + 1 * (y 2).val = _; rw [e2]; omega
  have ey : y = ix3 (0 : Fin 1) (⟨(y 1).val, (y 1).isLt⟩ : Fin 19) (⟨(y 2).val, (y 2).isLt⟩ : Fin 256) := by
    funext a
    match a with
    | ⟨0, _⟩ => exact Fin.ext hy0
    | ⟨1, _⟩ => rfl
    | ⟨2, _⟩ => rfl
  refine (congrArg (outsAt0 (F := Ideal) V c t.val t.isLt).1 ey).trans ?_
  rw [inv2 V c t.val t.isLt ⟨(y 1).val, (y 1).isLt⟩ ⟨(y 2).val, (y 2).isLt⟩]
  exact sumS_last _ _ t.val ht h15 _ i0 _ _ i1 _ _ i2

theorem flushed3_eq (t : Fin cfg0.N) (hf : (cfg0.win 3).flush t = true) :
    (dat0 (F := Ideal) V c).flushed 3 t = ((cfg0.win 3).blk t).view.read (Elt Ideal) (G3 V c) := by
  have h15 : t.val % 16 = 15 := (flush0_3 t).mp hf
  have ht := lt32 t
  obtain ⟨-, -, -, -, -, -, -, -, -, -, e0, e1, e2⟩ := idx_facts t
  show (cfg0.win 3).cut (grid0.coords t) ((dat0 (F := Ideal) V c).after 3 t) = _
  rw [after0_3]
  refine funext fun (y : S1x19x128.Idx) => ?_
  show (outsAt0 (F := Ideal) V c t.val t.isLt).2 y = G3 V c (((cfg0.win 3).blk t).view.emb y)
  have hy0 : (y 0).val = 0 := by have := (y 0).isLt; simpa using this
  have i0 : ((((cfg0.win 3).blk t).view.emb y) 0).val = t.val / 16 := by
    show win0_3.index t (0 : Fin 3) * 1 + 1 * (y 0).val = _; rw [e0, hy0]; omega
  have i1 : ((((cfg0.win 3).blk t).view.emb y) 1).val = (y 1).val := by
    show win0_3.index t (1 : Fin 3) * 19 + 1 * (y 1).val = _; rw [e1]; omega
  have ey : y = ix3 (0 : Fin 1) (⟨(y 1).val, (y 1).isLt⟩ : Fin 19) (⟨(y 2).val, (y 2).isLt⟩ : Fin 128) := by
    funext a
    match a with
    | ⟨0, _⟩ => exact Fin.ext hy0
    | ⟨1, _⟩ => rfl
    | ⟨2, _⟩ => rfl
  refine (congrArg (outsAt0 (F := Ideal) V c t.val t.isLt).2 ey).trans ?_
  rw [inv3 V c t.val t.isLt ⟨(y 1).val, (y 1).isLt⟩ ⟨(y 2).val, (y 2).isLt⟩]
  exact sumC_last _ t.val ht h15 _ i0 _ _ i1

/-- An index of the sums' array is in point `t`'s block iff each coordinate is in the block's range on its axis. -/
theorem mem_blk2 (t : Fin cfg0.N) (i : S2x19x256.Idx) :
    i ∈ ((cfg0.win 2).blk t).view.set ↔ ∀ a : Fin 3, win0_2.index t a * S1x19x256.size a ≤ (i a).val ∧ (i a).val < win0_2.index t a * S1x19x256.size a + S1x19x256.size a := by
  show i ∈ ((View.whole main_v0_0).slice (win0_2.rect t)).set ↔ _
  rw [View.set_slice_whole, Rect.mem_set_unit]
  exact Iff.rfl

theorem mem_blk3 (t : Fin cfg0.N) (i : S2x19x128.Idx) :
    i ∈ ((cfg0.win 3).blk t).view.set ↔ ∀ a : Fin 3, win0_3.index t a * S1x19x128.size a ≤ (i a).val ∧ (i a).val < win0_3.index t a * S1x19x128.size a + S1x19x128.size a := by
  show i ∈ ((View.whole main_v0_1).slice (win0_3.rect t)).set ↔ _
  rw [View.set_slice_whole, Rect.mem_set_unit]
  exact Iff.rfl

/-- Every index of the sums' array is under the block the last point of its half writes back. -/
theorem cover2 (i : S2x19x256.Idx) : ∃ t : Fin cfg0.N, (cfg0.win 2).flush t = true ∧ i ∈ ((cfg0.win 2).blk t).view.set := by
  have hi0 : (i 0).val < 2 := (i 0).isLt
  have hi1 : (i 1).val < 19 := (i 1).isLt
  have hi2 : (i 2).val < 256 := (i 2).isLt
  have hN : cfg0.N = 32 := N_0
  let t : Fin cfg0.N := ⟨16 * (i 0).val + 15, by omega⟩
  have htv : t.val = 16 * (i 0).val + 15 := rfl
  obtain ⟨-, -, -, -, -, -, -, e0, e1, e2, -⟩ := idx_facts t
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 19 ≤ (i 1).val ∧ (i 1).val < win0_2.index t (1 : Fin 3) * 19 + 19; rw [e1]; omega
  | ⟨2, _⟩ => show win0_2.index t (2 : Fin 3) * 256 ≤ (i 2).val ∧ (i 2).val < win0_2.index t (2 : Fin 3) * 256 + 256; rw [e2]; omega

theorem cover3 (i : S2x19x128.Idx) : ∃ t : Fin cfg0.N, (cfg0.win 3).flush t = true ∧ i ∈ ((cfg0.win 3).blk t).view.set := by
  have hi0 : (i 0).val < 2 := (i 0).isLt
  have hi1 : (i 1).val < 19 := (i 1).isLt
  have hi2 : (i 2).val < 128 := (i 2).isLt
  have hN : cfg0.N = 32 := N_0
  let t : Fin cfg0.N := ⟨16 * (i 0).val + 15, by omega⟩
  have htv : t.val = 16 * (i 0).val + 15 := rfl
  obtain ⟨-, -, -, -, -, -, -, -, -, -, e0, e1, e2⟩ := idx_facts t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 19 ≤ (i 1).val ∧ (i 1).val < win0_3.index t (1 : Fin 3) * 19 + 19; rw [e1]; omega
  | ⟨2, _⟩ => show win0_3.index t (2 : Fin 3) * 128 ≤ (i 2).val ∧ (i 2).val < win0_3.index t (2 : Fin 3) * 128 + 128; rw [e2]; omega

theorem arr2' : (dat0 (F := Ideal) V c).arrAt 2 cfg0.N = G2 V c :=
  (dat0 (F := Ideal) V c).arrAt_eq_of_cover 2 (G2 V c) (flushed2_eq V c) cover2

theorem arr3' : (dat0 (F := Ideal) V c).arrAt 3 cfg0.N = G3 V c :=
  (dat0 (F := Ideal) V c).arrAt_eq_of_cover 3 (G3 V c) (flushed3_eq V c) cover3

end

theorem arr2 (V : (c : Dev nD) → (b : Ref sig .tc) → Buf (Elt Ideal) ((c : Thread nD τ).loc b)) (c : Dev nD) :
    (dat0 (F := Ideal) V c).arrAt 2 cfg0.N = (fun i : S2x19x256.Idx =>
      Cert.Spec.halfS (Cert.Spec.featOf (V c main_arg0)) (Cert.Spec.labOf (V c main_arg1)) ⟨(i 0).val, (i 0).isLt⟩ ⟨(i 1).val, (i 1).isLt⟩ ⟨(i 2).val, (i 2).isLt⟩) :=
  arr2' V c

theorem arr3 (V : (c : Dev nD) → (b : Ref sig .tc) → Buf (Elt Ideal) ((c : Thread nD τ).loc b)) (c : Dev nD) :
    (dat0 (F := Ideal) V c).arrAt 3 cfg0.N = (fun i : S2x19x128.Idx =>
      Cert.Spec.halfC (Cert.Spec.labOf (V c main_arg1)) ⟨(i 0).val, (i 0).isLt⟩ ⟨(i 1).val, (i 1).isLt⟩) :=
  arr3' V c

end Cert.KernelIdeal.Accum
end
-- ==== Proof.LibKeepdims.lean ====
/-
  Layout operations of a keep-dimensions reduction read at an index, over literal matrix shapes: a vector
  cast to a column, a column broadcast along a second axis, and the sum along either axis of a matrix as a
  sum over a finite index type.
-/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tail
open Idealize.ShloMosaic Idealize.ShloMosaic.ValueIdx

section Layout
variable {α : Type}

/-- An [a] array cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Sums
variable {φ : FTy}

/-- The sum along the second axis of a matrix, read at row k: the sum of the row's entries. -/
theorem sumAxis1_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (k : Fin a) :
    multiReduction .add [1] ⟨1, ![a]⟩ src acc h hφ hacc (ix1 k) = ∑ c : Fin b, src (ix2 k c) :=
  (Ideal.multiReduction_add_single src acc h hφ hacc (ix1 k)).trans
    (Finset.sum_congr rfl fun c _ => congrArg src (funext fun ax => Fin.ext (by
      match ax with
      | ⟨0, _⟩ => rfl
      | ⟨1, _⟩ => rfl)))

/-- The sum along the first axis of a matrix, read at column c: the sum of the column's entries. -/
theorem sumAxis0_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (funext fun ax => Fin.ext (by
      match ax with
      | ⟨0, _⟩ => rfl
      | ⟨1, _⟩ => rfl)))

end Sums

end Cert.KernelIdeal.Tail
end
-- ==== Proof.TailStages.lean ====
/-
  The loss kernel's arithmetic as a chain of named stages.
-/
import proofs.«170524_j53137335386661_1_alg».proof.Proof.Gen.KernelIdeal.Skeleton
import Idealize.ShloMosaic.Lib.ValueIdx

noncomputable section

namespace Cert.KernelIdeal.Tail
open Idealize.ShloMosaic Idealize.ShloMosaic.TcCoe Idealize.SL.Sem Idealize.ShloMosaic.ValueIdx Cert.KernelIdeal Cert.KernelIdeal.Gen

/-! The payload of the loss kernel, cut into the stages its mathematics has: the clamped counts, the class
    means, the clamped lengths of the mean vectors, the normalised means, their Gram matrix, the hinge of the
    cosine distances, the row means and the mean of those. Each stage is the payload's own term over the
    stages before it, so the payload IS the last stage by unfolding. -/

variable (x0 : Vec Ideal S19x256 .f32) (x1 : Vec Ideal S19x1 .f32)

/-- The counts, clamped below by one: a [19, 1] column. -/
def cnt : FVec Ideal S19x1 .f32 :=
  maximumf (shapeCast S19x1 x1 shapeCasts_S19x1_S19x1) (broadcast S19x1 (Scalar.ofBits .f32 0x3F800000#32))

/-- The class means: sums over the clamped counts, the column broadcast along the channels. -/
def mean : FVec Ideal S19x256 .f32 :=
  divf (shapeCast S19x256 x0 shapeCasts_S19x256_S19x256) (broadcastTo S19x256 (cnt x1) broadcasts_S19x1_S19x256)

/-- The length of each mean vector, clamped below: a [19, 1] column. -/
def nrm : FVec Ideal S19x1 .f32 :=
  maximumf
    (sqrt (shapeCast S19x1
      (multiReduction .add [1] S19 (mulf (mean x0 x1) (mean x0 x1)) 0x00000000#32 reduces_S19x256_S19 (.inl rfl) rfl)
      shapeCasts_S19_S19x1))
    (broadcast S19x1 (Scalar.ofBits .f32 0x2B8CBCCC#32))

/-- The normalised means. -/
def mn : FVec Ideal S19x256 .f32 :=
  divf (mean x0 x1) (broadcastTo S19x256 (nrm x0 x1) broadcasts_S19x1_S19x256)

/-- The normalised means in the matrix unit's input format. -/
def mnb : FVec Ideal S19x256 .bf16 := truncf .bf16 (mn x0 x1) bitsLt_bf16_f32

/-- The Gram matrix of the normalised means. -/
def gram : FVec Ideal S19x19 .f32 :=
  matmul dot_S19x256_S256x19_S19x19_1_0_0_1_n_n none (mnb x0 x1)
    (transpose S256x19 [1, 0] (mnb x0 x1) transposes_S19x256_p1_0_S256x19) (constant S19x19 .f32 0x00000000#32)

/-- The hinge of the cosine distances, the diagonal's distance forced to two. -/
def hinge : FVec Ideal S19x19 .f32 :=
  maximumf
    (subf (broadcast S19x19 (Scalar.ofBits .f32 0x3F000000#32))
      (select (cmpi .eq (iota .tc S19x19 32 [0] iota_S19x19_d0_w32) (iota .tc S19x19 32 [1] iota_S19x19_d1_w32))
        (broadcast S19x19 (Scalar.ofBits .f32 0x40000000#32))
        (subf (broadcast S19x19 (Scalar.ofBits .f32 0x3F800000#32)) (gram x0 x1))))
    (broadcast S19x19 (Scalar.ofBits .f32 0x00000000#32))

/-- The row means of the hinge matrix: a [19, 1] column. -/
def rowMean : FVec Ideal S19x1 .f32 :=
  divf
    (shapeCast S19x1 (multiReduction .add [1] S19 (hinge x0 x1) 0x00000000#32 reduces_S19x19_S19 (.inl rfl) rfl) shapeCasts_S19_S19x1)
    (broadcast S19x1 (Scalar.ofBits .f32 0x41980000#32))

/-- The mean of the row means: the one entry of a [1, 1] array. -/
def total : FVec Ideal S1x1 .f32 :=
  divf
    (shapeCast S1x1 (multiReduction .add [0] S1 (rowMean x0 x1) 0x00000000#32 reduces_S19x1_S1 (.inl rfl) rfl) shapeCasts_S1_S1x1)
    (broadcast S1x1 (Scalar.ofBits .f32 0x41980000#32))

/-- The payload is the last stage. -/
theorem k1_pay1_eq : k1_pay1 (F := Ideal) x0 x1 = total x0 x1 := rfl

end Cert.KernelIdeal.Tail
end
-- ==== Proof.TailValue.lean ====
/-
  Every stage of the loss kernel's arithmetic read at an index: the stage is the specification's function of
  the per-class sums and counts.
-/
import proofs.«170524_j53137335386661_1_alg».proof.Proof.LibKeepdims
import proofs.«170524_j53137335386661_1_alg».proof.Proof.TailStages
import proofs.«170524_j53137335386661_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tail
open Idealize.ShloMosaic Idealize.ShloMosaic.TcCoe Idealize.SL.Sem Idealize.ShloMosaic.ValueIdx Cert.KernelIdeal Cert.KernelIdeal.Gen

variable (x0 : Vec Ideal S19x256 .f32) (x1 : Vec Ideal S19x1 .f32)

/-! Each stage read at an index, against the specification's functions of the sums and the counts. -/

/-- The sums by (class, channel) and the counts by class: the specification's arguments. -/
abbrev sums : Fin 19 → Fin 256 → EReal := fun k ch => x0 (ix2 k ch)
abbrev cnts : Fin 19 → EReal := fun k => x1 (ix2 k (0 : Fin 1))

theorem cnt_apply (k : Fin 19) : cnt x1 (ix2 k (0 : Fin 1)) = max (cnts x1 k) Spec.c1 := by
  unfold cnt
  rw [shapeCast_self]
  rfl

theorem mean_apply (k : Fin 19) (c : Fin 256) : mean x0 x1 (ix2 k c) = Spec.mean (sums x0) (cnts x1) k c := by
  unfold mean Spec.mean
  show Ideal.div (shapeCast S19x256 x0 shapeCasts_S19x256_S19x256 (ix2 k c))
    (broadcastTo S19x256 (cnt x1) broadcasts_S19x1_S19x256 (ix2 k c)) = _
  rw [shapeCast_self, broadcastTo_a1_ab_apply, cnt_apply]

theorem nrm_apply (k : Fin 19) (u : Fin 1) : nrm x0 x1 (ix2 k u) = Spec.nrm (sums x0) (cnts x1) k := by
  unfold nrm Spec.nrm
  show max (Ideal.sqrt (shapeCast S19x1
      (multiReduction .add [1] S19 (mulf (mean x0 x1) (mean x0 x1)) 0x00000000#32 reduces_S19x256_S19 (.inl rfl) rfl)
      shapeCasts_S19_S19x1 (ix2 k u))) (Ideal.ofBits .f32 0x2B8CBCCC#32) = _
  rw [shapeCast_a_a1_apply]
  refine congrArg (fun t => max (Ideal.sqrt t) _) ?_
  refine (sumAxis1_apply _ _ _ _ _ k).trans (Finset.sum_congr rfl fun c _ => ?_)
  show mean x0 x1 (ix2 k c) * mean x0 x1 (ix2 k c) = _
  rw [mean_apply]

theorem mn_apply (k : Fin 19) (c : Fin 256) : mn x0 x1 (ix2 k c) = Spec.mn (sums x0) (cnts x1) k c := by
  unfold mn Spec.mn
  show Ideal.div (mean x0 x1 (ix2 k c)) (broadcastTo S19x256 (nrm x0 x1) broadcasts_S19x1_S19x256 (ix2 k c)) = _
  rw [broadcastTo_a1_ab_apply, nrm_apply, mean_apply]

/-! The matrix product: the operand indices of the contraction, coordinate by coordinate. -/

theorem gram_lhs_0 (i : S19x19.Idx) (q : dot_S19x256_S256x19_S19x19_1_0_0_1_n_n.contr.Idx) :
    (dot_S19x256_S256x19_S19x19_1_0_0_1_n_n.lhsIdx i q 0).val = (i 0).val := by
  unfold DotDims.lhsIdx
  rw [dif_neg (show ¬(0 : Fin S19x256.rank) ∈ dot_S19x256_S256x19_S19x19_1_0_0_1_n_n.lhsBatch by decide), dif_pos (show (0 : Fin S19x256.rank) ∈ dot_S19x256_S256x19_S19x19_1_0_0_1_n_n.lhsNonContracting by decide)]
  rfl
theorem gram_lhs_1 (i : S19x19.Idx) (q : dot_S19x256_S256x19_S19x19_1_0_0_1_n_n.contr.Idx) :
    (dot_S19x256_S256x19_S19x19_1_0_0_1_n_n.lhsIdx i q 1).val = (q ⟨0, by decide⟩).val :=
  dot_S19x256_S256x19_S19x19_1_0_0_1_n_n.lhsIdx_val_of_single rfl i q
theorem gram_rhs_0 (i : S19x19.Idx) (q : dot_S19x256_S256x19_S19x19_1_0_0_1_n_n.contr.Idx) :
    (dot_S19x256_S256x19_S19x19_1_0_0_1_n_n.rhsIdx i q 0).val = (q ⟨0, by decide⟩).val :=
  dot_S19x256_S256x19_S19x19_1_0_0_1_n_n.rhsIdx_val_of_single rfl i q
theorem gram_rhs_1 (i : S19x19.Idx) (q : dot_S19x256_S256x19_S19x19_1_0_0_1_n_n.contr.Idx) :
    (dot_S19x256_S256x19_S19x19_1_0_0_1_n_n.rhsIdx i q 1).val = (i 1).val := by
  unfold DotDims.rhsIdx
  rw [dif_neg (show ¬(1 : Fin S256x19.rank) ∈ dot_S19x256_S256x19_S19x19_1_0_0_1_n_n.rhsBatch by decide), dif_pos (show (1 : Fin S256x19.rank) ∈ dot_S19x256_S256x19_S19x19_1_0_0_1_n_n.rhsNonContracting by decide)]
  rfl

/-- The Gram matrix at (i, j): the inner product of the normalised means of classes i and j. -/
theorem gram_apply (i j : Fin 19) :
    gram x0 x1 (ix2 i j) = ∑ c : Fin 256, Spec.mn (sums x0) (cnts x1) i c * Spec.mn (sums x0) (cnts x1) j c := by
  unfold gram
  refine (Ideal.matmul_constant_zero_apply dot_S19x256_S256x19_S19x19_1_0_0_1_n_n none (mnb x0 x1)
    (transpose S256x19 [1, 0] (mnb x0 x1) transposes_S19x256_p1_0_S256x19) (ix2 i j)).trans ?_
  rw [← Equiv.sum_comp (ValueIdx.contrEquiv1 dot_S19x256_S256x19_S19x19_1_0_0_1_n_n 256 rfl rfl).symm]
  refine Finset.sum_congr rfl fun k _ => ?_
  have hk := ValueIdx.contrEquiv1_symm_val dot_S19x256_S256x19_S19x19_1_0_0_1_n_n 256 rfl rfl k
  have el : dot_S19x256_S256x19_S19x19_1_0_0_1_n_n.lhsIdx (ix2 i j) ((ValueIdx.contrEquiv1 dot_S19x256_S256x19_S19x19_1_0_0_1_n_n 256 rfl rfl).symm k) = ix2 i k := funext fun a => Fin.ext (by
    match a with
    | ⟨0, _⟩ => exact gram_lhs_0 _ _
    | ⟨1, _⟩ => exact (gram_lhs_1 _ _).trans hk)
  have er : dot_S19x256_S256x19_S19x19_1_0_0_1_n_n.rhsIdx (ix2 i j) ((ValueIdx.contrEquiv1 dot_S19x256_S256x19_S19x19_1_0_0_1_n_n 256 rfl rfl).symm k) = ix2 k j := funext fun a => Fin.ext (by
    match a with
    | ⟨0, _⟩ => exact (gram_rhs_0 _ _).trans hk
    | ⟨1, _⟩ => exact gram_rhs_1 _ _)
  rw [el, er, transpose_ix2_apply]
  show mn x0 x1 (ix2 i k) * mn x0 x1 (ix2 j k) = _
  rw [mn_apply, mn_apply]

/-- The comparison of the row number with the column number: one on the diagonal, zero off it. -/
theorem diag_apply (i j : Fin 19) :
    cmpi .eq (iota .tc S19x19 32 [0] iota_S19x19_d0_w32) (iota .tc S19x19 32 [1] iota_S19x19_d1_w32) (ix2 i j)
      = if i = j then 1#1 else 0#1 := by
  show IntOp.cmpi .eq (iota .tc S19x19 32 [0] iota_S19x19_d0_w32 (ix2 i j)) (iota .tc S19x19 32 [1] iota_S19x19_d1_w32 (ix2 i j)) = _
  rw [iota_single_apply, iota_single_apply]
  show BitVec.ofBool (BitVec.ofNat 32 i.val == BitVec.ofNat 32 j.val) = _
  by_cases h : i = j
  · subst h; simp
  · rw [if_neg h]
    have hne : BitVec.ofNat 32 i.val ≠ BitVec.ofNat 32 j.val := by
      intro e
      have e' := congrArg BitVec.toNat e
      simp only [BitVec.toNat_ofNat] at e'
      have := i.isLt; have := j.isLt
      exact h (Fin.ext (by omega))
    rw [beq_eq_false_iff_ne.mpr hne]
    rfl

theorem hinge_apply (i j : Fin 19) : hinge x0 x1 (ix2 i j) = Spec.lossMat (sums x0) (cnts x1) i j := by
  unfold hinge Spec.lossMat
  show max (Ideal.ofBits .f32 0x3F000000#32
      - Scalar.select (cmpi .eq (iota .tc S19x19 32 [0] iota_S19x19_d0_w32) (iota .tc S19x19 32 [1] iota_S19x19_d1_w32) (ix2 i j))
          (Ideal.ofBits .f32 0x40000000#32) (Ideal.ofBits .f32 0x3F800000#32 - gram x0 x1 (ix2 i j)))
      (Ideal.ofBits .f32 0x00000000#32) = _
  rw [diag_apply, gram_apply, Ideal.ofBits_zero_f32]
  by_cases h : i = j
  · rw [if_pos h, if_pos h, select_one]; rfl
  · rw [if_neg h, if_neg h, select_zero]; rfl

theorem rowMean_apply (i : Fin 19) (u : Fin 1) :
    rowMean x0 x1 (ix2 i u) = Ideal.div (∑ j : Fin 19, Spec.lossMat (sums x0) (cnts x1) i j) Spec.c19 := by
  unfold rowMean
  show Ideal.div (shapeCast S19x1 (multiReduction .add [1] S19 (hinge x0 x1) 0x00000000#32 reduces_S19x19_S19 (.inl rfl) rfl)
      shapeCasts_S19_S19x1 (ix2 i u)) (Ideal.ofBits .f32 0x41980000#32) = _
  rw [shapeCast_a_a1_apply]
  refine congrArg (fun t => Ideal.div t _) ?_
  exact (sumAxis1_apply _ _ _ _ _ i).trans (Finset.sum_congr rfl fun j _ => hinge_apply x0 x1 i j)

theorem total_apply (y : S1x1.Idx) : total x0 x1 y = Spec.lossK0 (sums x0) (cnts x1) := by
  obtain ⟨p, q, rfl⟩ : ∃ (p : Fin 1) (q : Fin 1), y = ix2 p q := ⟨y 0, y 1, eq_ix2 y⟩
  unfold total Spec.lossK0
  show Ideal.div (shapeCast S1x1 (multiReduction .add [0] S1 (rowMean x0 x1) 0x00000000#32 reduces_S19x1_S1 (.inl rfl) rfl)
      shapeCasts_S1_S1x1 (ix2 p q)) (Ideal.ofBits .f32 0x41980000#32) = _
  rw [shapeCast_a_a1_apply]
  refine congrArg (fun t => Ideal.div t _) ?_
  exact (sumAxis0_apply _ _ _ _ _ p).trans (Finset.sum_congr rfl fun i _ => rowMean_apply x0 x1 i p)

end Cert.KernelIdeal.Tail
end
-- ==== Proof.Tail.lean ====
import proofs.«170524_j53137335386661_1_alg».proof.Proof.Gen.KernelIdeal.Frame
import proofs.«170524_j53137335386661_1_alg».proof.Proof.Spec
import proofs.«170524_j53137335386661_1_alg».proof.Proof.TailValue
import Idealize.ShloMosaic.Lib.ValueIdx
import Idealize.ShloMosaic.Lib.Pipeline.Value

noncomputable section

namespace Cert.KernelIdeal.Tail
open Idealize.ShloMosaic Idealize.ShloMosaic.TcCoe Idealize.SL.Sem Idealize.ShloMosaic.ValueIdx Cert.KernelIdeal Cert.KernelIdeal.Gen

/-- The offsets of a whole-array access are all zero. -/
theorem offsets_zero : (![0, 0] : Fin 2 → Nat) = fun _ => 0 := funext fun a => by fin_cases a <;> rfl

/-- What the loss kernel leaves in its output block: the mean of the row means of the hinge matrix, a function
    of the per-class sums and counts it loads. The one store covers the block, the two loads read their whole
    blocks, and the stored value is the last stage of the arithmetic. -/
theorem out1_2_eq (x0 : Vec Ideal S19x256 .f32) (x1 : Vec Ideal S19x1 .f32) (y : S1x1.Idx) :
    out1_2 (F := Ideal) x0 x1 y = Cert.Spec.lossK0 (fun k ch => x0 (ix2 k ch)) (fun k => x1 (ix2 k (0 : Fin 1))) := by
  unfold out1_2
  rw [View.canon_unit_zero offsets_zero]
  simp only [View.ld_unit_zero (S := S19x256) offsets_zero, View.ld_unit_zero (S := S19x1) offsets_zero]
  rw [k1_pay1_eq]
  exact total_apply x0 x1 y

end Cert.KernelIdeal.Tail
end
-- ==== Proof.KRunFrame.lean ====
import proofs.«170524_j53137335386661_1_alg».proof.Proof.Gen.KernelIdeal.Frame

/-!
  The run of the kernel program with its result named: every weakly fair execution of the program
  from a memory with zero counters terminates, and in every final state the result buffer holds the
  last boundary's contents while the three argument arrays are as launched.
-/

set_option maxRecDepth 16384

noncomputable section

namespace Cert.KernelIdeal.KRun.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The final state read against the last thread state: the result buffer is among the unscoped
    buffers the thread holds at the last boundary's contents, as are the arguments. -/
theorem run_named : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.KRun.Frame

end
-- ==== Proof.KRunHost1.lean ====
import proofs.«170524_j53137335386661_1_alg».proof.Proof.Gen.KernelIdeal.Frame
import Idealize.ShloMosaic.Lib.Pipeline.Value
import Idealize.ShloMosaic.Lib.ValueIdx
import Idealize.ShloMosaic.Lib.StableHlo.Run

/-!
  The host stretch between the two regions, read back. Region 0 leaves the per-class channel sums as
  a [2, 19, 256] array and the per-class pixel counts as a [2, 19, 128] array, one leading slot per
  half of the batch. The stretch slices the two halves apart, drops the unit axis and adds them: the
  [19, 256] array of sums region 1 reads holds, at (k, ch), the two halves' sums at (k, ch) added; the
  [19, 1] array of counts holds, at (k, 0), the two halves' counts at lane 0 of class k added.
-/

noncomputable section

namespace Cert.KernelIdeal.KRun.Host1
open Idealize.ShloMosaic Idealize.ShloMosaic.TcCoe Idealize.SL.Sem Idealize.ShloMosaic.ValueIdx Cert.KernelIdeal Cert.KernelIdeal.Gen

/-! ## One half sliced off and its unit axis dropped, at an index -/

/-- Half `o` of a [2, 19, 256] array as a [19, 256] array reads, at (k, ch), the array at (o, k, ch). -/
theorem half256_apply {α : Type} (A : S2x19x256.Idx → α) (o : Nat) (ho : o < 2)
    (hs : S2x19x256.Slices ![o, 0, 0] S1x19x256) (hc : S1x19x256.ShapeCasts S19x256) (k : Fin 19) (ch : Fin 256) :
    shapeCast S19x256 (extractStridedSlice S1x19x256 ![o, 0, 0] A hs) hc (ix2 k ch) = A (ix3 (⟨o, ho⟩ : Fin 2) k ch) := by
  refine (shapeCast_apply _ hc (ix2 k ch) (ix3 (0 : Fin 1) k ch) ?_).trans ?_
  · rw [Shape.rowMajor_val_three, Shape.rowMajor_val_two]
    show ((0 : Nat) * 19 + k.val) * 256 + ch.val = k.val * 256 + ch.val
    omega
  · refine extractStridedSlice_apply _ A hs _ _ fun a => ?_
    match a with
    | ⟨0, _⟩ => show o = o + 0; omega
    | ⟨1, _⟩ => show k.val = 0 + k.val; omega
    | ⟨2, _⟩ => show ch.val = 0 + ch.val; omega

/-- Lane 0 of half `o` of a [2, 19, 128] array as a [19] array reads, at k, the array at (o, k, 0). -/
theorem half1_apply {α : Type} (A : S2x19x128.Idx → α) (o : Nat) (ho : o < 2)
    (hs : S2x19x128.Slices ![o, 0, 0] S1x19x1) (hc : S1x19x1.ShapeCasts S19) (k : Fin 19) :
    shapeCast S19 (extractStridedSlice S1x19x1 ![o, 0, 0] A hs) hc (ix1 k) = A (ix3 (⟨o, ho⟩ : Fin 2) k (0 : Fin 128)) := by
  refine (shapeCast_apply _ hc (ix1 k) (ix3 (0 : Fin 1) k (0 : Fin 1)) ?_).trans ?_
  · rw [Shape.rowMajor_val_three, Shape.rowMajor_val_one]
    show ((0 : Nat) * 19 + k.val) * 1 + 0 = k.val
    omega
  · refine extractStridedSlice_apply _ A hs _ _ fun a => ?_
    match a with
    | ⟨0, _⟩ => show o = o + 0; omega
    | ⟨1, _⟩ => show k.val = 0 + k.val; omega
    | ⟨2, _⟩ => show (0 : Nat) = 0 + 0; omega

/-- A [19] array viewed [19, 1] reads, at (k, 0), the array at k. -/
theorem col_apply {α : Type} (v : S19.Idx → α) (hc : S19.ShapeCasts S19x1) (k : Fin 19) :
    shapeCast S19x1 v hc (ix2 k (0 : Fin 1)) = v (ix1 k) := by
  refine shapeCast_apply _ hc (ix2 k (0 : Fin 1)) (ix1 k) ?_
  rw [Shape.rowMajor_val_one, Shape.rowMajor_val_two]
  show k.val = k.val * 1 + 0
  omega

/-! ## The stretch's two computations, as functions of region 0's two output arrays -/

/-- The two halves' sums, each sliced off and its unit axis dropped, added. -/
def addSums (A : Vec Ideal S2x19x256 .f32) : Vec Ideal S19x256 .f32 :=
  addf (F := Ideal) (φ := .f32)
    (shapeCast S19x256 (extractStridedSlice S1x19x256 ![0, 0, 0] A slices_S2x19x256_S1x19x256_0_0_0) shapeCasts_S1x19x256_S19x256)
    (shapeCast S19x256 (extractStridedSlice S1x19x256 ![1, 0, 0] A slices_S2x19x256_S1x19x256_1_0_0) shapeCasts_S1x19x256_S19x256)

/-- Lane 0 of the two halves' counts, each sliced off and its unit axes dropped, added, as a column. -/
def addCounts (A : Vec Ideal S2x19x128 .f32) : Vec Ideal S19x1 .f32 :=
  shapeCast S19x1
    (addf (F := Ideal) (φ := .f32)
      (shapeCast S19 (extractStridedSlice S1x19x1 ![0, 0, 0] A slices_S2x19x128_S1x19x1_0_0_0) shapeCasts_S1x19x1_S19)
      (shapeCast S19 (extractStridedSlice S1x19x1 ![1, 0, 0] A slices_S2x19x128_S1x19x1_1_0_0) shapeCasts_S1x19x1_S19))
    shapeCasts_S19_S19x1

theorem addSums_apply (A : Vec Ideal S2x19x256 .f32) (k : Fin 19) (ch : Fin 256) :
    addSums A (ix2 k ch) = A (ix3 (0 : Fin 2) k ch) + A (ix3 (1 : Fin 2) k ch) := by
  unfold addSums
  exact congrArg₂ (· + ·)
    (half256_apply A 0 (by omega) slices_S2x19x256_S1x19x256_0_0_0 shapeCasts_S1x19x256_S19x256 k ch)
    (half256_apply A 1 (by omega) slices_S2x19x256_S1x19x256_1_0_0 shapeCasts_S1x19x256_S19x256 k ch)

theorem addCounts_apply (A : Vec Ideal S2x19x128 .f32) (k : Fin 19) :
    addCounts A (ix2 k (0 : Fin 1)) = A (ix3 (0 : Fin 2) k (0 : Fin 128)) + A (ix3 (1 : Fin 2) k (0 : Fin 128)) := by
  unfold addCounts
  refine (col_apply _ shapeCasts_S19_S19x1 k).trans ?_
  exact congrArg₂ (· + ·)
    (half1_apply A 0 (by omega) slices_S2x19x128_S1x19x1_0_0_0 shapeCasts_S1x19x1_S19 k)
    (half1_apply A 1 (by omega) slices_S2x19x128_S1x19x1_1_0_0 shapeCasts_S1x19x1_S19 k)

/-! ## What region 1 is entered with -/

variable (m : (ℓ : Loc nD τ sig) → Buf (Elt Ideal) ℓ) (ρ : Dev nD → PrngReg) (c : Dev nD)

/-- The sums region 1 reads are the stretch's sum of the halves of what region 0 left. -/
theorem V2_v5_eq :
    @Eq (Vec Ideal S19x256 .f32) (V2 (F := Ideal) m ρ c main_v5) (addSums (W1 (F := Ideal) m ρ c (Proc.devRef .tc main_v0_0))) := by
  show StableHlo.after hostOps1 _ (Proc.devRef .tc main_v5) = _
  after_results
  rfl

/-- The counts region 1 reads are the stretch's sum of the halves of what region 0 left. -/
theorem V2_v11_eq :
    @Eq (Vec Ideal S19x1 .f32) (V2 (F := Ideal) m ρ c main_v11) (addCounts (W1 (F := Ideal) m ρ c (Proc.devRef .tc main_v0_1))) := by
  show StableHlo.after hostOps1 _ (Proc.devRef .tc main_v11) = _
  after_results
  rfl

/-! ## Read at an index, over what region 0 left -/

theorem V2_v5_apply (A2 : S2x19x256.Idx → EReal)
    (h2 : (dat0 (F := Ideal) (V0 m ρ) c).arrAt 2 cfg0.N = A2) (k : Fin 19) (ch : Fin 256) :
    (V2 (F := Ideal) m ρ c main_v5 : Vec Ideal S19x256 .f32) (ix2 k ch)
      = A2 (ix3 (0 : Fin 2) k ch) + A2 (ix3 (1 : Fin 2) k ch) := by
  have hW : @Eq (Vec Ideal S2x19x256 .f32) (W1 (F := Ideal) m ρ c (Proc.devRef .tc main_v0_0)) A2 :=
    (W1_arr m ρ c 2).trans h2
  refine (congrFun (V2_v5_eq m ρ c) (ix2 k ch)).trans ?_
  rw [hW]
  exact addSums_apply A2 k ch

theorem V2_v11_apply (A3 : S2x19x128.Idx → EReal)
    (h3 : (dat0 (F := Ideal) (V0 m ρ) c).arrAt 3 cfg0.N = A3) (k : Fin 19) :
    (V2 (F := Ideal) m ρ c main_v11 : Vec Ideal S19x1 .f32) (ix2 k (0 : Fin 1))
      = A3 (ix3 (0 : Fin 2) k (0 : Fin 128)) + A3 (ix3 (1 : Fin 2) k (0 : Fin 128)) := by
  have hW : @Eq (Vec Ideal S2x19x128 .f32) (W1 (F := Ideal) m ρ c (Proc.devRef .tc main_v0_1)) A3 :=
    (W1_arr m ρ c 3).trans h3
  refine (congrFun (V2_v11_eq m ρ c) (ix2 k (0 : Fin 1))).trans ?_
  rw [hW]
  exact addCounts_apply A3 k

end Cert.KernelIdeal.KRun.Host1
end
-- ==== Proof.KRunReg1.lean ====
import proofs.«170524_j53137335386661_1_alg».proof.Proof.Gen.KernelIdeal.Frame
import proofs.«170524_j53137335386661_1_alg».proof.Proof.Spec
import proofs.«170524_j53137335386661_1_alg».proof.Proof.Tail
import Idealize.ShloMosaic.Lib.Pipeline.Value
import Idealize.ShloMosaic.Lib.ValueIdx

/-!
  Region 1's output array after the run. The region has one grid point; each of its three windows'
  blocks is the window's whole array. So the one write-back writes the whole [1, 1] output array,
  and what it writes is the body's result on the two input arrays as the region finds them: the
  loss of the per-class sums and counts.
-/

noncomputable section

namespace Cert.KernelIdeal.KRun.Reg1
open Idealize.ShloMosaic Idealize.ShloMosaic.TcCoe Idealize.SL.Sem Idealize.ShloMosaic.ValueIdx Cert.KernelIdeal Cert.KernelIdeal.Gen
open Idealize.ShloMosaic.Pipeline (Dat)

/-! ## Every block is its whole array: an element of the block sits in the array at its own index -/

theorem emb1_0 (t : Fin cfg1.N) (y : S19x256.Idx) : ((cfg1.win 0).blk t).view.emb y = y := by
  funext a; apply Fin.ext
  match a with
  | ⟨0, _⟩ =>
    show win1_0.index t (0 : Fin 2) * 19 + 1 * (y 0).val = (y 0).val
    have h : win1_0.index t (0 : Fin 2) = 0 := rfl
    omega
  | ⟨1, _⟩ =>
    show win1_0.index t (1 : Fin 2) * 256 + 1 * (y 1).val = (y 1).val
    have h : win1_0.index t (1 : Fin 2) = 0 := rfl
    omega

theorem emb1_1 (t : Fin cfg1.N) (y : S19x1.Idx) : ((cfg1.win 1).blk t).view.emb y = y := by
  funext a; apply Fin.ext
  match a with
  | ⟨0, _⟩ =>
    show win1_1.index t (0 : Fin 2) * 19 + 1 * (y 0).val = (y 0).val
    have h : win1_1.index t (0 : Fin 2) = 0 := rfl
    omega
  | ⟨1, _⟩ =>
    show win1_1.index t (1 : Fin 2) * 1 + 1 * (y 1).val = (y 1).val
    have h : win1_1.index t (1 : Fin 2) = 0 := rfl
    omega

theorem emb1_2 (t : Fin cfg1.N) (y : S1x1.Idx) : ((cfg1.win 2).blk t).view.emb y = y := by
  funext a; apply Fin.ext
  match a with
  | ⟨0, _⟩ =>
    show win1_2.index t (0 : Fin 2) * 1 + 1 * (y 0).val = (y 0).val
    have h : win1_2.index t (0 : Fin 2) = 0 := rfl
    omega
  | ⟨1, _⟩ =>
    show win1_2.index t (1 : Fin 2) * 1 + 1 * (y 1).val = (y 1).val
    have h : win1_2.index t (1 : Fin 2) = 0 := rfl
    omega

variable (V : (c : Dev nD) → (b : Ref sig .tc) → Buf (Elt Ideal) ((c : Thread nD τ).loc b)) (c : Dev nD)

/-- The sums' block at the point is the sums' array as the region finds it. -/
theorem iblk1_0_apply (t : Fin cfg1.N) (y : S19x256.Idx) :
    (iblk1 (F := Ideal) V c 0 t : Vec Ideal S19x256 .f32) y = (V c main_v5 : Vec Ideal S19x256 .f32) y := by
  show (V c main_v5 : Vec Ideal S19x256 .f32) (((cfg1.win 0).blk t).view.emb y) = _
  rw [emb1_0]

/-- The counts' block at the point is the counts' array as the region finds it. -/
theorem iblk1_1_apply (t : Fin cfg1.N) (y : S19x1.Idx) :
    (iblk1 (F := Ideal) V c 1 t : Vec Ideal S19x1 .f32) y = (V c main_v11 : Vec Ideal S19x1 .f32) y := by
  show (V c main_v11 : Vec Ideal S19x1 .f32) (((cfg1.win 1).blk t).view.emb y) = _
  rw [emb1_1]

/-- The loss of the sums and counts region 1 is entered with. -/
def lossOf : EReal :=
  Cert.Spec.lossK0 (fun k ch => (V c main_v5 : Vec Ideal S19x256 .f32) (ix2 k ch))
    (fun k => (V c main_v11 : Vec Ideal S19x1 .f32) (ix2 k (0 : Fin 1)))

/-- What the one point writes back: the loss, at the block's one element. -/
theorem flushed1_2_apply (t : Fin cfg1.N) (j : S1x1.Idx) :
    ((dat1 (F := Ideal) V c).flushed 2 t : Vec Ideal S1x1 .f32) j = lossOf V c := by
  show ((dat1 (F := Ideal) V c).after 2 t : Vec Ideal S1x1 .f32) _ = _
  rw [after1_2, Cert.KernelIdeal.Tail.out1_2_eq]
  unfold lossOf
  congr 1
  · funext k ch; exact iblk1_0_apply V c t (ix2 k ch)
  · funext k; exact iblk1_1_apply V c t (ix2 k (0 : Fin 1))

/-- THE OUTPUT ARRAY after the run holds the loss. -/
theorem arrAt2 : ((dat1 (F := Ideal) V c).arrAt 2 cfg1.N : Vec Ideal S1x1 .f32) = fun _ => lossOf V c := by
  refine (dat1 (F := Ideal) V c).arrAt_eq_of_cover 2 (fun _ => lossOf V c) (fun t _ => ?_) (fun i => ?_)
  · funext j
    exact flushed1_2_apply V c t j
  · refine ⟨t1_0, flush1_2 t1_0, ?_⟩
    have h := ((cfg1.win 2).blk t1_0).view.emb_mem_set i
    rwa [emb1_2] at h

end Cert.KernelIdeal.KRun.Reg1
end
-- ==== Proof.KRun.lean ====
import proofs.«170524_j53137335386661_1_alg».proof.Proof.Gen.KernelIdeal.Frame
import proofs.«170524_j53137335386661_1_alg».proof.Proof.Spec
import proofs.«170524_j53137335386661_1_alg».proof.Proof.Tail
import proofs.«170524_j53137335386661_1_alg».proof.Proof.KRunFrame
import proofs.«170524_j53137335386661_1_alg».proof.Proof.KRunHost1
import proofs.«170524_j53137335386661_1_alg».proof.Proof.KRunReg1
import Idealize.ShloMosaic.Lib.Pipeline.Value
import Idealize.ShloMosaic.Lib.StableHlo.Run

/-!
  The kernel program's run with its result named, and the result read back through the program's
  last two stretches: the scalar the program returns is the unit factor times the loss of the two
  halves' per-class sums and counts, added.
-/

noncomputable section

namespace Cert.KernelIdeal.KRun
open Idealize.ShloMosaic Idealize.ShloMosaic.TcCoe Idealize.SL.Sem Idealize.ShloMosaic.ValueIdx Cert.KernelIdeal Cert.KernelIdeal.Gen

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Frame.run_named m ρ

/-- The last stretch on what region 1 left: the [1, 1] output viewed as a scalar, times the constant 1. -/
theorem W4_v14_eq (m : (ℓ : Loc nD τ sig) → Buf (Elt Ideal) ℓ) (ρ : Dev nD → PrngReg) (c : Dev nD) :
    @Eq (Vec Ideal S_ .f32) (W4 (F := Ideal) m ρ c (Proc.devRef .tc main_v14))
      (mulf (F := Ideal) (φ := .f32) (constant S_ .f32 0x3F800000#32)
        (shapeCast S_ (W3 (F := Ideal) m ρ c (Proc.devRef .tc main_v12) : Vec Ideal S1x1 .f32) shapeCasts_S1x1_S_)) := by
  show StableHlo.after hostOps2 _ (Proc.devRef .tc main_v14) = _
  after_results
  rfl

theorem W4_v14 (m : (ℓ : Loc nD τ sig) → Buf (Elt Ideal) ℓ) (ρ : Dev nD → PrngReg) (c : Dev nD)
    (A2 : S2x19x256.Idx → EReal) (A3 : S2x19x128.Idx → EReal)
    (h2 : (dat0 (F := Ideal) (V0 m ρ) c).arrAt 2 cfg0.N = A2) (h3 : (dat0 (F := Ideal) (V0 m ρ) c).arrAt 3 cfg0.N = A3) :
    W4 (F := Ideal) m ρ c (Proc.devRef .tc main_v14) = fun _ => Cert.Spec.c1 * Cert.Spec.lossK0
      (fun k ch => A2 (ix3 (0 : Fin 2) k ch) + A2 (ix3 (1 : Fin 2) k ch))
      (fun k => A3 (ix3 (0 : Fin 2) k (0 : Fin 128)) + A3 (ix3 (1 : Fin 2) k (0 : Fin 128))) := by
  -- region 1's output array holds the loss of the sums and counts it was entered with
  have h12 : @Eq (Vec Ideal S1x1 .f32) (W3 (F := Ideal) m ρ c (Proc.devRef .tc main_v12))
      (fun _ => Reg1.lossOf (V2 (F := Ideal) m ρ) c) :=
    (W3_arr m ρ c 2).trans (Reg1.arrAt2 (V2 (F := Ideal) m ρ) c)
  -- which are the two halves of what region 0 left, added
  have hL : Reg1.lossOf (V2 (F := Ideal) m ρ) c = Cert.Spec.lossK0
      (fun k ch => A2 (ix3 (0 : Fin 2) k ch) + A2 (ix3 (1 : Fin 2) k ch))
      (fun k => A3 (ix3 (0 : Fin 2) k (0 : Fin 128)) + A3 (ix3 (1 : Fin 2) k (0 : Fin 128))) := by
    unfold Reg1.lossOf
    congr 1
    · funext k ch; exact Host1.V2_v5_apply m ρ c A2 h2 k ch
    · funext k; exact Host1.V2_v11_apply m ρ c A3 h3 k
  refine (W4_v14_eq m ρ c).trans ?_
  rw [h12, hL]
  rfl

end Cert.KernelIdeal.KRun
end
-- ==== Proof.RefTail.lean ====
/-
  The reference program after its two scatters: from the per-class sums and counts it scatters
  (refS, refC) its result is the specification's loss of them. Each stage is read at an index built
  from coordinates: the class mean, the clamped length, the normalised mean, the matrix of inner
  products, the diagonal mask, the hinge matrix, and the mean over the 361 entries.
-/
import proofs.«170524_j53137335386661_1_alg».proof.Proof.Gen.ReferenceIdeal.Read
import proofs.«170524_j53137335386661_1_alg».proof.Proof.Spec
import Idealize.ShloMosaic.Lib.ValueIdx
import Idealize.ShloMosaic.PureOps.Ideal.Laws
import Idealize.ShloMosaic.Lib.IdealHost

noncomputable section

namespace Cert.ReferenceIdeal.RefValue
open Idealize.ShloMosaic Idealize.ShloMosaic.TcCoe Idealize.SL.Sem Idealize.ShloMosaic.ValueIdx Cert.ReferenceIdeal Cert.ReferenceIdeal.Read

/-- Comparing the words of two class numbers (the first plus the zero word): one exactly on the diagonal. -/
theorem cmp_diag (i j : Fin 19) :
    IntOp.cmpi .eq (IntOp.addi (BitVec.ofNat 32 i.val) 0#32) (BitVec.ofNat 32 j.val) = if i = j then 1#1 else 0#1 := by
  unfold IntOp.cmpi IntOp.addi
  simp only [BitVec.add_zero]
  by_cases h : i = j
  · subst h; simp
  · rw [if_neg h]
    have hne : (BitVec.ofNat 32 i.val == BitVec.ofNat 32 j.val) = false := by
      rw [beq_eq_false_iff_ne]
      intro he
      apply h
      have := congrArg BitVec.toNat he
      simp only [BitVec.toNat_ofNat] at this
      have hi := i.isLt
      have hj := j.isLt
      apply Fin.ext; omega
    rw [hne]; rfl

section Tail
variable (x0 : (⟨S8x256x128x128, .f32⟩ : BufTy).Contents (Elt Ideal)) (x1 : (⟨S8x128x128, .i32⟩ : BufTy).Contents (Elt Ideal))

/-- The per-class channel sums the reference scatters, by class and channel. -/
def refS : Fin 19 → Fin 256 → EReal := fun k ch => val_main_v5 (F := Ideal) x0 x1 (ix2 k ch)
/-- The per-class pixel counts the reference scatters. -/
def refC : Fin 19 → EReal := fun k => val_main_v9 (F := Ideal) x1 (ix1 k)

/-- The quotient stage is the class mean. -/
theorem v14_eq (k : Fin 19) (ch : Fin 256) :
    val_main_v14 (F := Ideal) x0 x1 (ix2 k ch) = Spec.mean (refS x0 x1) (refC x1) k ch := by
  rw [val_main_v14_apply, val_main_v13_apply, val_main_v12_apply, val_main_v11_apply, val_main_v10_apply, val_main_cst_2_apply]
  have e : idx_main_v12 (idx_main_v13 (ix2 k ch : S19x256.Idx)) = ix1 k :=
    funext fun a => Fin.ext (by match a with | ⟨0, _⟩ => rfl)
  rw [e]
  rfl

/-- The clamped length of the mean vector. -/
theorem v17_eq (k : Fin 19) :
    val_main_v17 (F := Ideal) x0 x1 (ix2 k (0 : Fin 1)) = Spec.nrm (refS x0 x1) (refC x1) k := by
  rw [val_main_v17_apply, val_main_v15_apply, val_main_call0_v2_apply, val_main_call0_v1_apply, val_main_v16_apply,
    val_main_cst_3_apply, val_main_call0_cst_apply]
  have e : ∀ c : Fin 256, idx_main_call0_v1 (idx_main_call0_v2 (ix2 k (0 : Fin 1) : S19x1.Idx)) c = ix2 k c :=
    fun c => funext fun a => Fin.ext (by match a with | ⟨0, _⟩ => rfl | ⟨1, _⟩ => rfl)
  simp only [e, val_main_call0_v0_apply, v14_eq, Ideal.ofBits_def, Ideal.ofBits_zero_f32, zero_add,
    Ideal.hostUnary_sqrt_def, Ideal.maximumf_def, Ideal.mulf_def]
  rfl

/-- The normalised mean. -/
theorem v19_eq (k : Fin 19) (ch : Fin 256) :
    val_main_v19 (F := Ideal) x0 x1 (ix2 k ch) = Spec.mn (refS x0 x1) (refC x1) k ch := by
  rw [val_main_v19_apply, val_main_v18_apply]
  have e : idx_main_v18 (ix2 k ch : S19x256.Idx) = ix2 k (0 : Fin 1) :=
    funext fun a => Fin.ext (by match a with | ⟨0, _⟩ => rfl | ⟨1, _⟩ => rfl)
  rw [e, v14_eq, v17_eq]
  rfl

/-- The matrix of inner products of the normalised means. -/
theorem v21_eq (i j : Fin 19) :
    val_main_v21 (F := Ideal) x0 x1 (ix2 i j) =
      ∑ c : Fin 256, Spec.mn (refS x0 x1) (refC x1) i c * Spec.mn (refS x0 x1) (refC x1) j c := by
  rw [val_main_v21_apply]
  refine Finset.sum_congr rfl fun c _ => ?_
  rw [val_main_v20_apply]
  have el : lidx_main_v21 (ix2 i j : S19x19.Idx) c = ix2 i c :=
    funext fun a => Fin.ext (by match a with | ⟨0, _⟩ => rfl | ⟨1, _⟩ => rfl)
  have er : idx_main_v20 (ridx_main_v21 (ix2 i j : S19x19.Idx) c) = ix2 j c :=
    funext fun a => Fin.ext (by match a with | ⟨0, _⟩ => rfl | ⟨1, _⟩ => rfl)
  rw [el, er, v19_eq, v19_eq]

/-- The diagonal mask. -/
theorem v28_eq (i j : Fin 19) :
    val_main_v28 (F := Ideal) (ix2 i j : S19x19.Idx) = if i = j then 1#1 else 0#1 := by
  rw [val_main_v28_apply, val_main_v27_apply, val_main_v24_apply, val_main_v25_apply, val_main_v26_apply, val_main_c_apply]
  exact cmp_diag i j

/-- The hinge matrix. -/
theorem v33_eq (i j : Fin 19) :
    val_main_v33 (F := Ideal) x0 x1 (ix2 i j) = Spec.lossMat (refS x0 x1) (refC x1) i j := by
  rw [val_main_v33_apply, val_main_v32_apply, val_main_cst_7_apply, val_main_v31_apply, val_main_v30_apply,
    val_main_cst_6_apply, val_main_v29_apply, v28_eq, val_main_call1_v1_apply, val_main_call1_v0_apply,
    val_main_cst_5_apply, val_main_v23_apply, val_main_v22_apply, val_main_cst_4_apply, v21_eq]
  simp only [Ideal.ofBits_def, Ideal.ofBits_zero_f32, Ideal.maximumf_def, Ideal.subf_def]
  unfold Spec.lossMat Spec.chalf Spec.c2 Spec.c1
  by_cases h : i = j
  · rw [if_pos h, if_pos h, select_one]
  · rw [if_neg h, if_neg h, select_zero]

/-- The reference's result from its two scatters. -/
theorem tail_eq (i : S_.Idx) :
    val_main_v36 (F := Ideal) x0 x1 i = Spec.loss (refS x0 x1) (refC x1) := by
  rw [val_main_v36_apply, val_main_cst_10_apply, val_main_v35_apply, val_main_cst_9_apply, val_main_v34_apply,
    val_main_cst_8_apply, sum_idx2]
  simp only [v33_eq, Ideal.ofBits_def, Ideal.ofBits_zero_f32, zero_add, Ideal.mulf_def, Ideal.hostDivf_def]
  rfl

end Tail

end Cert.ReferenceIdeal.RefValue
end
-- ==== Proof.RefScatter.lean ====
/-
  Where the reference's two accumulating scatters put an update element.

  The sums' scatter takes updates of shape [131072, 256] (pixel, channel) into an operand of shape
  [19, 256] (class, channel), the row read off the label of the pixel as a signed integer: update
  (n, c) lands at (label n, c) when 0 ≤ label n < 19 and is dropped otherwise. The counts' scatter
  takes updates of shape [131072] into [19] the same way, with no channel axis.
-/
import proofs.«170524_j53137335386661_1_alg».proof.Proof.Gen.ReferenceIdeal.Read
import proofs.«170524_j53137335386661_1_alg».proof.Proof.Spec
import Idealize.ShloMosaic.Lib.ValueIdx
import Idealize.ShloMosaic.PureOps.Ideal.Laws

noncomputable section

namespace Cert.ReferenceIdeal.RefValue
open Idealize.ShloMosaic Idealize.ShloMosaic.TcCoe Idealize.SL.Sem Idealize.ShloMosaic.ValueIdx Cert.ReferenceIdeal Cert.ReferenceIdeal.Read

abbrev dS := scatter_S19x256_S131072x1_S131072x256_1_0_0_1

theorem dS_siIdx (j : S131072x256.Idx) (c : Fin dS.scatterDimsToOperandDims.length) :
    dS.siIdx j c = ix2 (j 0) (0 : Fin 1) := by
  funext b; refine Fin.ext ?_
  match b with
  | ⟨0, _⟩ => rfl
  | ⟨1, _⟩ =>
    show c.val = 0
    have := c.isLt
    have h1 : dS.scatterDimsToOperandDims.length = 1 := rfl
    omega

theorem dS_start0 (j : S131072x256.Idx) (idx : IVec S131072x1 32) :
    dS.start j idx 0 = (idx (ix2 (j 0) (0 : Fin 1))).toInt := by
  unfold ScatterDims.start
  rw [dif_pos (show (0 : Fin S19x256.rank) ∈ dS.scatterDimsToOperandDims from List.mem_singleton.mpr rfl)]
  rw [dS_siIdx]
  rfl

theorem dS_start1 (j : S131072x256.Idx) (idx : IVec S131072x1 32) :
    dS.start j idx 1 = 0 := by
  unfold ScatterDims.start
  rw [dif_neg (show ¬ (1 : Fin S19x256.rank) ∈ dS.scatterDimsToOperandDims by decide)]

theorem dS_window0 (j : S131072x256.Idx) : dS.window j 0 = 0 := by
  unfold ScatterDims.window
  rw [dif_neg (show ¬ (0 : Fin S19x256.rank) ∈ dS.sKept by decide)]

theorem dS_window1 (j : S131072x256.Idx) : dS.window j 1 = (j 1).val := by
  unfold ScatterDims.window
  rw [dif_pos (show (1 : Fin S19x256.rank) ∈ dS.sKept by decide)]
  rfl

/-- Where an update element lands: update (n, c) goes to row "label of pixel n" and column c,
    when the label, read signed, is a row of the operand; otherwise it is dropped. -/
theorem dS_lands (j : S131072x256.Idx) (idx : IVec S131072x1 32) (k : Fin 19) (ch : Fin 256) :
    dS.resultIdx? j idx = some (ix2 k ch) ↔
      (idx (ix2 (j 0) (0 : Fin 1))).toInt = (k.val : Int) ∧ (j 1).val = ch.val := by
  have hs0 := dS_start0 j idx
  have hs1 := dS_start1 j idx
  have hw0 := dS_window0 j
  have hw1 := dS_window1 j
  have hj1 : (j 1).val < 256 := (j 1).isLt
  have hk : k.val < 19 := k.isLt
  have hch : ch.val < 256 := ch.isLt
  constructor
  · intro hres
    unfold ScatterDims.resultIdx? at hres
    split at hres
    · rename_i h
      have heq := Option.some.inj hres
      have h0 := congrArg (fun f => (f 0).val) heq
      have h1 := congrArg (fun f => (f 1).val) heq
      have hb0 := h 0
      simp only [hs0, hs1, hw0, hw1] at h0 h1 hb0
      refine ⟨?_, ?_⟩
      · have : ((ix2 k ch : S19x256.Idx) 0).val = k.val := rfl
        rw [this] at h0
        omega
      · have : ((ix2 k ch : S19x256.Idx) 1).val = ch.val := rfl
        rw [this] at h1
        omega
    · exact absurd hres (by simp)
  · rintro ⟨h0, h1⟩
    unfold ScatterDims.resultIdx?
    have hall : ∀ a, 0 ≤ dS.start j idx a + dS.window j a ∧ dS.start j idx a + dS.window j a < S19x256.size a := by
      intro a
      match a with
      | ⟨0, _⟩ =>
        show 0 ≤ dS.start j idx 0 + dS.window j 0 ∧ dS.start j idx 0 + dS.window j 0 < (19 : Nat)
        rw [hs0, hw0, h0]; omega
      | ⟨1, _⟩ =>
        show 0 ≤ dS.start j idx 1 + dS.window j 1 ∧ dS.start j idx 1 + dS.window j 1 < (256 : Nat)
        rw [hs1, hw1]; omega
    rw [dif_pos hall]
    refine congrArg some (funext fun a => Fin.ext ?_)
    match a with
    | ⟨0, _⟩ =>
      show (dS.start j idx 0 + dS.window j 0).toNat = k.val
      rw [hs0, hw0, h0]; omega
    | ⟨1, _⟩ =>
      show (dS.start j idx 1 + dS.window j 1).toNat = ch.val
      rw [hs1, hw1]; omega

/-! The counts' scatter: no channel axis. -/

abbrev dC := scatter_S19_S131072x1_S131072_n_0_0_1

theorem dC_siIdx (j : S131072.Idx) (c : Fin dC.scatterDimsToOperandDims.length) :
    dC.siIdx j c = ix2 (j 0) (0 : Fin 1) := by
  funext b; refine Fin.ext ?_
  match b with
  | ⟨0, _⟩ => rfl
  | ⟨1, _⟩ =>
    show c.val = 0
    have := c.isLt
    have h1 : dC.scatterDimsToOperandDims.length = 1 := rfl
    omega

theorem dC_start0 (j : S131072.Idx) (idx : IVec S131072x1 32) :
    dC.start j idx 0 = (idx (ix2 (j 0) (0 : Fin 1))).toInt := by
  unfold ScatterDims.start
  rw [dif_pos (show (0 : Fin S19.rank) ∈ dC.scatterDimsToOperandDims from List.mem_singleton.mpr rfl)]
  rw [dC_siIdx]
  rfl

theorem dC_window0 (j : S131072.Idx) : dC.window j 0 = 0 := by
  unfold ScatterDims.window
  rw [dif_neg (show ¬ (0 : Fin S19.rank) ∈ dC.sKept by decide)]

/-- Where a count update lands: pixel n's one goes to entry "label of pixel n", when the label,
    read signed, is an entry of the operand; otherwise it is dropped. -/
theorem dC_lands (j : S131072.Idx) (idx : IVec S131072x1 32) (k : Fin 19) :
    dC.resultIdx? j idx = some (ix1 k) ↔ (idx (ix2 (j 0) (0 : Fin 1))).toInt = (k.val : Int) := by
  have hs0 := dC_start0 j idx
  have hw0 := dC_window0 j
  have hk : k.val < 19 := k.isLt
  constructor
  · intro hres
    unfold ScatterDims.resultIdx? at hres
    split at hres
    · rename_i h
      have heq := Option.some.inj hres
      have h0 := congrArg (fun f => (f 0).val) heq
      have hb0 := h 0
      simp only [hs0, hw0] at h0 hb0
      have : ((ix1 k : S19.Idx) 0).val = k.val := rfl
      rw [this] at h0
      omega
    · exact absurd hres (by simp)
  · intro h0
    unfold ScatterDims.resultIdx?
    have hall : ∀ a, 0 ≤ dC.start j idx a + dC.window j a ∧ dC.start j idx a + dC.window j a < S19.size a := by
      intro a
      match a with
      | ⟨0, _⟩ =>
        show 0 ≤ dC.start j idx 0 + dC.window j 0 ∧ dC.start j idx 0 + dC.window j 0 < (19 : Nat)
        rw [hs0, hw0, h0]; omega
    rw [dif_pos hall]
    refine congrArg some (funext fun a => Fin.ext ?_)
    match a with
    | ⟨0, _⟩ =>
      show (dC.start j idx 0 + dC.window j 0).toNat = k.val
      rw [hs0, hw0, h0]; omega

end Cert.ReferenceIdeal.RefValue
end
-- ==== Proof.RefSums.lean ====
/-
  The reference's two scatters are the specification's masked sums.

  Each scatter adds, into a zero operand, the updates that land at an entry. Reading where an
  update lands (the label of its pixel, read signed) turns the filtered sum into a sum over all
  updates of "the update if its label is the class, else 0"; the channel coordinate collapses to the
  entry's channel; the pixel coordinate n is re-indexed as (image, row, lane) in row-major order,
  which is how the program's reshapes read the features and the labels; and selecting by the label
  is multiplying by the indicator. The counts' updates are all the word of 1.0, which denotes 1.
-/
import proofs.«170524_j53137335386661_1_alg».proof.Proof.RefScatter
import Idealize.ShloMosaic.Lib.IdealHost

noncomputable section

namespace Cert.ReferenceIdeal.RefValue
open Idealize.ShloMosaic Idealize.ShloMosaic.TcCoe Idealize.SL.Sem Idealize.ShloMosaic.ValueIdx Cert.ReferenceIdeal Cert.ReferenceIdeal.Read

/-- Pixels in row-major order: (image, row, lane) is pixel (image * 128 + row) * 128 + lane. -/
def pixEquiv : Fin 8 × Fin 128 × Fin 128 ≃ Fin 131072 where
  toFun p := ⟨(p.1.val * 128 + p.2.1.val) * 128 + p.2.2.val, by
    have := p.1.isLt; have := p.2.1.isLt; have := p.2.2.isLt; omega⟩
  invFun n := (⟨n.val / 16384, by have := n.isLt; omega⟩, ⟨n.val / 128 % 128, by omega⟩, ⟨n.val % 128, by omega⟩)
  left_inv p := by
    obtain ⟨b, h, w⟩ := p
    have := b.isLt; have := h.isLt; have := w.isLt
    refine Prod.ext (Fin.ext ?_) (Prod.ext (Fin.ext ?_) (Fin.ext ?_))
    · show ((b.val * 128 + h.val) * 128 + w.val) / 16384 = b.val; omega
    · show ((b.val * 128 + h.val) * 128 + w.val) / 128 % 128 = h.val; omega
    · show ((b.val * 128 + h.val) * 128 + w.val) % 128 = w.val; omega
  right_inv n := by
    have := n.isLt
    refine Fin.ext ?_
    show (n.val / 16384 * 128 + n.val / 128 % 128) * 128 + n.val % 128 = n.val; omega

theorem pixEquiv_val (b : Fin 8) (h w : Fin 128) : (pixEquiv (b, h, w)).val = (b.val * 128 + h.val) * 128 + w.val := rfl

/-- A sum over the pixels is the sum over images, rows and lanes. -/
theorem sum_pix {M : Type*} [AddCommMonoid M] (g : Fin 131072 → M) :
    ∑ n, g n = ∑ b : Fin 8, ∑ h : Fin 128, ∑ w : Fin 128, g (pixEquiv (b, h, w)) := by
  rw [← Equiv.sum_comp pixEquiv g, Fintype.sum_prod_type]
  refine Finset.sum_congr rfl fun b _ => ?_
  rw [Fintype.sum_prod_type]

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A label word read signed is class k exactly when it is the word of k. -/
theorem toInt_eq_class (l : BitVec 32) (k : Fin 19) : l.toInt = (k.val : Int) ↔ l = BitVec.ofNat 32 k.val := by
  have hk : (BitVec.ofNat 32 k.val).toInt = (k.val : Int) := by
    have := k.isLt
    rw [BitVec.toInt_eq_toNat_cond, BitVec.toNat_ofNat]
    split <;> omega
  constructor
  · intro h; exact BitVec.eq_of_toInt_eq (by rw [h, hk])
  · intro h; rw [h, hk]

/-- Selecting by "the label is class k" is multiplying by the indicator. -/
theorem ite_class (l : BitVec 32) (k : Fin 19) (x : EReal) :
    (if l.toInt = (k.val : Int) then x else 0) = x * Spec.ind l k := by
  unfold Spec.ind
  by_cases h : l = BitVec.ofNat 32 k.val
  · rw [if_pos ((toInt_eq_class l k).2 h), if_pos h, mul_one]
  · rw [if_neg (fun h' => h ((toInt_eq_class l k).1 h')), if_neg h, mul_zero]

section Sums
variable (x0 : (⟨S8x256x128x128, .f32⟩ : BufTy).Contents (Elt Ideal)) (x1 : (⟨S8x128x128, .i32⟩ : BufTy).Contents (Elt Ideal))

/-- The label the scatters read for pixel (b, h, w). -/
theorem v4_pix (b : Fin 8) (h w : Fin 128) :
    val_main_v4 (F := Ideal) x1 (ix2 (pixEquiv (b, h, w)) (0 : Fin 1)) = Spec.labOf x1 b h w := by
  rw [val_main_v4_apply, val_main_v2_apply]
  unfold Spec.labOf
  refine congrArg x1 (funext fun a => Fin.ext ?_)
  have := b.isLt; have := h.isLt; have := w.isLt
  match a with
  | ⟨0, _⟩ => show ((b.val * 128 + h.val) * 128 + w.val) / 16384 = b.val; omega
  | ⟨1, _⟩ => show ((b.val * 128 + h.val) * 128 + w.val) / 128 % 128 = h.val; omega
  | ⟨2, _⟩ => show ((b.val * 128 + h.val) * 128 + w.val) % 128 = w.val; omega

theorem v8_pix (b : Fin 8) (h w : Fin 128) :
    val_main_v8 (F := Ideal) x1 (ix2 (pixEquiv (b, h, w)) (0 : Fin 1)) = Spec.labOf x1 b h w := v4_pix x1 b h w

/-- The feature the sums' scatter reads for pixel (b, h, w) and channel ch. -/
theorem v1_pix (b : Fin 8) (h w : Fin 128) (ch : Fin 256) :
    val_main_v1 (F := Ideal) x0 (ix2 (pixEquiv (b, h, w)) ch) = Spec.featOf x0 b ch h w := by
  rw [val_main_v1_apply, val_main_v0_apply]
  unfold Spec.featOf
  refine congrArg x0 (funext fun a => Fin.ext ?_)
  have := b.isLt; have := h.isLt; have := w.isLt; have := ch.isLt
  match a with
  | ⟨0, _⟩ => show (((b.val * 128 + h.val) * 128 + w.val) * 256 + ch.val) / 4194304 = b.val; omega
  | ⟨1, _⟩ => show (((b.val * 128 + h.val) * 128 + w.val) * 256 + ch.val) % 256 = ch.val; omega
  | ⟨2, _⟩ => show (((b.val * 128 + h.val) * 128 + w.val) * 256 + ch.val) / 32768 % 128 = h.val; omega
  | ⟨3, _⟩ => show (((b.val * 128 + h.val) * 128 + w.val) * 256 + ch.val) / 256 % 128 = w.val; omega

/-- The sums' scatter is the specification's masked sum. -/
theorem refS_eq (k : Fin 19) (ch : Fin 256) :
    val_main_v5 (F := Ideal) x0 x1 (ix2 k ch) = Spec.segS (Spec.featOf x0) (Spec.labOf x1) k ch := by
  unfold val_main_v5
  simp only [Host.scatterAdd, Ideal.hostScatterAdd_def]
  unfold Ideal.hostScatterAdd
  rw [val_main_v3_apply, val_main_cst_apply, Ideal.ofBits_def, Ideal.ofBits_zero_f32, zero_add, Finset.sum_filter]
  refine (Finset.sum_congr rfl fun j _ => if_congr (dS_lands j (val_main_v4 (F := Ideal) x1) k ch) rfl rfl).trans ?_
  refine (sum_idx2 _).trans ?_
  refine (sum_pix _).trans ?_
  unfold Spec.segS
  refine Finset.sum_congr rfl fun b _ => Finset.sum_congr rfl fun h _ => Finset.sum_congr rfl fun w _ => ?_
  show (∑ c : Fin 256, if (val_main_v4 (F := Ideal) x1 (ix2 (pixEquiv (b, h, w)) (0 : Fin 1))).toInt = (k.val : Int) ∧ c.val = ch.val
      then val_main_v1 (F := Ideal) x0 (ix2 (pixEquiv (b, h, w)) c) else 0) = _
  rw [v4_pix, ← ite_class, ← v1_pix]
  by_cases hl : (Spec.labOf x1 b h w).toInt = (k.val : Int)
  · simp only [hl, true_and, if_true]
    rw [Finset.sum_eq_single ch]
    · rw [if_pos rfl]
    · intro c _ hc; rw [if_neg (fun hv => hc (Fin.ext hv))]
    · intro hn; exact absurd (Finset.mem_univ _) hn
  · simp only [hl, false_and, if_false]
    exact Finset.sum_const_zero

/-- The counts' scatter is the specification's pixel count. -/
theorem refC_eq (k : Fin 19) :
    val_main_v9 (F := Ideal) x1 (ix1 k) = Spec.segC (Spec.labOf x1) k := by
  unfold val_main_v9
  simp only [Host.scatterAdd, Ideal.hostScatterAdd_def]
  unfold Ideal.hostScatterAdd
  rw [val_main_v7_apply, val_main_cst_1_apply, Ideal.ofBits_def, Ideal.ofBits_zero_f32, zero_add, Finset.sum_filter]
  refine (Finset.sum_congr rfl fun j _ => if_congr (dC_lands j (val_main_v8 (F := Ideal) x1) k) rfl rfl).trans ?_
  refine (sum_idx1 _).trans ?_
  refine (sum_pix _).trans ?_
  unfold Spec.segC
  refine Finset.sum_congr rfl fun b _ => Finset.sum_congr rfl fun h _ => Finset.sum_congr rfl fun w _ => ?_
  show (if (val_main_v8 (F := Ideal) x1 (ix2 (pixEquiv (b, h, w)) (0 : Fin 1))).toInt = (k.val : Int)
      then val_main_v6 (F := Ideal) (ix1 (pixEquiv (b, h, w))) else 0) = _
  rw [v8_pix, val_main_v6_apply, val_main_cst_0_apply, Ideal.ofBits_def, Ideal.ofBits_one_f32, ite_class, one_mul]

end Sums

end Cert.ReferenceIdeal.RefValue
end
-- ==== Proof.Ref.lean ====
import proofs.«170524_j53137335386661_1_alg».proof.Proof.Gen.ReferenceIdeal.Read
import proofs.«170524_j53137335386661_1_alg».proof.Proof.Spec
import proofs.«170524_j53137335386661_1_alg».proof.Proof.RefTail
import proofs.«170524_j53137335386661_1_alg».proof.Proof.RefSums
import Idealize.ShloMosaic.Lib.ValueIdx
import Idealize.ShloMosaic.PureOps.Ideal.Laws

noncomputable section

namespace Cert.ReferenceIdeal.RefValue
open Idealize.ShloMosaic Idealize.ShloMosaic.TcCoe Idealize.SL.Sem Idealize.ShloMosaic.ValueIdx Cert.ReferenceIdeal Cert.ReferenceIdeal.Read

/-- The reference's value: the loss of the specification's per-class sums and counts. Its tail maps
    the two scattered arrays to the loss; each scattered array is the masked sum. -/
theorem ref_eq (x0 : (⟨S8x256x128x128, .f32⟩ : BufTy).Contents (Elt Ideal)) (x1 : (⟨S8x128x128, .i32⟩ : BufTy).Contents (Elt Ideal)) :
    val_main_v36 (F := Ideal) x0 x1 = fun _ => Cert.Spec.loss (Cert.Spec.segS (Cert.Spec.featOf x0) (Cert.Spec.labOf x1)) (Cert.Spec.segC (Cert.Spec.labOf x1)) := by
  funext i
  rw [tail_eq]
  have hS : refS x0 x1 = Cert.Spec.segS (Cert.Spec.featOf x0) (Cert.Spec.labOf x1) :=
    funext fun k => funext fun ch => refS_eq x0 x1 k ch
  have hC : refC x1 = Cert.Spec.segC (Cert.Spec.labOf x1) := funext fun k => refC_eq x1 k
  rw [hS, hC]

end Cert.ReferenceIdeal.RefValue
end
-- ==== Proof.lean ====
/-
  The certificate's claims, assembled.

  Both idealized programs compute, from a feature map and a label map, the same extended real
  `Cert.Spec.loss (segS X L) (segC L)`: per-class sums and counts of the labelled pixels, class means,
  their clamped L2 normalisation, the hinge of the pairwise cosine distances, and its mean.
  * The kernel accumulates each half of the batch tile by tile (`Accum`: a half's 16 tiles), adds
    the two halves on the host, and takes the mean as a mean of row means (`KRun`, `Tail`); re-grouping
    the sums and the two-stage mean (`SpecAlg`: commutativity and associativity of +, and distributivity
    over sums of non-negative terms) gives `loss`.
  * The reference scatter-adds every pixel into its class row and takes the mean at once (`Ref`).
  No finiteness of the inputs is used: the laws above hold on all extended reals.
-/
import proofs.«170524_j53137335386661_1_alg».proof.Defs
import proofs.«170524_j53137335386661_1_alg».proof.Proof.Gen.Kernel
import proofs.«170524_j53137335386661_1_alg».proof.Proof.Gen.Kernel.Frame
import proofs.«170524_j53137335386661_1_alg».proof.Proof.Gen.KernelIdeal
import proofs.«170524_j53137335386661_1_alg».proof.Proof.Gen.KernelIdeal.Frame
import proofs.«170524_j53137335386661_1_alg».proof.Proof.Gen.ReferenceIdeal
import proofs.«170524_j53137335386661_1_alg».proof.Proof.Gen.ReferenceIdeal.Run
import proofs.«170524_j53137335386661_1_alg».proof.Proof.Gen.ReferenceIdeal.Read
import proofs.«170524_j53137335386661_1_alg».proof.Proof.Gen.Pre_finite_inputs
import proofs.«170524_j53137335386661_1_alg».proof.Proof.Spec
import proofs.«170524_j53137335386661_1_alg».proof.Proof.SpecAlg
import proofs.«170524_j53137335386661_1_alg».proof.Proof.Accum
import proofs.«170524_j53137335386661_1_alg».proof.Proof.KRun
import proofs.«170524_j53137335386661_1_alg».proof.Proof.Ref
import Idealize.ShloMosaic.Adequacy
import Idealize.ShloMosaic.Init

noncomputable section

namespace Cert.Proof

open Idealize.ShloMosaic Idealize.ShloMosaic.TcCoe Idealize.SL.Sem Idealize.ShloMosaic.ValueIdx

/-- The common value of the two programs' results, from the kernel program's launch memory. -/
def value (m : (ℓ : Loc Cert.KernelIdeal.nD Cert.KernelIdeal.τ Cert.KernelIdeal.sig) → Buf (Elt Ideal) ℓ) (c : Dev Cert.KernelIdeal.nD) : EReal :=
  Cert.Spec.loss
    (Cert.Spec.segS (Cert.Spec.featOf (m ((c.tc : Thread Cert.KernelIdeal.nD Cert.KernelIdeal.τ).loc Cert.KernelIdeal.main_arg0)))
      (Cert.Spec.labOf (m ((c.tc : Thread Cert.KernelIdeal.nD Cert.KernelIdeal.τ).loc Cert.KernelIdeal.main_arg1))))
    (Cert.Spec.segC (Cert.Spec.labOf (m ((c.tc : Thread Cert.KernelIdeal.nD Cert.KernelIdeal.τ).loc Cert.KernelIdeal.main_arg1))))

/-- The kernel program's result: the two halves' sums added give the whole batch's, and the mean of row
    means is the mean. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 (F := Ideal) m ρ c (Proc.devRef .tc Cert.KernelIdeal.main_v14) = fun _ => value m c := by
  rw [Cert.KernelIdeal.KRun.W4_v14 m ρ c _ _ (Cert.KernelIdeal.Accum.arr2 (Cert.KernelIdeal.Gen.V0 m ρ) c)
    (Cert.KernelIdeal.Accum.arr3 (Cert.KernelIdeal.Gen.V0 m ρ) c)]
  funext _
  show Cert.Spec.c1 * Cert.Spec.lossK0
      (fun k ch => Cert.Spec.halfS _ _ 0 k ch + Cert.Spec.halfS _ _ 1 k ch)
      (fun k => Cert.Spec.halfC _ 0 k + Cert.Spec.halfC _ 1 k) = _
  simp only [Cert.Spec.halfS_add, Cert.Spec.halfC_add]
  exact Cert.Spec.lossK_eq _ _

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at `value`: the kernel's by `kernel_value`, the reference's by its run read back, from
    arguments that agree. -/
theorem algebraic : Cert.algebraic_KernelIdeal_ReferenceIdeal := by
  intro m ρ m' ρ' _ hagree
  refine ⟨fun c _ => value m c, ?_, ?_⟩
  · exact (θ_run Cert.KernelIdeal.defs _ _).mono (fun r h c => ⟨(h c).1.trans (kernel_value m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, Cert.ReferenceIdeal.RefValue.ref_eq, (hagree c).1, (hagree c).2.1]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
